-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1024 : Shape := ⟨2, ![100000, 1024]⟩
abbrev S2x1200000 : Shape := ⟨2, ![2, 1200000]⟩
abbrev S1024x64 : Shape := ⟨2, ![1024, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S_ : Shape := ⟨0, ![]⟩

class Facts : Prop where
  bcast_S_S100000x1024 : S_.BroadcastsInDim S100000x1024 (![] : Fin 0 → Fin S100000x1024.rank)
  reducesTo_S100000x1024_S_d0_1 : S100000x1024.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg8 : FVec F S64x64 .f32) (main_arg9 : FVec F S64 .f32) (main_arg10 : FVec F S64x40 .f32) (main_arg11 : FVec F S40 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x40 .f32 := Host.absf main_arg10
  let main_cst_16 : FVec F S_ .f32 := constant S_ .f32 0x7F800000#32
  let main_v45 : FVec F S64x40 .f32 := broadcastInDim S64x40 ![] bcast_S_S64x40 main_cst_16
  let main_v46 : IVec S64x40 1 := cmpf .olt main_v44 main_v45
  let main_c_17 : IVec S_ 1 := constantI S_ 1 1#1
  let main_v47 : IVec S_ 1 := (fun x v => Host.reduce IntOp.andi x v reducesTo_S64x40_S_d0_1 h_S_) main_v46 main_c_17
  let main_v48 : IVec S_ 1 := andi main_v43 main_v47
  let main_v49 : FVec F S40 .f32 := Host.absf main_arg11
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_arg10 : FVec F S64x40 .f32) (main_arg11 : FVec F S40 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x1024 .f32) (main_arg1 : IVec S2x1200000 32) (main_arg2 : FVec F S1024x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x40 .f32) (main_arg11 : FVec F S40 .f32) : IVec S_ 1 :=
  let main_v0 : FVec F S100000x1024 .f32 := Host.absf main_arg0
  let main_cst : FVec F S_ .f32 := constant S_ .f32 0x7F800000#32
  let main_v1 : FVec F S100000x1024 .f32 := broadcastInDim S100000x1024 ![] bcast_S_S100000x1024 main_cst
  let main_v2 : IVec S100000x1024 1 := cmpf .olt main_v0 main_v1
  let main_c : IVec S_ 1 := constantI S_ 1 1#1
  let main_v3 : IVec S_ 1 := (fun x v => Host.reduce IntOp.andi x v reducesTo_S100000x1024_S_d0_1 h_S_) main_v2 main_c
  let main_v4 : FVec F S1024x64 .f32 := Host.absf main_arg2
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_v13 main_v16
-- ==== Kernel.lean ====
abbrev S100000x1024 : Shape := ⟨2, ![100000, 1024]⟩
abbrev S2x1200000 : Shape := ⟨2, ![2, 1200000]⟩
abbrev S1024x64 : Shape := ⟨2, ![1024, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S1x1200000 : Shape := ⟨2, ![1, 1200000]⟩
abbrev S1200000 : Shape := ⟨1, ![1200000]⟩
abbrev S100000 : Shape := ⟨1, ![100000]⟩
abbrev S1300000 : Shape := ⟨1, ![1300000]⟩
abbrev S_ : Shape := ⟨0, ![]⟩
abbrev S1300000x1 : Shape := ⟨2, ![1300000, 1]⟩
abbrev S100000x1 : Shape := ⟨2, ![100000, 1]⟩
abbrev S100000x64 : Shape := ⟨2, ![100000, 64]⟩
abbrev S2000x1024 : Shape := ⟨2, ![2000, 1024]⟩
abbrev S2000x64 : Shape := ⟨2, ![2000, 64]⟩
abbrev S1x64 : Shape := ⟨2, ![1, 64]⟩
abbrev S1300000x64 : Shape := ⟨2, ![1300000, 64]⟩
abbrev S10000x64 : Shape := ⟨2, ![10000, 64]⟩
abbrev S100000x40 : Shape := ⟨2, ![100000, 40]⟩
abbrev S5000x64 : Shape := ⟨2, ![5000, 64]⟩
abbrev S5000x40 : Shape := ⟨2, ![5000, 40]⟩
abbrev S1x40 : Shape := ⟨2, ![1, 40]⟩

abbrev nBuf : Space → Nat
  | .hbm => 104
  | .vmem => 27
  | .smem => 0
  | _ => 0

abbrev bufTy : (tb : Table) → Fin (tcTables nBuf tb) → BufTy
  | .hbm, ⟨0, _⟩ => ⟨S100000x1024, .f32⟩
  | .hbm, ⟨1, _⟩ => ⟨S2x1200000, .i32⟩
  | .hbm, ⟨2, _⟩ => ⟨S1024x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x40, .f32⟩
  | .hbm, ⟨11, _⟩ => ⟨S40, .f32⟩
  | .hbm, ⟨12, _⟩ => ⟨S1x1200000, .i32⟩
  | .hbm, ⟨13, _⟩ => ⟨S1200000, .i32⟩
  | .hbm, ⟨14, _⟩ => ⟨S1x1200000, .i32⟩
  | .hbm, ⟨15, _⟩ => ⟨S1200000, .i32⟩
  | .hbm, ⟨16, _⟩ => ⟨S100000, .i32⟩
  | .hbm, ⟨17, _⟩ => ⟨S1300000, .i32⟩
  | .hbm, ⟨18, _⟩ => ⟨S1300000, .i32⟩
  | .hbm, ⟨19, _⟩ => ⟨S_, .f32⟩
  | .hbm, ⟨20, _⟩ => ⟨S1300000, .f32⟩
  | .hbm, ⟨21, _⟩ => ⟨S_, .f32⟩
  | .hbm, ⟨22, _⟩ => ⟨S100000, .f32⟩
  | .hbm, ⟨23, _⟩ => ⟨S1300000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S100000x64, .bf16⟩
  | .hbm, ⟨38, _⟩ => ⟨S_, .i32⟩
  | .hbm, ⟨39, _⟩ => ⟨S1300000, .i32⟩
  | .hbm, ⟨40, _⟩ => ⟨S1300000, .i1⟩
  | .hbm, ⟨41, _⟩ => ⟨S_, .i32⟩
  | .hbm, ⟨42, _⟩ => ⟨S1300000, .i32⟩
  | .hbm, ⟨43, _⟩ => ⟨S1300000, .i32⟩
  | .hbm, ⟨44, _⟩ => ⟨S1300000, .i32⟩
  | .hbm, ⟨45, _⟩ => ⟨S1300000x1, .i32⟩
  | .hbm, ⟨46, _⟩ => ⟨S1300000x64, .bf16⟩
  | .hbm, ⟨47, _⟩ => ⟨S1300000x64, .f32⟩
  | .hbm, ⟨48, _⟩ => ⟨S_, .f32⟩
  | .hbm, ⟨49, _⟩ => ⟨S100000x64, .f32⟩
  | .hbm, ⟨50, _⟩ => ⟨S1300000x1, .i32⟩
  | .hbm, ⟨51, _⟩ => ⟨S100000x64, .f32⟩
  | .hbm, ⟨52, _⟩ => ⟨S100000x64, .f32⟩
  | .hbm, ⟨53, _⟩ => ⟨S100000x64, .f32⟩
  | .hbm, ⟨54, _⟩ => ⟨S1x64, .f32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S100000x64, .f32⟩
  | .hbm, ⟨60, _⟩ => ⟨S100000x64, .bf16⟩
  | .hbm, ⟨61, _⟩ => ⟨S_, .i32⟩
  | .hbm, ⟨62, _⟩ => ⟨S1300000, .i32⟩
  | .hbm, ⟨63, _⟩ => ⟨S1300000, .i1⟩
  | .hbm, ⟨64, _⟩ => ⟨S_, .i32⟩
  | .hbm, ⟨65, _⟩ => ⟨S1300000, .i32⟩
  | .hbm, ⟨66, _⟩ => ⟨S1300000, .i32⟩
  | .hbm, ⟨67, _⟩ => ⟨S1300000, .i32⟩
  | .hbm, ⟨68, _⟩ => ⟨S1300000x1, .i32⟩
  | .hbm, ⟨69, _⟩ => ⟨S1300000x64, .bf16⟩
  | .hbm, ⟨70, _⟩ => ⟨S1300000x64, .f32⟩
  | .hbm, ⟨71, _⟩ => ⟨S_, .f32⟩
  | .hbm, ⟨72, _⟩ => ⟨S100000x64, .f32⟩
  | .hbm, ⟨73, _⟩ => ⟨S1300000x1, .i32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S100000x64, .f32⟩
  | .hbm, ⟨82, _⟩ => ⟨S100000x64, .f32⟩
  | .hbm, ⟨83, _⟩ => ⟨S100000x64, .bf16⟩
  | .hbm, ⟨84, _⟩ => ⟨S_, .i32⟩
  | .hbm, ⟨85, _⟩ => ⟨S1300000, .i32⟩
  | .hbm, ⟨86, _⟩ => ⟨S1300000, .i1⟩
  | .hbm, ⟨87, _⟩ => ⟨S_, .i32⟩
  | .hbm, ⟨88, _⟩ => ⟨S1300000, .i32⟩
  | .hbm, ⟨89, _⟩ => ⟨S1300000, .i32⟩
  | .hbm, ⟨90, _⟩ => ⟨S1300000, .i32⟩
  | .hbm, ⟨91, _⟩ => ⟨S1300000x1, .i32⟩
  | .hbm, ⟨92, _⟩ => ⟨S1300000x64, .bf16⟩
  | .hbm, ⟨93, _⟩ => ⟨S1300000x64, .f32⟩
  | .hbm, ⟨94, _⟩ => ⟨S_, .f32⟩
  | .hbm, ⟨95, _⟩ => ⟨S100000x64, .f32⟩
  | .hbm, ⟨96, _⟩ => ⟨S1300000x1, .i32⟩
  | .hbm, ⟨97, _⟩ => ⟨S100000x64, .f32⟩
  | .hbm, ⟨98, _⟩ => ⟨S100000x64, .f32⟩
  | .hbm, ⟨99, _⟩ => ⟨S100000x64, .f32⟩
  | .hbm, ⟨100, _⟩ => ⟨S1x64, .f32⟩
  | .hbm, ⟨101, _⟩ => ⟨S100000x64, .f32⟩
  | .hbm, ⟨102, _⟩ => ⟨S100000x64, .f32⟩
  | .hbm, ⟨103, _⟩ => ⟨S100000x40, .f32⟩
  | .local _ .vmem, ⟨0, _⟩ => ⟨S2000x1024, .f32⟩
  | .local _ .vmem, ⟨1, _⟩ => ⟨S2000x1024, .f32⟩
  | .local _ .vmem, ⟨2, _⟩ => ⟨S1024x64, .f32⟩
  | .local _ .vmem, ⟨3, _⟩ => ⟨S64, .f32⟩
  | .local _ .vmem, ⟨4, _⟩ => ⟨S64x64, .f32⟩
  | .local _ .vmem, ⟨5, _⟩ => ⟨S2000x64, .f32⟩
  | .local _ .vmem, ⟨6, _⟩ => ⟨S2000x64, .f32⟩
  | .local _ .vmem, ⟨7, _⟩ => ⟨S10000x64, .f32⟩
  | .local _ .vmem, ⟨8, _⟩ => ⟨S10000x64, .f32⟩
  | .local _ .vmem, ⟨9, _⟩ => ⟨S64x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S64x64, .f32⟩
  | .local _ .vmem, ⟨15, _⟩ => ⟨S10000x64, .f32⟩
  | .local _ .vmem, ⟨16, _⟩ => ⟨S10000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S64x40, .f32⟩
  | .local _ .vmem, ⟨24, _⟩ => ⟨S40, .f32⟩
  | .local _ .vmem, ⟨25, _⟩ => ⟨S5000x40, .f32⟩
  | .local _ .vmem, ⟨26, _⟩ => ⟨S5000x40, .f32⟩
  | _, _ => ⟨S100000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c : Ref sig .tc := ⟨.hbm, 38, rfl⟩
abbrev main_v20 : Ref sig .tc := ⟨.hbm, 39, rfl⟩
abbrev main_v21 : Ref sig .tc := ⟨.hbm, 40, rfl⟩
abbrev main_c_3 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_5 : Ref sig .tc := ⟨.hbm, 61, rfl⟩
abbrev main_v40 : Ref sig .tc := ⟨.hbm, 62, rfl⟩
abbrev main_v41 : Ref sig .tc := ⟨.hbm, 63, rfl⟩
abbrev main_c_6 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_7 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_8 : Ref sig .tc := ⟨.hbm, 84, rfl⟩
abbrev main_v60 : Ref sig .tc := ⟨.hbm, 85, rfl⟩
abbrev main_v61 : Ref sig .tc := ⟨.hbm, 86, rfl⟩
abbrev main_c_9 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_10 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg5_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc3_sem3_0 : DmaSem sig := 23
abbrev cc3_sem4_0 : DmaSem sig := 24
abbrev cc3_sem5_0 : DmaSem sig := 25
abbrev cc3_sem5_1 : DmaSem sig := 26

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x40 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S40 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x40 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  concatenates_S1200000_S100000_S1300000_d0 : Shape.Concatenates [S1200000, S100000] S1300000 0
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S100000_S100000x1_0 : S100000.BroadcastsInDim S100000x1 (![0] : Fin 1 → Fin S100000x1.rank)
  inb_S2000x1024_S2000x1024_0_0 : ∀ a, (![0, 0] : Fin 2 → Nat) a + S2000x1024.size a ≤ S2000x1024.size a
  h_S2000x1024 : 0 < S2000x1024.numel
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  inb_S2000x64_S2000x64_0_0 : ∀ a, (![0, 0] : Fin 2 → Nat) a + S2000x64.size a ≤ S2000x64.size a
  h_S2000x64 : 0 < S2000x64.numel
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x40_S64x40_0_0 : ∀ a, (![0, 0] : Fin 2 → Nat) a + S64x40.size a ≤ S64x40.size a
  h_S64x40 : 0 < S64x40.numel
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S100000_S1300000x1_S1300000_n_0_0_1_wf : ScatterDims.WF S100000 S1300000x1 S1300000 [] [0] [0] 1
  dot_S2000x1024_S1024x64_S2000x64_1_0_0_1_n_n_wf : DotDims.WF S2000x1024 S1024x64 S2000x64 [1] [0] [0] [1] [] []
  dot_S2000x64_S64x64_S2000x64_1_0_0_1_n_n_wf : DotDims.WF S2000x64 S64x64 S2000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S10000x64_S64x64_S10000x64_1_0_0_1_n_n_wf : DotDims.WF S10000x64 S64x64 S10000x64 [1] [0] [0] [1] [] []
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S100000x1024.size a
  hwx0_0 : ∀ i : grid0.Coords, EltTy.bits .f32 = 32 ∨ (Rect.block (s := S100000x1024) S2000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x64.size a ≤ S100000x64.size a
  hwx0_4 : ∀ i : grid0.Coords, EltTy.bits .f32 = 32 ∨ (Rect.block (s := S100000x64) S2000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x40.size a ≤ S64x40.size a
  hwx3_3 : ∀ i : grid3.Coords, EltTy.bits .f32 = 32 ∨ (Rect.block (s := S64x40) S64x40.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S40.size a ≤ S40.size a
  hwx3_4 : ∀ i : grid3.Coords, EltTy.bits .f32 = 32 ∨ (Rect.block (s := S40) S40.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x40.size a ≤ S100000x40.size a
  hwx3_5 : ∀ i : grid3.Coords, EltTy.bits .f32 = 32 ∨ (Rect.block (s := S100000x40) S5000x40.size (cc3_transform_5 i) (hinb3_5 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def dot_S2000x1024_S1024x64_S2000x64_1_0_0_1_n_n : DotDims S2000x1024 S1024x64 S2000x64 where
  lhsContracting := [1]
  rhsContracting := [0]
  lhsNonContracting := [0]
  rhsNonContracting := [1]
  lhsBatch := []
  rhsBatch := []
  wf := dot_S2000x1024_S1024x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_arg0) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S2000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v35) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v55) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v35) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v75) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S64x40.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S40.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v76) S5000x40.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x1024 : Shape := ⟨2, ![100000, 1024]⟩
abbrev S2x1200000 : Shape := ⟨2, ![2, 1200000]⟩
abbrev S1024x64 : Shape := ⟨2, ![1024, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S1x1200000 : Shape := ⟨2, ![1, 1200000]⟩
abbrev S1200000 : Shape := ⟨1, ![1200000]⟩
abbrev S100000x64 : Shape := ⟨2, ![100000, 64]⟩
abbrev S1x64 : Shape := ⟨2, ![1, 64]⟩
abbrev S_ : Shape := ⟨0, ![]⟩
abbrev S100000 : Shape := ⟨1, ![100000]⟩
abbrev S1300000 : Shape := ⟨1, ![1300000]⟩
abbrev S1300000x1 : Shape := ⟨2, ![1300000, 1]⟩
abbrev S1300000x64 : Shape := ⟨2, ![1300000, 64]⟩
abbrev S100000x40 : Shape := ⟨2, ![100000, 40]⟩
abbrev S1x40 : Shape := ⟨2, ![1, 40]⟩

abbrev nBuf : Space → Nat
  | .hbm => 203
  | .vmem => 0
  | .smem => 0
  | _ => 0

abbrev hbmTy0_0 (i : Nat) : BufTy := match i % 128 with
  | 0 => ⟨S100000x1024, .f32⟩
  | 1 => ⟨S2x1200000, .i32⟩
  | 2 => ⟨S1024x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x40, .f32⟩
  | 11 => ⟨S40, .f32⟩
  | 12 => ⟨S1x1200000, .i32⟩
  | 13 => ⟨S1200000, .i32⟩
  | 14 => ⟨S1x1200000, .i32⟩
  | 15 => ⟨S1200000, .i32⟩
  | 16 => ⟨S100000x64, .f32⟩
  | 17 => ⟨S1x64, .f32⟩
  | 18 => ⟨S100000x64, .f32⟩
  | 19 => ⟨S100000x64, .f32⟩
  | 20 => ⟨S_, .f32⟩
  | 21 => ⟨S100000x64, .f32⟩
  | 22 => ⟨S100000x64, .f32⟩
  | 23 => ⟨S100000x64, .f32⟩
  | 24 => ⟨S100000, .i32⟩
  | 25 => ⟨S1300000, .i32⟩
  | 26 => ⟨S1300000, .i32⟩
  | 27 => ⟨S_, .f32⟩
  | 28 => ⟨S1300000, .f32⟩
  | 29 => ⟨S_, .f32⟩
  | 30 => ⟨S100000, .f32⟩
  | 31 => ⟨S1300000x1, .i32⟩
  | 32 => ⟨S100000, .f32⟩
  | 33 => ⟨S_, .f32⟩
  | 34 => ⟨S100000, .f32⟩
  | 35 => ⟨S100000, .i1⟩
  | 36 => ⟨S100000, .f32⟩
  | 37 => ⟨S_, .f32⟩
  | 38 => ⟨S_, .f32⟩
  | 39 => ⟨S100000, .f32⟩
  | 40 => ⟨S100000, .f32⟩
  | 41 => ⟨S_, .i32⟩
  | 42 => ⟨S1300000, .i32⟩
  | 43 => ⟨S1300000, .i1⟩
  | 44 => ⟨S_, .i32⟩
  | 45 => ⟨S1300000, .i32⟩
  | 46 => ⟨S1300000, .i32⟩
  | 47 => ⟨S1300000, .i32⟩
  | 48 => ⟨S1300000x1, .i32⟩
  | 49 => ⟨S1300000, .f32⟩
  | 50 => ⟨S_, .i32⟩
  | 51 => ⟨S1300000, .i32⟩
  | 52 => ⟨S1300000, .i1⟩
  | 53 => ⟨S_, .i32⟩
  | 54 => ⟨S1300000, .i32⟩
  | 55 => ⟨S1300000, .i32⟩
  | 56 => ⟨S1300000, .i32⟩
  | 57 => ⟨S1300000x1, .i32⟩
  | 58 => ⟨S1300000, .f32⟩
  | 59 => ⟨S1300000, .f32⟩
  | 60 => ⟨S_, .i32⟩
  | 61 => ⟨S1300000, .i32⟩
  | 62 => ⟨S1300000, .i1⟩
  | 63 => ⟨S_, .i32⟩
  | 64 => ⟨S1300000, .i32⟩
  | 65 => ⟨S1300000, .i32⟩
  | 66 => ⟨S1300000, .i32⟩
  | 67 => ⟨S1300000x1, .i32⟩
  | 68 => ⟨S1300000x64, .f32⟩
  | 69 => ⟨S1300000x1, .f32⟩
  | 70 => ⟨S1300000x64, .f32⟩
  | 71 => ⟨S1300000x64, .f32⟩
  | 72 => ⟨S_, .f32⟩
  | 73 => ⟨S100000x64, .f32⟩
  | 74 => ⟨S1300000x1, .i32⟩
  | 75 => ⟨S100000x64, .f32⟩
  | 76 => ⟨S1x64, .f32⟩
  | 77 => ⟨S100000x64, .f32⟩
  | 78 => ⟨S100000x64, .f32⟩
  | 79 => ⟨S100000x64, .f32⟩
  | 80 => ⟨S100000, .i32⟩
  | 81 => ⟨S1300000, .i32⟩
  | 82 => ⟨S1300000, .i32⟩
  | 83 => ⟨S_, .f32⟩
  | 84 => ⟨S1300000, .f32⟩
  | 85 => ⟨S_, .f32⟩
  | 86 => ⟨S100000, .f32⟩
  | 87 => ⟨S1300000x1, .i32⟩
  | 88 => ⟨S100000, .f32⟩
  | 89 => ⟨S_, .f32⟩
  | 90 => ⟨S100000, .f32⟩
  | 91 => ⟨S100000, .i1⟩
  | 92 => ⟨S100000, .f32⟩
  | 93 => ⟨S_, .f32⟩
  | 94 => ⟨S_, .f32⟩
  | 95 => ⟨S100000, .f32⟩
  | 96 => ⟨S100000, .f32⟩
  | 97 => ⟨S_, .i32⟩
  | 98 => ⟨S1300000, .i32⟩
  | 99 => ⟨S1300000, .i1⟩
  | 100 => ⟨S_, .i32⟩
  | 101 => ⟨S1300000, .i32⟩
  | 102 => ⟨S1300000, .i32⟩
  | 103 => ⟨S1300000, .i32⟩
  | 104 => ⟨S1300000x1, .i32⟩
  | 105 => ⟨S1300000, .f32⟩
  | 106 => ⟨S_, .i32⟩
  | 107 => ⟨S1300000, .i32⟩
  | 108 => ⟨S1300000, .i1⟩
  | 109 => ⟨S_, .i32⟩
  | 110 => ⟨S1300000, .i32⟩
  | 111 => ⟨S1300000, .i32⟩
  | 112 => ⟨S1300000, .i32⟩
  | 113 => ⟨S1300000x1, .i32⟩
  | 114 => ⟨S1300000, .f32⟩
  | 115 => ⟨S1300000, .f32⟩
  | 116 => ⟨S_, .i32⟩
  | 117 => ⟨S1300000, .i32⟩
  | 118 => ⟨S1300000, .i1⟩
  | 119 => ⟨S_, .i32⟩
  | 120 => ⟨S1300000, .i32⟩
  | 121 => ⟨S1300000, .i32⟩
  | 122 => ⟨S1300000, .i32⟩
  | 123 => ⟨S1300000x1, .i32⟩
  | 124 => ⟨S1300000x64, .f32⟩
  | 125 => ⟨S1300000x1, .f32⟩
  | 126 => ⟨S1300000x64, .f32⟩
  | 127 => ⟨S1300000x64, .f32⟩
  | _ => ⟨S100000x1024, .f32⟩

abbrev hbmTy0_1 (i : Nat) : BufTy := match i % 128 with
  | 0 => ⟨S_, .f32⟩
  | 1 => ⟨S100000x64, .f32⟩
  | 2 => ⟨S1300000x1, .i32⟩
  | 3 => ⟨S100000x64, .f32⟩
  | 4 => ⟨S1x64, .f32⟩
  | 5 => ⟨S100000x64, .f32⟩
  | 6 => ⟨S100000x64, .f32⟩
  | 7 => ⟨S100000x64, .f32⟩
  | 8 => ⟨S100000, .i32⟩
  | 9 => ⟨S1300000, .i32⟩
  | 10 => ⟨S1300000, .i32⟩
  | 11 => ⟨S_, .f32⟩
  | 12 => ⟨S1300000, .f32⟩
  | 13 => ⟨S_, .f32⟩
  | 14 => ⟨S100000, .f32⟩
  | 15 => ⟨S1300000x1, .i32⟩
  | 16 => ⟨S100000, .f32⟩
  | 17 => ⟨S_, .f32⟩
  | 18 => ⟨S100000, .f32⟩
  | 19 => ⟨S100000, .i1⟩
  | 20 => ⟨S100000, .f32⟩
  | 21 => ⟨S_, .f32⟩
  | 22 => ⟨S_, .f32⟩
  | 23 => ⟨S100000, .f32⟩
  | 24 => ⟨S100000, .f32⟩
  | 25 => ⟨S_, .i32⟩
  | 26 => ⟨S1300000, .i32⟩
  | 27 => ⟨S1300000, .i1⟩
  | 28 => ⟨S_, .i32⟩
  | 29 => ⟨S1300000, .i32⟩
  | 30 => ⟨S1300000, .i32⟩
  | 31 => ⟨S1300000, .i32⟩
  | 32 => ⟨S1300000x1, .i32⟩
  | 33 => ⟨S1300000, .f32⟩
  | 34 => ⟨S_, .i32⟩
  | 35 => ⟨S1300000, .i32⟩
  | 36 => ⟨S1300000, .i1⟩
  | 37 => ⟨S_, .i32⟩
  | 38 => ⟨S1300000, .i32⟩
  | 39 => ⟨S1300000, .i32⟩
  | 40 => ⟨S1300000, .i32⟩
  | 41 => ⟨S1300000x1, .i32⟩
  | 42 => ⟨S1300000, .f32⟩
  | 43 => ⟨S1300000, .f32⟩
  | 44 => ⟨S_, .i32⟩
  | 45 => ⟨S1300000, .i32⟩
  | 46 => ⟨S1300000, .i1⟩
  | 47 => ⟨S_, .i32⟩
  | 48 => ⟨S1300000, .i32⟩
  | 49 => ⟨S1300000, .i32⟩
  | 50 => ⟨S1300000, .i32⟩
  | 51 => ⟨S1300000x1, .i32⟩
  | 52 => ⟨S1300000x64, .f32⟩
  | 53 => ⟨S1300000x1, .f32⟩
  | 54 => ⟨S1300000x64, .f32⟩
  | 55 => ⟨S1300000x64, .f32⟩
  | 56 => ⟨S_, .f32⟩
  | 57 => ⟨S100000x64, .f32⟩
  | 58 => ⟨S1300000x1, .i32⟩
  | 59 => ⟨S100000x64, .f32⟩
  | 60 => ⟨S1x64, .f32⟩
  | 61 => ⟨S100000x64, .f32⟩
  | 62 => ⟨S100000x64, .f32⟩
  | 63 => ⟨S100000x64, .f32⟩
  | 64 => ⟨S100000x64, .f32⟩
  | 65 => ⟨S_, .f32⟩
  | 66 => ⟨S100000x64, .f32⟩
  | 67 => ⟨S100000x64, .f32⟩
  | 68 => ⟨S100000x40, .f32⟩
  | 69 => ⟨S1x40, .f32⟩
  | 70 => ⟨S100000x40, .f32⟩
  | 71 => ⟨S100000x40, .f32⟩
  | 72 => ⟨S_, .f32⟩
  | 73 => ⟨S100000x40, .f32⟩
  | 74 => ⟨S100000x40, .f32⟩
  | _ => ⟨S100000x1024, .f32⟩

abbrev hbmTy (i : Nat) : BufTy := match i / 128 with
  | 0 => hbmTy0_0 i
  | 1 => hbmTy0_1 i
  | _ => ⟨S100000x1024, .f32⟩

abbrev bufTy : (tb : Table) → Fin (tcTables nBuf tb) → BufTy
  | .hbm, ⟨i, _⟩ => hbmTy i
  | _, _ => ⟨S100000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call0_cst : Ref sig .tc := ⟨.hbm, 20, rfl⟩
abbrev main_call0_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_call1_v0 : Ref sig .tc := ⟨.hbm, 38, rfl⟩
abbrev main_call1_v1 : Ref sig .tc := ⟨.hbm, 39, rfl⟩
abbrev main_v20 : Ref sig .tc := ⟨.hbm, 40, rfl⟩
abbrev main_c : Ref sig .tc := ⟨.hbm, 41, rfl⟩
abbrev main_v21 : Ref sig .tc := ⟨.hbm, 42, rfl⟩
abbrev main_v22 : Ref sig .tc := ⟨.hbm, 43, rfl⟩
abbrev main_c_3 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_4 : Ref sig .tc := ⟨.hbm, 50, rfl⟩
abbrev main_v28 : Ref sig .tc := ⟨.hbm, 51, rfl⟩
abbrev main_v29 : Ref sig .tc := ⟨.hbm, 52, rfl⟩
abbrev main_c_5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_6 : Ref sig .tc := ⟨.hbm, 60, rfl⟩
abbrev main_v36 : Ref sig .tc := ⟨.hbm, 61, rfl⟩
abbrev main_v37 : Ref sig .tc := ⟨.hbm, 62, rfl⟩
abbrev main_c_7 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_8 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_9 : Ref sig .tc := ⟨.hbm, 83, rfl⟩
abbrev main_v56 : Ref sig .tc := ⟨.hbm, 84, rfl⟩
abbrev main_cst_10 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_11 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_12 : Ref sig .tc := ⟨.hbm, 93, rfl⟩
abbrev main_call2_v0 : Ref sig .tc := ⟨.hbm, 94, rfl⟩
abbrev main_call2_v1 : Ref sig .tc := ⟨.hbm, 95, rfl⟩
abbrev main_v63 : Ref sig .tc := ⟨.hbm, 96, rfl⟩
abbrev main_c_13 : Ref sig .tc := ⟨.hbm, 97, rfl⟩
abbrev main_v64 : Ref sig .tc := ⟨.hbm, 98, rfl⟩
abbrev main_v65 : Ref sig .tc := ⟨.hbm, 99, rfl⟩
abbrev main_c_14 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_c_15 : Ref sig .tc := ⟨.hbm, 106, rfl⟩
abbrev main_v71 : Ref sig .tc := ⟨.hbm, 107, rfl⟩
abbrev main_v72 : Ref sig .tc := ⟨.hbm, 108, rfl⟩
abbrev main_c_16 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_c_17 : Ref sig .tc := ⟨.hbm, 116, rfl⟩
abbrev main_v79 : Ref sig .tc := ⟨.hbm, 117, rfl⟩
abbrev main_v80 : Ref sig .tc := ⟨.hbm, 118, rfl⟩
abbrev main_c_18 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_19 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_20 : Ref sig .tc := ⟨.hbm, 139, rfl⟩
abbrev main_v99 : Ref sig .tc := ⟨.hbm, 140, rfl⟩
abbrev main_cst_21 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_22 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_cst_23 : Ref sig .tc := ⟨.hbm, 149, rfl⟩
abbrev main_call3_v0 : Ref sig .tc := ⟨.hbm, 150, rfl⟩
abbrev main_call3_v1 : Ref sig .tc := ⟨.hbm, 151, rfl⟩
abbrev main_v106 : Ref sig .tc := ⟨.hbm, 152, rfl⟩
abbrev main_c_24 : Ref sig .tc := ⟨.hbm, 153, rfl⟩
abbrev main_v107 : Ref sig .tc := ⟨.hbm, 154, rfl⟩
abbrev main_v108 : Ref sig .tc := ⟨.hbm, 155, rfl⟩
abbrev main_c_25 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_c_26 : Ref sig .tc := ⟨.hbm, 162, rfl⟩
abbrev main_v114 : Ref sig .tc := ⟨.hbm, 163, rfl⟩
abbrev main_v115 : Ref sig .tc := ⟨.hbm, 164, rfl⟩
abbrev main_c_27 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_c_28 : Ref sig .tc := ⟨.hbm, 172, rfl⟩
abbrev main_v122 : Ref sig .tc := ⟨.hbm, 173, rfl⟩
abbrev main_v123 : Ref sig .tc := ⟨.hbm, 174, rfl⟩
abbrev main_c_29 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_cst_30 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_cst_31 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_call4_cst : Ref sig .tc := ⟨.hbm, 200, rfl⟩
abbrev main_call4_v0 : Ref sig .tc := ⟨.hbm, 201, rfl⟩
abbrev main_v146 : Ref sig .tc := ⟨.hbm, 202, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  concatenates_S1200000_S100000_S1300000_d0 : Shape.Concatenates [S1200000, S100000] S1300000 0
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  bcast_S_S100000x40 : S_.BroadcastsInDim S100000x40 (![] : Fin 0 → Fin S100000x40.rank)
  dot_S100000x1024_S1024x64_S100000x64_1_0_0_1_n_n_wf : DotDims.WF S100000x1024 S1024x64 S100000x64 [1] [0] [0] [1] [] []
  dot_S100000x64_S64x64_S100000x64_1_0_0_1_n_n_wf : DotDims.WF S100000x64 S64x64 S100000x64 [1] [0] [0] [1] [] []
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S100000x64_S64x40_S100000x40_1_0_0_1_n_n_wf : DotDims.WF S100000x64 S64x40 S100000x40 [1] [0] [0] [1] [] []

variable [Facts₀]

def dot_S100000x1024_S1024x64_S100000x64_1_0_0_1_n_n : DotDims S100000x1024 S1024x64 S100000x64 where
  lhsContracting := [1]
  rhsContracting := [0]
  lhsNonContracting := [0]
  rhsNonContracting := [1]
  lhsBatch := []
  rhsBatch := []
  wf := dot_S100000x1024_S1024x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.Spec.lean ====
/-
  The two programs as whole-array functions of their arguments.

  A graph-convolution network on N = 100000 nodes with E = 1200000 edges and one self-loop per node: the edge list
  gives M = 1300000 source words and M target words (the E given ones followed by 0 … N − 1).  The degree of a node
  is the number of target words naming it; d = 1/sqrt(degree) where the degree is positive, 0 elsewhere.  A layer
  takes node features h [N, 64] and a bias b and returns, at node v and lane j,

      kernel      d(v) · Σ_{e : target e = v} (h · d)(source e, j)  +  b(j)
      reference   Σ_{e : target e = v} h(source e, j) · (d(source e) · d(target e))  +  b(j)

  (the source row read with jnp's wrap of a negative index and the gather's clamp; the target word of the segment sum
  read as it is).  The network is  relu(((l1 + l2 + l3) / 3) · Wz + bz)  with  l1 = layer(relu(x · Wx + bx) · W1, b1),
  l2 = layer(l1 · W2, b2), l3 = layer(l2 · W3, b3).  Below, each of these is ONE term over whole arrays in the host's
  own operations; the kernel's and the reference's differ only in which layer they use.
-/
import proofs.«148871_j8967891714117_2_alg».proof.Proof.Gen.KernelIdeal
import proofs.«148871_j8967891714117_2_alg».proof.Proof.Gen.ReferenceIdeal

noncomputable section

namespace Cert.Gcn

open Idealize.ShloMosaic Cert.ReferenceIdeal Cert.ReferenceIdeal.Facts₀

/-- The source words: row 0 of the edge list, then the self-loops 0 … N − 1. -/
def srcW (ei : IVec S2x1200000 32) : IVec S1300000 32 :=
  concatenate S1300000 0 [⟨S1200000, shapeCast _ (extractStridedSlice S1x1200000 ![0, 0] ei slices_S2x1200000_S1x1200000_0_0) shapeCasts_S1x1200000_S1200000⟩,
    ⟨S100000, iotaInDim S100000 32 0⟩] concatenates_S1200000_S100000_S1300000_d0

/-- The target words: row 1 of the edge list, then the self-loops. -/
def dstW (ei : IVec S2x1200000 32) : IVec S1300000 32 :=
  concatenate S1300000 0 [⟨S1200000, shapeCast _ (extractStridedSlice S1x1200000 ![1, 0] ei slices_S2x1200000_S1x1200000_1_0) shapeCasts_S1x1200000_S1200000⟩,
    ⟨S100000, iotaInDim S100000 32 0⟩] concatenates_S1200000_S100000_S1300000_d0

/-- Index words as a column. -/
def colI (w : IVec S1300000 32) : IVec S1300000x1 32 := broadcastInDim S1300000x1 ![0] bcast_S1300000_S1300000x1_0 w

/-- jnp's wrap of negative index words: w < 0 ↦ w + N. -/
def wrapW (w : IVec S1300000 32) : IVec S1300000 32 :=
  select (cmpi .slt w (broadcastInDim S1300000 ![] bcast_S_S1300000 (constantI S_ 32 0#32)))
    (addi w (broadcastInDim S1300000 ![] bcast_S_S1300000 (constantI S_ 32 100000#32))) w

/-- The degree count: a segment sum of ones into zeros at the target words. -/
def degV (dst : IVec S1300000 32) : FVec Ideal S100000 .f32 :=
  Host.scatterAdd scatter_S100000_S1300000x1_S1300000_n_0_0_1
    (broadcastInDim S100000 ![] bcast_S_S100000 (constant (F := Ideal) S_ .f32 0x00000000#32)) (colI dst)
    (broadcastInDim S1300000 ![] bcast_S_S1300000 (constant (F := Ideal) S_ .f32 0x3F800000#32))

/-- d: the inverse square root of the degree where it is positive, zero elsewhere. -/
def dinvV (dst : IVec S1300000 32) : FVec Ideal S100000 .f32 :=
  select (cmpf .ogt (degV dst) (broadcastInDim S100000 ![] bcast_S_S100000 (constant (F := Ideal) S_ .f32 0x00000000#32)))
    (Host.rsqrt (degV dst)) (broadcastInDim S100000 ![] bcast_S_S100000 (constant (F := Ideal) S_ .f32 0x00000000#32))

/-- d as a column [N, 1]. -/
def colF (d : FVec Ideal S100000 .f32) : FVec Ideal Cert.KernelIdeal.S100000x1 .f32 :=
  broadcastInDim Cert.KernelIdeal.S100000x1 ![0] Cert.KernelIdeal.Facts₀.bcast_S100000_S100000x1_0 d

/-- A column [N, 1] spread over the 64 lanes. -/
def lanes (dcol : FVec Ideal Cert.KernelIdeal.S100000x1 .f32) : FVec Ideal S100000x64 .f32 :=
  broadcastInDim S100000x64 ![0, 1] Cert.KernelIdeal.Facts₀.bcast_S100000x1_S100000x64_0_1 dcol

/-- A bias [64] spread over the N rows. -/
def biasRows (b : FVec Ideal S64 .f32) : FVec Ideal S100000x64 .f32 :=
  broadcastInDim S100000x64 ![0, 1] bcast_S1x64_S100000x64_0_1 (broadcastInDim S1x64 ![1] bcast_S64_S1x64_1 b)

/-- The zero array a segment sum of rows starts from. -/
def zerosNC : FVec Ideal S100000x64 .f32 := broadcastInDim S100000x64 ![] bcast_S_S100000x64 (constant (F := Ideal) S_ .f32 0x00000000#32)

/-- THE KERNEL'S LAYER: rows prescaled by d, gathered at the source words, summed at the target words, rescaled by d,
    plus the bias. -/
def layerK (dcol : FVec Ideal Cert.KernelIdeal.S100000x1 .f32) (src dst : IVec S1300000 32) (hw : FVec Ideal S100000x64 .f32)
    (b : FVec Ideal S64 .f32) : FVec Ideal S100000x64 .f32 :=
  addf (mulf (lanes dcol)
      (Host.scatterAdd scatter_S100000x64_S1300000x1_S1300000x64_1_0_0_1 zerosNC (colI dst)
        (extf .f32 (Host.gather gather_S100000x64_S1300000x1_S1300000x64_1_0_n_n_0_1_164
          (truncf .bf16 (mulf hw (lanes dcol)) Cert.KernelIdeal.Facts₀.bitsLt_bf16_f32) (colI (wrapW src))) Cert.KernelIdeal.Facts₀.bitsLt_bf16_f32)))
    (biasRows b)

/-- THE REFERENCE'S LAYER: rows gathered at the source words, each scaled by d(source) · d(target), summed at the
    target words, plus the bias. -/
def layerR (dinv : FVec Ideal S100000 .f32) (src dst : IVec S1300000 32) (hw : FVec Ideal S100000x64 .f32)
    (b : FVec Ideal S64 .f32) : FVec Ideal S100000x64 .f32 :=
  addf (Host.scatterAdd scatter_S100000x64_S1300000x1_S1300000x64_1_0_0_1 zerosNC (colI dst)
      (mulf (Host.gather gather_S100000x64_S1300000x1_S1300000x64_1_0_n_n_0_1_164 hw (colI (wrapW src)))
        (broadcastInDim S1300000x64 ![0, 1] bcast_S1300000x1_S1300000x64_0_1
          (broadcastInDim S1300000x1 ![0] bcast_S1300000_S1300000x1_0
            (mulf (Host.gather gather_S100000_S1300000x1_S1300000_n_0_n_n_0_1_1 dinv (colI (wrapW src)))
              (Host.gather gather_S100000_S1300000x1_S1300000_n_0_n_n_0_1_1 dinv (colI (wrapW dst))))))))
    (biasRows b)

/-- relu(x · Wx + bx) · W1. -/
def proj (x : FVec Ideal S100000x1024 .f32) (wx : FVec Ideal S1024x64 .f32) (bx : FVec Ideal S64 .f32) (w1 : FVec Ideal S64x64 .f32) :
    FVec Ideal S100000x64 .f32 :=
  Host.dotGeneral dot_S100000x64_S64x64_S100000x64_1_0_0_1_n_n none
    (maximumf (addf (Host.dotGeneral dot_S100000x1024_S1024x64_S100000x64_1_0_0_1_n_n none x wx) (biasRows bx)) zerosNC) w1

/-- l · W. -/
def lin (l : FVec Ideal S100000x64 .f32) (w : FVec Ideal S64x64 .f32) : FVec Ideal S100000x64 .f32 :=
  Host.dotGeneral dot_S100000x64_S64x64_S100000x64_1_0_0_1_n_n none l w

/-- relu(((l1 + l2 + l3) / 3) · Wz + bz). -/
def head (l1 l2 l3 : FVec Ideal S100000x64 .f32) (wz : FVec Ideal S64x40 .f32) (bz : FVec Ideal S40 .f32) : FVec Ideal S100000x40 .f32 :=
  maximumf (addf (Host.dotGeneral dot_S100000x64_S64x40_S100000x40_1_0_0_1_n_n none
        (Host.divf (addf (addf l1 l2) l3) (broadcastInDim S100000x64 ![] bcast_S_S100000x64 (constant (F := Ideal) S_ .f32 0x40400000#32))) wz)
      (broadcastInDim S100000x40 ![0, 1] bcast_S1x40_S100000x40_0_1 (broadcastInDim S1x40 ![1] bcast_S40_S1x40_1 bz)))
    (broadcastInDim S100000x40 ![] bcast_S_S100000x40 (constant (F := Ideal) S_ .f32 0x00000000#32))

/-- The network over a layer function. -/
def net (layer : FVec Ideal S100000x64 .f32 → FVec Ideal S64 .f32 → FVec Ideal S100000x64 .f32)
    (x : FVec Ideal S100000x1024 .f32) (wx : FVec Ideal S1024x64 .f32) (bx : FVec Ideal S64 .f32)
    (w1 : FVec Ideal S64x64 .f32) (b1 : FVec Ideal S64 .f32) (w2 : FVec Ideal S64x64 .f32) (b2 : FVec Ideal S64 .f32)
    (w3 : FVec Ideal S64x64 .f32) (b3 : FVec Ideal S64 .f32) (wz : FVec Ideal S64x40 .f32) (bz : FVec Ideal S40 .f32) : FVec Ideal S100000x40 .f32 :=
  head (layer (proj x wx bx w1) b1) (layer (lin (layer (proj x wx bx w1) b1) w2) b2)
    (layer (lin (layer (lin (layer (proj x wx bx w1) b1) w2) b2) w3) b3) wz bz

/-- What the kernel computes. -/
def kerValue (ei : IVec S2x1200000 32) := net (layerK (colF (dinvV (dstW ei))) (srcW ei) (dstW ei))

/-- What the reference computes. -/
def refValue (ei : IVec S2x1200000 32) := net (layerR (dinvV (dstW ei)) (srcW ei) (dstW ei))

end Cert.Gcn

end
-- ==== Proof.RefValue.lean ====
/-
  The reference's result as one function of its arguments.

  The reference is a straight line of host operations; the term its run leaves in the result buffer is, written over
  the whole-array functions of the specification, the reference's network of the argument arrays — the same
  operations in the same order, so the two terms are equal by unfolding the names.
-/
import proofs.«148871_j8967891714117_2_alg».proof.Proof.Spec
import proofs.«148871_j8967891714117_2_alg».proof.Proof.RefRunP

set_option maxRecDepth 65536

noncomputable section

namespace Cert.ReferenceIdeal.RefValue

open Idealize.ShloMosaic Idealize.ShloMosaic.TcCoe Idealize.SL.Sem
open Cert.ReferenceIdeal Cert.Gcn

/-- The run's result term is the reference's network of the arguments. -/
theorem res_eq (m : (ℓ : Loc nD τ sig) → Buf (Elt Ideal) ℓ) (c : Dev nD) :
    Cert.ReferenceIdeal.ValueP.res_main_v146 (F := Ideal) m c
      = refValue (m ((c.tc : Thread nD τ).loc main_arg1)) (m ((c.tc : Thread nD τ).loc main_arg0)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) := by
  unfold Cert.ReferenceIdeal.ValueP.res_main_v146
  rfl

end Cert.ReferenceIdeal.RefValue

end
-- ==== Proof.LibIdxSums.lean ====
/-
  Sums over the entries of a vector and of a one-row matrix.

  An index of a vector of n entries is its one coordinate, and an index of a matrix [1, n] is its column (the row
  coordinate can only be 0). So a sum over all entries of such an array, in any commutative additive monoid, is the
  sum over the n positions: what a total sum of an array of shape [n] or [1, n] comes to, entry by entry.
-/
import Idealize.ShloMosaic.Lib.ValueIdx
import Mathlib.Algebra.BigOperators.Fin

noncomputable section

namespace Cert.Lib.IdxSums

open Idealize.ShloMosaic Idealize.ShloMosaic.ValueIdx
open scoped BigOperators

/-- A sum over the indices of a vector of n entries is the sum over its n positions. -/
theorem sum_idx1 {M : Type*} [AddCommMonoid M] {n : Nat} (f : (⟨1, ![n]⟩ : Shape).Idx → M) :
    ∑ j, f j = ∑ e : Fin n, f (ix1 e) :=
  Fintype.sum_equiv ⟨fun j => j 0, ix1, fun j => (eq_ix1 j).symm, fun _ => rfl⟩ f (fun e => f (ix1 e))
    (fun j => congrArg f (eq_ix1 j))

/-- A sum over the indices of a one-row matrix of n entries is the sum over its n columns. -/
theorem sum_row {M : Type*} [AddCommMonoid M] {n : Nat} (f : (⟨2, ![1, n]⟩ : Shape).Idx → M) :
    ∑ i, f i = ∑ e : Fin n, f (ix2 (0 : Fin 1) e) := by
  rw [sum_idx2, Fin.sum_univ_one]

end Cert.Lib.IdxSums

end
-- ==== Proof.LibScatterAdd.lean ====
/-
  The host's accumulating scatter (a segment sum) read at an index, at the ideal values.

  For an operand of N entries, a column of scatter indices `idx : [E, 1]` and E updates, the scatter with
  inserted window axis 0, scatter-dims-to-operand-dims [0] and index-vector axis 1 adds update e into the
  entry that the index word `idx[e, 0]`, read signed, names; an update whose word names no entry (negative,
  or N and beyond) is dropped — a scatter does not clamp.  At the ideal values the result at entry i is the
  operand's entry plus the plain sum, over all e, of the updates whose word names i: no order of addition is
  left in it.  The row form does the same for an [N, C] operand and [E, C] updates (update window axis 1):
  row e of the updates is added into the row its word names, lane by lane.
-/
import Idealize.ShloMosaic.Lib.ValueIdx
import Idealize.ShloMosaic.PureOps.Ideal
import Mathlib.Algebra.BigOperators.Fin
import proofs.«148871_j8967891714117_2_alg».proof.Proof.LibIdxSums

noncomputable section

namespace Cert.Lib.ScatterAdd

open Idealize.ShloMosaic Idealize.ShloMosaic.ValueIdx
open scoped BigOperators

/-- The dimension numbers of an entry scatter into a vector [N] at scatter indices [E, 1] of updates [E]; their
    conditions `wf` are decided on a program's literal shapes. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The dimension numbers of a row scatter into a table [N, C] at scatter indices [E, 1] of updates [E, C]. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)

/-- Update e of an entry scatter lands at the position its index word, read signed, names. -/
theorem vec_landing (idx : IVec ⟨2, ![E, 1]⟩ w) (e : Fin E) (a : Fin 1) :
    (vecDims N E wf).start (ix1 e) idx a + ((vecDims N E wf).window (ix1 e) a : Int)
      = (idx (ix2 e (0 : Fin 1))).toInt := by
  obtain rfl : a = 0 := Subsingleton.elim _ _
  have h1 : (vecDims N E wf).start (ix1 e) idx 0 = (idx (ix2 e (0 : Fin 1))).toInt := by
    unfold ScatterDims.start
    rw [dif_pos (show (0 : Fin 1) ∈ (vecDims N E wf).scatterDimsToOperandDims from List.mem_singleton.mpr rfl)]
    have hsi : (vecDims N E wf).siIdx (ix1 e) ⟨List.idxOf (0 : Fin 1) (vecDims N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have h2 : (vecDims N E wf).window (ix1 e) 0 = 0 := by
    unfold ScatterDims.window
    rw [dif_neg (fun h => by simp [Shape.kept] at h)]
  rw [h1, h2]; simp

/-- Update e lands on entry i exactly when its index word, read signed, is i. -/
theorem vec_resultIdx_iff (idx : IVec ⟨2, ![E, 1]⟩ w) (e : Fin E) (i : (⟨1, ![N]⟩ : Shape).Idx) :
    (vecDims N E wf).resultIdx? (ix1 e) idx = some i ↔ (idx (ix2 e (0 : Fin 1))).toInt = ((i 0).val : Int) := by
  unfold ScatterDims.resultIdx?
  split
  · next h =>
    rw [Option.some.injEq]
    constructor
    · intro hf
      have h0 := congrArg (fun g : (⟨1, ![N]⟩ : Shape).Idx => (g 0).val) hf
      simp only at h0
      have hl := vec_landing wf idx e 0
      have hp := (h 0).1
      rw [hl] at h0 hp
      omega
    · intro hv
      funext a
      obtain rfl : a = 0 := Subsingleton.elim _ _
      refine Fin.ext ?_
      show ((vecDims N E wf).start (ix1 e) idx 0 + ((vecDims N E wf).window (ix1 e) 0 : Int)).toNat = (i 0).val
      rw [vec_landing wf idx e 0, hv]; simp
  · next h =>
    constructor
    · intro hf; cases hf
    · intro hv
      exfalso; apply h
      intro a
      obtain rfl : a = 0 := Subsingleton.elim _ _
      rw [vec_landing wf idx e 0, hv]
      exact ⟨Int.natCast_nonneg _, by exact_mod_cast (i 0).isLt⟩

/-- THE ENTRY SCATTER-ADD READ AT i: the operand's entry plus the sum of the updates whose word names i. -/
theorem scatterAdd_vec_apply {φ : FTy} (x : FVec Ideal ⟨1, ![N]⟩ φ) (idx : IVec ⟨2, ![E, 1]⟩ w)
    (upd : FVec Ideal ⟨1, ![E]⟩ φ) (i : (⟨1, ![N]⟩ : Shape).Idx) :
    (Host.scatterAdd (vecDims N E wf) x idx upd i : EReal)
      = x i + ∑ e : Fin E, if (idx (ix2 e (0 : Fin 1))).toInt = ((i 0).val : Int) then (upd (ix1 e) : EReal) else 0 := by
  show Ideal.hostScatterAdd (vecDims N E wf) x idx upd i = _
  unfold Ideal.hostScatterAdd
  congr 1
  rw [Finset.sum_filter]
  rw [Cert.Lib.IdxSums.sum_idx1]
  refine Finset.sum_congr rfl fun e _ => ?_
  simp only [vec_resultIdx_iff wf idx e i]

end Vec

section Row
variable {N E C w : Nat} (wf : ScatterDims.WF ⟨2, ![N, C]⟩ ⟨2, ![E, 1]⟩ ⟨2, ![E, C]⟩ [1] [0] [0] 1)

/-- Row e of the updates lands in the row its index word, read signed, names… -/
theorem row_landing0 (idx : IVec ⟨2, ![E, 1]⟩ w) (e : Fin E) (q : Fin C) :
    (rowDims N E C wf).start (ix2 e q) idx 0 + ((rowDims N E C wf).window (ix2 e q) 0 : Int)
      = (idx (ix2 e (0 : Fin 1))).toInt := by
  have h1 : (rowDims N E C wf).start (ix2 e q) idx 0 = (idx (ix2 e (0 : Fin 1))).toInt := by
    unfold ScatterDims.start
    rw [dif_pos (show (0 : Fin 2) ∈ (rowDims N E C wf).scatterDimsToOperandDims from List.mem_singleton.mpr rfl)]
    have hsi : (rowDims N E C wf).siIdx (ix2 e q) ⟨List.idxOf (0 : Fin 2) (rowDims N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have h2 : (rowDims N E C wf).window (ix2 e q) 0 = 0 := by
    unfold ScatterDims.window
    rw [dif_neg (fun h => by simp [Shape.kept] at h)]
  rw [h1, h2]; simp

/-- …lane for lane. -/
theorem row_landing1 (idx : IVec ⟨2, ![E, 1]⟩ w) (e : Fin E) (q : Fin C) :
    (rowDims N E C wf).start (ix2 e q) idx 1 + ((rowDims N E C wf).window (ix2 e q) 1 : Int) = (q.val : Int) := by
  have h1 : (rowDims N E C wf).start (ix2 e q) idx 1 = 0 := by
    unfold ScatterDims.start
    rw [dif_neg (fun h => absurd (show (1 : Nat) = 0 from congrArg Fin.val (List.mem_singleton.mp h)) Nat.one_ne_zero)]
  have h2 : (rowDims N E C wf).window (ix2 e q) 1 = q.val := by
    unfold ScatterDims.window
    rw [dif_pos (show (1 : Fin 2) ∈ (rowDims N E C wf).sKept by simp [Shape.kept])]
    rfl
  rw [h1, h2]; simp

/-- Update (e, q) lands on entry (r, c) exactly when its row's index word, read signed, is r and q = c. -/
theorem row_resultIdx_iff (idx : IVec ⟨2, ![E, 1]⟩ w) (e : Fin E) (q : Fin C) (r : Fin N) (c : Fin C) :
    (rowDims N E C wf).resultIdx? (ix2 e q) idx = some (ix2 r c)
      ↔ (idx (ix2 e (0 : Fin 1))).toInt = (r.val : Int) ∧ q = c := by
  unfold ScatterDims.resultIdx?
  split
  · next h =>
    rw [Option.some.injEq]
    constructor
    · intro hf
      have h0 := congrArg (fun g : (⟨2, ![N, C]⟩ : Shape).Idx => (g 0).val) hf
      have h1 := congrArg (fun g : (⟨2, ![N, C]⟩ : Shape).Idx => (g 1).val) hf
      simp only at h0 h1
      have hp := (h 0).1
      rw [row_landing0 wf idx e q] at h0 hp
      rw [row_landing1 wf idx e q] at h1
      refine ⟨?_, Fin.ext ?_⟩
      · change ((idx (ix2 e (0 : Fin 1))).toInt).toNat = r.val at h0
        omega
      · change ((q.val : Int)).toNat = c.val at h1
        omega
    · rintro ⟨hv, rfl⟩
      funext a
      refine Fin.ext ?_
      match a with
      | ⟨0, _⟩ =>
        show ((rowDims N E C wf).start (ix2 e q) idx 0 + ((rowDims N E C wf).window (ix2 e q) 0 : Int)).toNat = r.val
        rw [row_landing0 wf idx e q, hv]; simp
      | ⟨1, _⟩ =>
        show ((rowDims N E C wf).start (ix2 e q) idx 1 + ((rowDims N E C wf).window (ix2 e q) 1 : Int)).toNat = q.val
        rw [row_landing1 wf idx e q]; simp
  · next h =>
    constructor
    · intro hf; cases hf
    · rintro ⟨hv, rfl⟩
      exfalso; apply h
      intro a
      match a with
      | ⟨0, _⟩ =>
        show 0 ≤ (rowDims N E C wf).start (ix2 e q) idx 0 + ((rowDims N E C wf).window (ix2 e q) 0 : Int)
          ∧ (rowDims N E C wf).start (ix2 e q) idx 0 + ((rowDims N E C wf).window (ix2 e q) 0 : Int) < (N : Int)
        rw [row_landing0 wf idx e q, hv]
        exact ⟨Int.natCast_nonneg _, by exact_mod_cast r.isLt⟩
      | ⟨1, _⟩ =>
        show 0 ≤ (rowDims N E C wf).start (ix2 e q) idx 1 + ((rowDims N E C wf).window (ix2 e q) 1 : Int)
          ∧ (rowDims N E C wf).start (ix2 e q) idx 1 + ((rowDims N E C wf).window (ix2 e q) 1 : Int) < (C : Int)
        rw [row_landing1 wf idx e q]
        exact ⟨Int.natCast_nonneg _, by exact_mod_cast q.isLt⟩

/-- THE ROW SCATTER-ADD READ AT (r, c): the operand's entry plus the sum, over the update rows whose word names
    row r, of their lane c. -/
theorem scatterAdd_rows_apply {φ : FTy} (x : FVec Ideal ⟨2, ![N, C]⟩ φ) (idx : IVec ⟨2, ![E, 1]⟩ w)
    (upd : FVec Ideal ⟨2, ![E, C]⟩ φ) (r : Fin N) (c : Fin C) :
    (Host.scatterAdd (rowDims N E C wf) x idx upd (ix2 r c) : EReal)
      = x (ix2 r c)
        + ∑ e : Fin E, if (idx (ix2 e (0 : Fin 1))).toInt = (r.val : Int) then (upd (ix2 e c) : EReal) else 0 := by
  show Ideal.hostScatterAdd (rowDims N E C wf) x idx upd (ix2 r c) = _
  unfold Ideal.hostScatterAdd
  congr 1
  rw [Finset.sum_filter, sum_idx2]
  refine Finset.sum_congr rfl fun e _ => ?_
  simp only [row_resultIdx_iff wf idx e _ r c]
  by_cases hv : (idx (ix2 e (0 : Fin 1))).toInt = (r.val : Int)
  · simp only [hv, true_and, if_true]
    rw [Finset.sum_ite_eq' Finset.univ c (fun q => (upd (ix2 e q) : EReal))]
    simp
  · simp only [hv, false_and, if_false, Finset.sum_const_zero]

end Row

end Cert.Lib.ScatterAdd

end
-- ==== Proof.LibRowGather.lean ====
/-
  Gathering whole rows of a table.  For a table `x : [N, C]` and a column of start indices `idx : [E, 1]`,
  the gather with offset axis 1, collapsed axis 0, start-index map [0], index-vector axis 1 and slices of one
  row ([1, C]) reads, at result index (e, j), the table at row `idx[e, 0]` — the index word read signed and
  clamped into [0, N - 1], as every gather clamps its start indices — and column j.  This is what `x[idx]`
  of a two-axis table at a flat integer array lowers to.
-/
import Idealize.ShloMosaic.Lib.ValueIdx

noncomputable section

namespace Idealize.ShloMosaic.RowGather

open Idealize.ShloMosaic Idealize.ShloMosaic.ValueIdx

variable {α : Type}

/-- The dimension numbers of a row gather from a table [N, C] at start indices [E, 1] into [E, C]; their
    conditions `wf` are decided on a program's literal shapes. -/
abbrev rowDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row an index word names in a table of `N` rows: the word read signed, clamped into [0, N - 1]. -/
def clampRow (N : Nat) (hN : 0 < N) {w : Nat} (v : BitVec w) : Fin N :=
  ⟨min v.toInt.toNat (N - 1), by omega⟩

/-- THE ROW GATHER READ AT (e, j): the table at the clamped row `idx[e, 0]` and column `j`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowDims N E C wf) x idx (ix2 e j)
      = x (ix2 (clampRow N hN (idx (ix2 e (0 : Fin 1)))) j) := by
  unfold Host.gather
  congr 1
  funext a
  refine Fin.ext ?_
  match a with
  | ⟨0, _⟩ =>
    show (rowDims N E C wf).start (ix2 e j) idx 0 + (rowDims N E C wf).batchCoord (ix2 e j) 0
      + (rowDims N E C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e j) ⟨List.idxOf (0 : Fin 2) (rowDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E C wf).start (ix2 e j) idx 1 + (rowDims N E C wf).batchCoord (ix2 e j) 1
      + (rowDims N E C wf).offCoord (ix2 e j) 1 = j.val
    rw [GatherDims.batchCoord_eq_zero _ _ _ List.not_mem_nil]
    unfold GatherDims.start
    rw [dif_neg (show (1 : Fin 2) ∉ (rowDims N E C wf).startIndexMap from
      fun h => absurd (show (1 : Nat) = 0 from congrArg Fin.val (List.mem_singleton.mp h)) Nat.one_ne_zero)]
    unfold GatherDims.offCoord
    rw [dif_pos (show (1 : Fin 2) ∈ (rowDims N E C wf).sKept from (GatherDims.mem_sKept _ _).mpr
      ⟨fun h => absurd (show (1 : Nat) = 0 from congrArg Fin.val (List.mem_singleton.mp h)) Nat.one_ne_zero, List.not_mem_nil⟩)]
    simp only [Nat.zero_add]
    rfl

end Idealize.ShloMosaic.RowGather

end
-- ==== Proof.LibVecGather.lean ====
/-
  Gathering single entries of a vector.  For a vector `x : [N]` and a column of start indices `idx : [E, 1]`,
  the gather with no offset axis, collapsed axis 0, start-index map [0], index-vector axis 1 and slices of one
  entry ([1]) reads, at result index e, the vector at `idx[e, 0]` — the index word read signed and clamped into
  [0, N - 1], as every gather clamps its start indices.  This is what `x[idx]` of a one-axis array at a flat
  integer array lowers to; the clamped entry is the same `clampRow` a row gather of an [N, C] table takes.
-/
import proofs.«148871_j8967891714117_2_alg».proof.Proof.LibRowGather

noncomputable section

namespace Idealize.ShloMosaic.VecGather

open Idealize.ShloMosaic Idealize.ShloMosaic.ValueIdx Idealize.ShloMosaic.RowGather

variable {α : Type}

/-- The dimension numbers of an entry gather from a vector [N] at start indices [E, 1] into [E]; their
    conditions `wf` are decided on a program's literal shapes. -/
abbrev vecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ENTRY GATHER READ AT e: the vector at the clamped entry `idx[e, 0]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e)
      = x (ix1 (clampRow N hN (idx (ix2 e (0 : Fin 1))))) := by
  unfold Host.gather
  congr 1
  funext a
  obtain rfl : a = 0 := Subsingleton.elim _ _
  refine Fin.ext ?_
  show (vecDims N E wf).start (ix1 e) idx 0 + (vecDims N E wf).batchCoord (ix1 e) 0
    + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Idealize.ShloMosaic.VecGather

end
-- ==== Proof.LibHostColumns.lean ====
/-
  A per-row value spread over the lanes by the host.  The host turns a vector [a] into the column [a, 1] by a
  broadcast onto axis 0, and spreads the column over b lanes by a broadcast onto axes 0 and 1.  Read at an
  index, the column at (i, 0) is the vector at i, and the spread array at (p, c) is the column at (p, 0): every
  lane of row p sees row p's value.  General facts, for any extents and entry type.
-/
import Idealize.ShloMosaic.Lib.Pipeline.Value
import Idealize.ShloMosaic.Lib.ValueIdx

noncomputable section

namespace Cert.Lib.HostColumns

open Idealize.ShloMosaic Idealize.ShloMosaic.ValueIdx

variable {α : Type}

/-- A vector [a] broadcast onto axis 0 of the column [a, 1] reads, at (i, u), the vector at i. -/
theorem bcast_vec_col_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply (![0] : Fin 1 → Fin 2) h x (ix2 i u) (ix1 i) (fun ax => ?_)
  match ax with
  | ⟨0, _⟩ =>
    show i.val = if a = 1 then 0 else i.val
    split
    · have := i.isLt; omega
    · rfl

/-- A column [a, 1] broadcast onto axes 0, 1 of [a, b] reads, at (p, c), the column at row p. -/
theorem bcast_col_lanes_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) (u : Fin 1) :
    broadcastInDim ⟨2, ![a, b]⟩ (![0, 1] : Fin 2 → Fin 2) h v (ix2 p c) = v (ix2 p u) := by
  refine broadcastInDim_apply (![0, 1] : Fin 2 → Fin 2) h v (ix2 p c) (ix2 p u) (fun ax => ?_)
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Cert.Lib.HostColumns

end
-- ==== Proof.LibRowBroadcast.lean ====
/-
  The host's broadcasts of a row and of a scalar, read at an index, generic in the extents.

  A row [1, C] broadcast onto axes 0, 1 of [R, C] reads, at (r, c), the row at (0, c): the same bias is
  added to every row.  A scalar broadcast to any shape reads the scalar everywhere.
-/
import Idealize.ShloMosaic.Lib.ValueIdx
import Idealize.ShloMosaic.Lib.Pipeline.Value

noncomputable section

namespace Cert.Lib.RowBroadcast

open Idealize.ShloMosaic Idealize.ShloMosaic.ValueIdx

variable {α : Type}

/-- A row [1, C] broadcast onto axes 0, 1 of [R, C], read at (r, c), is the row at (0, c). -/
theorem broadcastInDim_row_apply {R C : Nat} (x : (⟨2, ![1, C]⟩ : Shape).Idx → α)
    (h : (⟨2, ![1, C]⟩ : Shape).BroadcastsInDim ⟨2, ![R, C]⟩ (![0, 1] : Fin 2 → Fin 2)) (r : Fin R) (c : Fin C) :
    broadcastInDim ⟨2, ![R, C]⟩ (![0, 1] : Fin 2 → Fin 2) h x (ix2 r c) = x (ix2 0 c) :=
  broadcastInDim_apply (![0, 1] : Fin 2 → Fin 2) h x (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A scalar broadcast to any shape reads the scalar at every index. -/
theorem broadcastInDim_scalar_apply {t : Shape} (x : (⟨0, ![]⟩ : Shape).Idx → α)
    (h : (⟨0, ![]⟩ : Shape).BroadcastsInDim t (![] : Fin 0 → Fin t.rank)) (j : t.Idx) (k : (⟨0, ![]⟩ : Shape).Idx) :
    broadcastInDim t (![] : Fin 0 → Fin t.rank) h x j = x k :=
  broadcastInDim_apply (![] : Fin 0 → Fin t.rank) h x j k (fun a => a.elim0)

end Cert.Lib.RowBroadcast

end
-- ==== Proof.LibRows.lean ====
/-
  Three layout operations read at an index, generic in the extents.

  A row vector [1, C] broadcast down R rows reads, at (r, c), the row at (0, c).  A vector [C] reshaped to
  the row [1, C] reads, at (0, c), the vector at c.  A block of rows cut out of a matrix [K, N] at row
  offset o reads, at (q, k), the matrix at (o + q, k).
-/
import Idealize.ShloMosaic.Lib.ValueIdx
import Idealize.ShloMosaic.Lib.Pipeline.Value

noncomputable section

namespace Cert.Lib.Rows

open Idealize.ShloMosaic Idealize.ShloMosaic.ValueIdx

variable {α : Type}

/-- A row [1, C] broadcast to [R, C], read at (r, c), is the row at (0, c). -/
theorem broadcastTo_row_apply {R C : Nat} (x : (⟨2, ![1, C]⟩ : Shape).Idx → α)
    (h : (⟨2, ![1, C]⟩ : Shape).Broadcasts ⟨2, ![R, C]⟩) (r : Fin R) (c : Fin C) :
    broadcastTo ⟨2, ![R, C]⟩ x h (ix2 r c) = x (ix2 0 c) :=
  broadcastTo_apply x h (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A vector [C] reshaped to the row [1, C], read at (0, c), is the vector at c. -/
theorem shapeCast_vec_row_apply {C : Nat} (x : (⟨1, ![C]⟩ : Shape).Idx → α)
    (h : (⟨1, ![C]⟩ : Shape).ShapeCasts ⟨2, ![1, C]⟩) (c : Fin C) :
    shapeCast ⟨2, ![1, C]⟩ x h (ix2 0 c) = x (ix1 c) :=
  shapeCast_apply x h (ix2 0 c) (ix1 c) (by
    rw [Shape.rowMajor_val_one, Shape.rowMajor_val_two]
    show c.val = (0 : Nat) * C + c.val
    omega)

/-- Rows o … o + K' − 1 of a matrix [K, N], read at (q, k), are the matrix at (o + q, k). -/
theorem slice_rows_apply {K K' N o : Nat} (x : (⟨2, ![K, N]⟩ : Shape).Idx → α)
    (h : (⟨2, ![K, N]⟩ : Shape).Slices ![o, 0] ⟨2, ![K', N]⟩) (q : Fin K') (k : Fin N) (hq : o + q.val < K) :
    extractStridedSlice ⟨2, ![K', N]⟩ ![o, 0] x h (ix2 q k) = x (ix2 ⟨o + q.val, hq⟩ k) :=
  extractStridedSlice_apply ![o, 0] x h (ix2 q k) (ix2 ⟨o + q.val, hq⟩ k) (fun a => by
    match a with
    | ⟨0, _⟩ => rfl
    | ⟨1, _⟩ => show k.val = 0 + k.val; omega)

end Cert.Lib.Rows

end
-- ==== Proof.LibGraphOps.lean ====
/-
  The host operations of a message-passing layer read at an index, for any extents.

  A graph layer on the host is built from a handful of composite steps, and each of them, read at an index, is a
  plain expression of its operands at indices:
    · a row of the [2, E] edge list, sliced out and flattened, at e is the edge list at (row, e);
    · jnp's indexing first wraps a negative index word around (w < 0 ↦ w + n), then a gather clamps it;
    · a per-edge value [M] made a column [M, 1] and spread over C lanes reads, at (e, c), the value at e;
    · a segment sum of constant updates into a constant array (the degree count) at i is the constant plus the
      sum, over the edges whose index word names i, of the update constant;
    · a segment sum of rows into a constant array (the aggregation) at (r, c) is the constant plus the sum,
      over the edges whose index word names r, of lane c of the edge's row;
    · the "where(d > 0, rsqrt(max(d, eps)), 0)" chain at i is one scalar function of d at i.
  The sums are exact sums on the extended reals: nothing depends on the order of the edges.
-/
import Idealize.ShloMosaic.Lib.ValueIdx
import Idealize.ShloMosaic.Lib.Pipeline.Value
import Idealize.ShloMosaic.PureOps.Ideal.Laws
import proofs.«148871_j8967891714117_2_alg».proof.Proof.LibScatterAdd
import proofs.«148871_j8967891714117_2_alg».proof.Proof.LibVecGather
import proofs.«148871_j8967891714117_2_alg».proof.Proof.LibHostColumns
import proofs.«148871_j8967891714117_2_alg».proof.Proof.LibRowBroadcast
import proofs.«148871_j8967891714117_2_alg».proof.Proof.LibRows

noncomputable section

namespace Cert.Lib.GraphOps

open Idealize.ShloMosaic Idealize.ShloMosaic.ValueIdx Idealize.ShloMosaic.RowGather
open Cert.Lib.HostColumns Cert.Lib.RowBroadcast Cert.Lib.ScatterAdd
open scoped BigOperators

/-- jnp's index normalisation on one word: a negative index counts from the end of an axis of extent n. -/
def wrapIdx (n : Nat) (v : BitVec 32) : BitVec 32 :=
  Scalar.select (IntOp.cmpi .slt v 0#32) (IntOp.addi v (BitVec.ofNat 32 n)) v

/-- The inverse square root of a degree, guarded as the layer guards it: 0 unless the degree is positive. -/
def invSqrtDeg (d : EReal) : EReal :=
  Scalar.select (FloatOps.cmpf (F := Ideal) (φ := .f32) .ogt d (Ideal.ofBits .f32 0x00000000#32))
    (FloatOps.hostUnary (F := Ideal) (φ := .f32) .rsqrt (FloatOps.maximumf (F := Ideal) (φ := .f32) d (Ideal.ofBits .f32 0x2B8CBCCC#32)))
    (Ideal.ofBits .f32 0x00000000#32)

section
variable {α : Type}

/-- Row o of the [2, E] edge list, sliced out as [1, E] and flattened to [E], at e: the edge list at (o, e). -/
theorem edge_row_apply {E : Nat} (o : Nat) (ho : o < 2) (x : (⟨2, ![2, E]⟩ : Shape).Idx → α)
    (hs : (⟨2, ![2, E]⟩ : Shape).Slices ![o, 0] ⟨2, ![1, E]⟩) (hc : (⟨2, ![1, E]⟩ : Shape).ShapeCasts ⟨1, ![E]⟩) (e : Fin E) :
    shapeCast ⟨1, ![E]⟩ (extractStridedSlice ⟨2, ![1, E]⟩ ![o, 0] x hs) hc (ix1 e) = x (ix2 (⟨o, ho⟩ : Fin 2) e) := by
  rw [shapeCast_apply _ hc (ix1 e) (ix2 (0 : Fin 1) e) (by
    rewrite [Shape.rowMajor_val_two, Shape.rowMajor_val_one]; show 0 * E + e.val = e.val; omega)]
  rw [Cert.Lib.Rows.slice_rows_apply x hs 0 e (by show o + 0 < 2; omega)]
  rfl

/-- A per-edge value made a column and spread over the lanes reads, at (e, c), the value at e. -/
theorem spread_apply {M C : Nat} (v : (⟨1, ![M]⟩ : Shape).Idx → α)
    (h1 : (⟨1, ![M]⟩ : Shape).BroadcastsInDim ⟨2, ![M, 1]⟩ (![0] : Fin 1 → Fin 2))
    (h2 : (⟨2, ![M, 1]⟩ : Shape).BroadcastsInDim ⟨2, ![M, C]⟩ (![0, 1] : Fin 2 → Fin 2)) (e : Fin M) (c : Fin C) :
    broadcastInDim ⟨2, ![M, C]⟩ (![0, 1] : Fin 2 → Fin 2) h2 (broadcastInDim ⟨2, ![M, 1]⟩ (![0] : Fin 1 → Fin 2) h1 v) (ix2 e c)
      = v (ix1 e) := by
  rw [bcast_col_lanes_apply _ h2 e c 0, bcast_vec_col_apply v h1 e 0]
end

/-- The wrapped index words as a column [M, 1], at (e, 0): the word at e, wrapped. -/
theorem wrapped_col_apply {M : Nat} (n : Nat) (w : IVec ⟨1, ![M]⟩ 32)
    (h0 : (⟨0, ![]⟩ : Shape).BroadcastsInDim ⟨1, ![M]⟩ (![] : Fin 0 → Fin 1))
    (h1 : (⟨1, ![M]⟩ : Shape).BroadcastsInDim ⟨2, ![M, 1]⟩ (![0] : Fin 1 → Fin 2)) (e : Fin M) :
    broadcastInDim ⟨2, ![M, 1]⟩ (![0] : Fin 1 → Fin 2) h1
        (select (cmpi .slt w (broadcastInDim ⟨1, ![M]⟩ (![] : Fin 0 → Fin 1) h0 (constantI ⟨0, ![]⟩ 32 0#32)))
          (addi w (broadcastInDim ⟨1, ![M]⟩ (![] : Fin 0 → Fin 1) h0 (constantI ⟨0, ![]⟩ 32 (BitVec.ofNat 32 n)))) w)
        (ix2 e (0 : Fin 1))
      = wrapIdx n (w (ix1 e)) := by
  rw [bcast_vec_col_apply _ h1 e 0]
  show Scalar.select (IntOp.cmpi .slt (w (ix1 e))
        (broadcastInDim ⟨1, ![M]⟩ (![] : Fin 0 → Fin 1) h0 (constantI ⟨0, ![]⟩ 32 0#32) (ix1 e)))
      (IntOp.addi (w (ix1 e))
        (broadcastInDim ⟨1, ![M]⟩ (![] : Fin 0 → Fin 1) h0 (constantI ⟨0, ![]⟩ 32 (BitVec.ofNat 32 n)) (ix1 e)))
      (w (ix1 e)) = _
  rw [broadcastInDim_scalar_apply (constantI ⟨0, ![]⟩ 32 0#32) h0 (ix1 e) ix0,
    broadcastInDim_scalar_apply (constantI ⟨0, ![]⟩ 32 (BitVec.ofNat 32 n)) h0 (ix1 e) ix0]
  rfl

/-- THE DEGREE COUNT: a segment sum of the constant `ow` per edge into the constant `zw`, at node i. -/
theorem count_apply {N M : Nat} (wf : ScatterDims.WF ⟨1, ![N]⟩ ⟨2, ![M, 1]⟩ ⟨1, ![M]⟩ [] [0] [0] 1)
    (h0N : (⟨0, ![]⟩ : Shape).BroadcastsInDim ⟨1, ![N]⟩ (![] : Fin 0 → Fin 1))
    (h0M : (⟨0, ![]⟩ : Shape).BroadcastsInDim ⟨1, ![M]⟩ (![] : Fin 0 → Fin 1))
    (h1 : (⟨1, ![M]⟩ : Shape).BroadcastsInDim ⟨2, ![M, 1]⟩ (![0] : Fin 1 → Fin 2))
    (w : IVec ⟨1, ![M]⟩ 32) (zw ow : BitVec 32) (i : Fin N) :
    (Host.scatterAdd (vecDims N M wf)
        (broadcastInDim ⟨1, ![N]⟩ (![] : Fin 0 → Fin 1) h0N (constant (F := Ideal) ⟨0, ![]⟩ .f32 zw))
        (broadcastInDim ⟨2, ![M, 1]⟩ (![0] : Fin 1 → Fin 2) h1 w)
        (broadcastInDim ⟨1, ![M]⟩ (![] : Fin 0 → Fin 1) h0M (constant (F := Ideal) ⟨0, ![]⟩ .f32 ow)) (ix1 i) : EReal)
      = Ideal.ofBits .f32 zw + ∑ e : Fin M, if (w (ix1 e)).toInt = (i.val : Int) then Ideal.ofBits .f32 ow else 0 := by
  rw [scatterAdd_vec_apply wf]
  rw [broadcastInDim_scalar_apply (constant (F := Ideal) ⟨0, ![]⟩ .f32 zw) h0N (ix1 i) ix0]
  refine congrArg₂ (fun a b : EReal => a + b) rfl (Finset.sum_congr rfl fun e _ => ?_)
  rw [bcast_vec_col_apply w h1 e 0,
    broadcastInDim_scalar_apply (constant (F := Ideal) ⟨0, ![]⟩ .f32 ow) h0M (ix1 e) ix0]
  rfl

/-- THE AGGREGATION: a segment sum of per-edge rows into the constant `zw`, at (r, c). -/
theorem aggregate_apply {N M C : Nat} (wf : ScatterDims.WF ⟨2, ![N, C]⟩ ⟨2, ![M, 1]⟩ ⟨2, ![M, C]⟩ [1] [0] [0] 1)
    (h0 : (⟨0, ![]⟩ : Shape).BroadcastsInDim ⟨2, ![N, C]⟩ (![] : Fin 0 → Fin 2))
    (h1 : (⟨1, ![M]⟩ : Shape).BroadcastsInDim ⟨2, ![M, 1]⟩ (![0] : Fin 1 → Fin 2))
    (w : IVec ⟨1, ![M]⟩ 32) (upd : FVec Ideal ⟨2, ![M, C]⟩ .f32) (zw : BitVec 32) (r : Fin N) (c : Fin C) :
    (Host.scatterAdd (rowDims N M C wf)
        (broadcastInDim ⟨2, ![N, C]⟩ (![] : Fin 0 → Fin 2) h0 (constant (F := Ideal) ⟨0, ![]⟩ .f32 zw))
        (broadcastInDim ⟨2, ![M, 1]⟩ (![0] : Fin 1 → Fin 2) h1 w) upd (ix2 r c) : EReal)
      = Ideal.ofBits .f32 zw + ∑ e : Fin M, if (w (ix1 e)).toInt = (r.val : Int) then (upd (ix2 e c) : EReal) else 0 := by
  rw [scatterAdd_rows_apply wf]
  rw [broadcastInDim_scalar_apply (constant (F := Ideal) ⟨0, ![]⟩ .f32 zw) h0 (ix2 r c) ix0]
  refine congrArg₂ (fun a b : EReal => a + b) rfl (Finset.sum_congr rfl fun e _ => ?_)
  rw [bcast_vec_col_apply w h1 e 0]

/-- The guarded inverse square root of the degrees, at node i: `invSqrtDeg` of the degree at i. -/
theorem invSqrtDeg_apply {N : Nat} (h0 : (⟨0, ![]⟩ : Shape).BroadcastsInDim ⟨1, ![N]⟩ (![] : Fin 0 → Fin 1))
    (d : FVec Ideal ⟨1, ![N]⟩ .f32) (i : Fin N) :
    (select (cmpf .ogt d (broadcastInDim ⟨1, ![N]⟩ (![] : Fin 0 → Fin 1) h0 (constant (F := Ideal) ⟨0, ![]⟩ .f32 0x00000000#32)))
        (Host.rsqrt (maximumf d (broadcastInDim ⟨1, ![N]⟩ (![] : Fin 0 → Fin 1) h0 (constant (F := Ideal) ⟨0, ![]⟩ .f32 0x2B8CBCCC#32))))
        (broadcastInDim ⟨1, ![N]⟩ (![] : Fin 0 → Fin 1) h0 (constant (F := Ideal) ⟨0, ![]⟩ .f32 0x00000000#32)) (ix1 i) : EReal)
      = invSqrtDeg (d (ix1 i)) := by
  show Scalar.select (FloatOps.cmpf .ogt (d (ix1 i))
        (broadcastInDim ⟨1, ![N]⟩ (![] : Fin 0 → Fin 1) h0 (constant (F := Ideal) ⟨0, ![]⟩ .f32 0x00000000#32) (ix1 i)))
      (FloatOps.hostUnary .rsqrt (FloatOps.maximumf (d (ix1 i))
        (broadcastInDim ⟨1, ![N]⟩ (![] : Fin 0 → Fin 1) h0 (constant (F := Ideal) ⟨0, ![]⟩ .f32 0x2B8CBCCC#32) (ix1 i))))
      (broadcastInDim ⟨1, ![N]⟩ (![] : Fin 0 → Fin 1) h0 (constant (F := Ideal) ⟨0, ![]⟩ .f32 0x00000000#32) (ix1 i)) = _
  rw [broadcastInDim_scalar_apply (constant (F := Ideal) ⟨0, ![]⟩ .f32 0x00000000#32) h0 (ix1 i) ix0,
    broadcastInDim_scalar_apply (constant (F := Ideal) ⟨0, ![]⟩ .f32 0x2B8CBCCC#32) h0 (ix1 i) ix0]
  rfl

end Cert.Lib.GraphOps

end
-- ==== Proof.LibReals.lean ====
/-
  Extended reals that are real numbers. At the ideal float values every float is an extended real; a
  value is FINITE when it is the image of a real number. This module collects, with no reference to any
  program: the predicate "every entry of a family is a real" and its closure under the exact operations
  (sum, product, difference, maximum, finite sums, division by a nonzero real, reciprocal square root
  of a positive real); the coercion of a finite real sum; and the identity between the two textbook
  forms of the variance of a finite family, (1/N) Σ (xᵢ − μ)² = (1/N) Σ xᵢ² − μ² with μ = (1/N) Σ xᵢ,
  first over the reals and then over real-valued extended reals, where each quotient is the ideal
  division and each sum may carry a leading zero summand; the variance is a real and is not negative.
-/
import Idealize.ShloMosaic.PureOps.Ideal

noncomputable section

namespace Cert.Reals

open Idealize.ShloMosaic
open scoped BigOperators

/-- An extended real that is (the image of) a real number. -/
def IsRealS (x : EReal) : Prop := ∃ r : ℝ, x = (r : EReal)

/-- Every entry of a family of extended reals is a real number. -/
def IsReal {ι : Type*} (f : ι → EReal) : Prop := ∀ i, ∃ r : ℝ, f i = (r : EReal)

/-- A family is real exactly when each entry is. -/
theorem isReal_iff {ι : Type*} (f : ι → EReal) : IsReal f ↔ ∀ i, IsRealS (f i) := Iff.rfl

/-- An entry of a real family is a real. -/
theorem IsReal.apply {ι : Type*} {f : ι → EReal} (h : IsReal f) (i : ι) : IsRealS (f i) := h i

/-- A real family is the coercion of a family of reals. -/
theorem IsReal.exists_eq {ι : Type*} {f : ι → EReal} (h : IsReal f) : ∃ r : ι → ℝ, f = fun i => (r i : EReal) := by
  choose r hr using h
  exact ⟨r, funext hr⟩

/-- The coercion of a family of reals is a real family. -/
theorem isReal_coe {ι : Type*} (r : ι → ℝ) : IsReal (fun i => (r i : EReal)) := fun i => ⟨r i, rfl⟩

/-- Re-indexing a real family gives a real family. -/
theorem IsReal.comp {ι κ : Type*} {f : ι → EReal} (h : IsReal f) (g : κ → ι) : IsReal (fun k => f (g k)) :=
  fun k => h (g k)

/-- A real number is a real. -/
theorem isRealS_coe (r : ℝ) : IsRealS (r : EReal) := ⟨r, rfl⟩

/-- Zero is a real. -/
theorem isRealS_zero : IsRealS 0 := ⟨0, rfl⟩

/-- One is a real. -/
theorem isRealS_one : IsRealS 1 := ⟨1, rfl⟩

/-- A real is not the upper infinity. -/
theorem IsRealS.ne_top {x : EReal} (h : IsRealS x) : x ≠ ⊤ := by
  obtain ⟨r, rfl⟩ := h; exact EReal.coe_ne_top r

/-- A real is not the lower infinity. -/
theorem IsRealS.ne_bot {x : EReal} (h : IsRealS x) : x ≠ ⊥ := by
  obtain ⟨r, rfl⟩ := h; exact EReal.coe_ne_bot r

/-- An extended real that is neither infinity is a real. -/
theorem isRealS_of_ne {x : EReal} (ht : x ≠ ⊤) (hb : x ≠ ⊥) : IsRealS x := by
  induction x using EReal.rec with
  | bot => exact absurd rfl hb
  | top => exact absurd rfl ht
  | coe r => exact ⟨r, rfl⟩

/-- The sum of two reals is a real. -/
theorem IsRealS.add {x y : EReal} (hx : IsRealS x) (hy : IsRealS y) : IsRealS (x + y) := by
  obtain ⟨a, rfl⟩ := hx; obtain ⟨b, rfl⟩ := hy
  exact ⟨a + b, (EReal.coe_add a b).symm⟩

/-- The product of two reals is a real. -/
theorem IsRealS.mul {x y : EReal} (hx : IsRealS x) (hy : IsRealS y) : IsRealS (x * y) := by
  obtain ⟨a, rfl⟩ := hx; obtain ⟨b, rfl⟩ := hy
  exact ⟨a * b, (EReal.coe_mul a b).symm⟩

/-- The negation of a real is a real. -/
theorem IsRealS.neg {x : EReal} (hx : IsRealS x) : IsRealS (-x) := by
  obtain ⟨a, rfl⟩ := hx
  exact ⟨-a, (EReal.coe_neg a).symm⟩

/-- The difference of two reals (the extended reals' subtraction, which the ideal values' subtraction is)
    is a real. -/
theorem IsRealS.sub {x y : EReal} (hx : IsRealS x) (hy : IsRealS y) : IsRealS (x - y) := by
  obtain ⟨a, rfl⟩ := hx; obtain ⟨b, rfl⟩ := hy
  exact ⟨a - b, (EReal.coe_sub a b).symm⟩

/-- The maximum of two reals is a real. -/
theorem IsRealS.max {x y : EReal} (hx : IsRealS x) (hy : IsRealS y) : IsRealS (max x y) := by
  rcases max_choice x y with h | h <;> rw [h] <;> assumption

/-- The minimum of two reals is a real. -/
theorem IsRealS.min {x y : EReal} (hx : IsRealS x) (hy : IsRealS y) : IsRealS (min x y) := by
  rcases min_choice x y with h | h <;> rw [h] <;> assumption

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type. -/
theorem coe_fintype_sum {ι : Type*} [Fintype ι] (f : ι → ℝ) :
    ((∑ i, f i : ℝ) : EReal) = ∑ i, (f i : EReal) := coe_finset_sum Finset.univ f

/-- A finite sum of reals is a real. -/
theorem isRealS_sum {ι : Type*} (s : Finset ι) (f : ι → EReal) (h : ∀ i ∈ s, IsRealS (f i)) :
    IsRealS (∑ i ∈ s, f i) := by
  classical
  induction s using Finset.induction_on with
  | empty => simpa using isRealS_zero
  | insert a s ha ih =>
    rw [Finset.sum_insert ha]
    exact (h a (Finset.mem_insert_self a s)).add (ih fun i hi => h i (Finset.mem_insert_of_mem hi))

/-- A sum over a finite set of entries of a real family is a real. -/
theorem IsReal.sum {ι : Type*} {f : ι → EReal} (h : IsReal f) (s : Finset ι) : IsRealS (∑ i ∈ s, f i) :=
  isRealS_sum s f fun i _ => h i

/-- A sum over a whole finite type of entries of a real family is a real. -/
theorem IsReal.sum_univ {ι : Type*} [Fintype ι] {f : ι → EReal} (h : IsReal f) : IsRealS (∑ i, f i) :=
  h.sum Finset.univ

/-- A finite sum of extended reals that are not negative is not negative. -/
theorem sum_nonneg {ι : Type*} (s : Finset ι) (f : ι → EReal) (h : ∀ i ∈ s, 0 ≤ f i) : 0 ≤ ∑ i ∈ s, f i :=
  Finset.sum_nonneg h

/-- The ideal quotient of two reals, the divisor not zero, is the real quotient. -/
theorem div_coe_coe (a : ℝ) {n : ℝ} (hn : n ≠ 0) : Ideal.div (a : EReal) (n : EReal) = ((a / n : ℝ) : EReal) := by
  rw [Ideal.div_coe hn, ← EReal.coe_mul, mul_one_div]

/-- The ideal quotient of a real by a nonzero real number is a real. -/
theorem IsRealS.div_coe {x : EReal} (hx : IsRealS x) {n : ℝ} (hn : n ≠ 0) : IsRealS (Ideal.div x (n : EReal)) := by
  obtain ⟨a, rfl⟩ := hx
  exact ⟨a / n, div_coe_coe a hn⟩

/-- The ideal quotient of a real by a real that is not zero is a real. -/
theorem IsRealS.div {x y : EReal} (hx : IsRealS x) (hy : IsRealS y) (hy0 : y ≠ 0) : IsRealS (Ideal.div x y) := by
  obtain ⟨n, rfl⟩ := hy
  exact hx.div_coe (by rintro rfl; exact hy0 rfl)

/-- The ideal quotient of a real that is not negative by a positive real is not negative. -/
theorem div_coe_nonneg {a n : ℝ} (ha : 0 ≤ a) (hn : 0 < n) : (0 : EReal) ≤ Ideal.div (a : EReal) (n : EReal) := by
  rw [div_coe_coe a hn.ne']
  exact EReal.coe_nonneg.mpr (div_nonneg ha hn.le)

/-- The ideal reciprocal square root of a positive real is the real reciprocal of its square root. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The ideal reciprocal square root of a positive real is a real. -/
theorem IsRealS.rsqrt {x : EReal} (hx : IsRealS x) (hpos : 0 < x) : IsRealS (Ideal.rsqrt x) := by
  obtain ⟨r, rfl⟩ := hx
  exact ⟨_, rsqrt_coe_pos (EReal.coe_pos.mp hpos)⟩

/-- The host's reciprocal square root at the ideal values is the same function. -/
theorem IsRealS.hostRsqrt {φ : FTy} {x : Ideal φ} (hx : IsRealS x) (hpos : (0 : EReal) < x) :
    IsRealS (FloatOps.hostUnary (F := Ideal) .rsqrt x) := by
  rw [Ideal.hostUnary_rsqrt_def]; exact hx.rsqrt hpos

/-- The ideal reciprocal square root of a positive real is positive. -/
theorem rsqrt_pos {x : EReal} (hx : IsRealS x) (hpos : 0 < x) : 0 < Ideal.rsqrt x := by
  obtain ⟨r, rfl⟩ := hx
  have hr : 0 < r := EReal.coe_pos.mp hpos
  rw [rsqrt_coe_pos hr]
  exact EReal.coe_pos.mpr (inv_pos.mpr (Real.sqrt_pos.mpr hr))

/-- An extended real that is not negative plus a positive one is positive. -/
theorem add_pos_of_nonneg_of_pos {v e : EReal} (hv : 0 ≤ v) (he : 0 < e) : 0 < v + e := by
  calc (0 : EReal) < e := he
    _ = 0 + e := (zero_add e).symm
    _ ≤ v + e := add_le_add hv le_rfl

/-- An extended real that is not negative, plus one, is at least one. -/
theorem one_le_add_one_of_nonneg {c : EReal} (hc : 0 ≤ c) : 1 ≤ c + 1 := by
  calc (1 : EReal) = 0 + 1 := (zero_add 1).symm
    _ ≤ c + 1 := add_le_add hc le_rfl

/-- An extended real that is at least one is positive. -/
theorem pos_of_one_le {x : EReal} (h : 1 ≤ x) : 0 < x := lt_of_lt_of_le zero_lt_one h

/-! ## The variance identity -/

/-- THE VARIANCE IDENTITY over the reals: for a finite family of N reals, N not zero, the mean of the
    squared deviations from the mean is the mean of the squares minus the square of the mean. -/
theorem variance_real {ι : Type*} [Fintype ι] (f : ι → ℝ) (N : ℝ) (hN : N = Fintype.card ι) (hN0 : N ≠ 0) :
    (∑ i, (f i - (∑ j, f j) / N) * (f i - (∑ j, f j) / N)) / N
      = (∑ i, f i * f i) / N - ((∑ j, f j) / N) * ((∑ j, f j) / N) := by
  have h1 : ∑ i, (f i - (∑ j, f j) / N) * (f i - (∑ j, f j) / N)
      = (∑ i, f i * f i) - 2 * ((∑ j, f j) / N) * (∑ j, f j) + N * (((∑ j, f j) / N) * ((∑ j, f j) / N)) := by
    have h2 : ∀ i, (f i - (∑ j, f j) / N) * (f i - (∑ j, f j) / N)
        = f i * f i - 2 * ((∑ j, f j) / N) * f i + ((∑ j, f j) / N) * ((∑ j, f j) / N) := fun i => by ring
    simp only [h2]
    rw [Finset.sum_add_distrib, Finset.sum_sub_distrib, ← Finset.mul_sum, Finset.sum_const, Finset.card_univ,
      nsmul_eq_mul, ← hN]
  rw [h1]
  field_simp
  ring

/-- The mean of the squared deviations is not negative. -/
theorem variance_real_nonneg {ι : Type*} [Fintype ι] (f : ι → ℝ) (N : ℝ) (hN0 : 0 < N) :
    0 ≤ (∑ i, (f i - (∑ j, f j) / N) * (f i - (∑ j, f j) / N)) / N :=
  div_nonneg (Finset.sum_nonneg fun i _ => mul_self_nonneg _) hN0.le

/-- The variance of a family of reals, in the deviation form. -/
def varR {ι : Type*} [Fintype ι] (f : ι → ℝ) (N : ℝ) : ℝ :=
  (∑ i, (f i - (∑ j, f j) / N) * (f i - (∑ j, f j) / N)) / N

/-- It is not negative. -/
theorem varR_nonneg {ι : Type*} [Fintype ι] (f : ι → ℝ) {N : ℝ} (hN0 : 0 < N) : 0 ≤ varR f N :=
  variance_real_nonneg f N hN0

/-- The deviation form of the variance over real-valued extended reals, each quotient the ideal division
    and each difference the extended reals' subtraction, is the coercion of the real variance. -/
theorem variance_dev_coe {ι : Type*} [Fintype ι] (r : ι → ℝ) {N : ℝ} (hN0 : N ≠ 0) :
    Ideal.div (∑ i, ((r i : EReal) - Ideal.div (∑ j, (r j : EReal)) (N : EReal))
        * ((r i : EReal) - Ideal.div (∑ j, (r j : EReal)) (N : EReal))) (N : EReal)
      = ((varR r N : ℝ) : EReal) := by
  rw [← coe_fintype_sum, div_coe_coe _ hN0]
  simp only [← EReal.coe_sub, ← EReal.coe_mul]
  rw [← coe_fintype_sum, div_coe_coe _ hN0]
  rfl

/-- The moment form of the variance over real-valued extended reals is the coercion of the real variance,
    when the divisor is the number of entries. -/
theorem variance_mom_coe {ι : Type*} [Fintype ι] (r : ι → ℝ) {N : ℝ} (hN : N = Fintype.card ι) (hN0 : N ≠ 0) :
    Ideal.div (∑ i, (r i : EReal) * (r i : EReal)) (N : EReal)
        - Ideal.div (∑ j, (r j : EReal)) (N : EReal) * Ideal.div (∑ j, (r j : EReal)) (N : EReal)
      = ((varR r N : ℝ) : EReal) := by
  simp only [← EReal.coe_mul]
  rw [← coe_fintype_sum, ← coe_fintype_sum, div_coe_coe _ hN0, div_coe_coe _ hN0, ← EReal.coe_mul, ← EReal.coe_sub,
    varR, variance_real r N hN hN0]

/-- THE VARIANCE IDENTITY over real-valued extended reals: the deviation form (the mean of the squared
    differences from the mean) is the moment form (the mean of the squares minus the squared mean); every
    quotient is the ideal division by the real N, the number of entries. -/
theorem variance_ereal {ι : Type*} [Fintype ι] (x : ι → EReal) (hx : IsReal x) {N : ℝ} (hN : N = Fintype.card ι)
    (hN0 : N ≠ 0) :
    Ideal.div (∑ i, (x i - Ideal.div (∑ j, x j) (N : EReal)) * (x i - Ideal.div (∑ j, x j) (N : EReal))) (N : EReal)
      = Ideal.div (∑ i, x i * x i) (N : EReal) - Ideal.div (∑ j, x j) (N : EReal) * Ideal.div (∑ j, x j) (N : EReal) := by
  obtain ⟨r, rfl⟩ := hx.exists_eq
  rw [variance_dev_coe r hN0, variance_mom_coe r hN hN0]

/-- The same with every sum carrying the leading zero summand of a host reduction. -/
theorem variance_ereal_zero_add {ι : Type*} [Fintype ι] (x : ι → EReal) (hx : IsReal x) {N : ℝ}
    (hN : N = Fintype.card ι) (hN0 : N ≠ 0) :
    Ideal.div (0 + ∑ i, (x i - Ideal.div (0 + ∑ j, x j) (N : EReal)) * (x i - Ideal.div (0 + ∑ j, x j) (N : EReal)))
        (N : EReal)
      = Ideal.div (0 + ∑ i, x i * x i) (N : EReal)
          - Ideal.div (0 + ∑ j, x j) (N : EReal) * Ideal.div (0 + ∑ j, x j) (N : EReal) := by
  simp only [zero_add]
  exact variance_ereal x hx hN hN0

/-- The deviation form with the host's leading zeros is the moment form without them. -/
theorem variance_ereal_zero_add_left {ι : Type*} [Fintype ι] (x : ι → EReal) (hx : IsReal x) {N : ℝ}
    (hN : N = Fintype.card ι) (hN0 : N ≠ 0) :
    Ideal.div (0 + ∑ i, (x i - Ideal.div (0 + ∑ j, x j) (N : EReal)) * (x i - Ideal.div (0 + ∑ j, x j) (N : EReal)))
        (N : EReal)
      = Ideal.div (∑ i, x i * x i) (N : EReal) - Ideal.div (∑ j, x j) (N : EReal) * Ideal.div (∑ j, x j) (N : EReal) := by
  simp only [zero_add]
  exact variance_ereal x hx hN hN0

/-- The deviation form of the variance of a real family is a real that is not negative (N positive). -/
theorem variance_dev_real_nonneg {ι : Type*} [Fintype ι] (x : ι → EReal) (hx : IsReal x) {N : ℝ} (hN0 : 0 < N) :
    ∃ v : ℝ, 0 ≤ v ∧
      Ideal.div (∑ i, (x i - Ideal.div (∑ j, x j) (N : EReal)) * (x i - Ideal.div (∑ j, x j) (N : EReal))) (N : EReal)
        = (v : EReal) := by
  obtain ⟨r, rfl⟩ := hx.exists_eq
  exact ⟨varR r N, varR_nonneg r hN0, variance_dev_coe r hN0.ne'⟩

/-- The moment form likewise, when N is the number of entries. -/
theorem variance_mom_real_nonneg {ι : Type*} [Fintype ι] (x : ι → EReal) (hx : IsReal x) {N : ℝ}
    (hN : N = Fintype.card ι) (hN0 : 0 < N) :
    ∃ v : ℝ, 0 ≤ v ∧
      Ideal.div (∑ i, x i * x i) (N : EReal) - Ideal.div (∑ j, x j) (N : EReal) * Ideal.div (∑ j, x j) (N : EReal)
        = (v : EReal) := by
  obtain ⟨r, rfl⟩ := hx.exists_eq
  exact ⟨varR r N, varR_nonneg r hN0, variance_mom_coe r hN hN0.ne'⟩

/-- A real that is not negative, as the two facts a later step uses. -/
theorem isRealS_and_nonneg_of_exists {y : EReal} (h : ∃ v : ℝ, 0 ≤ v ∧ y = (v : EReal)) : IsRealS y ∧ 0 ≤ y := by
  obtain ⟨v, hv, rfl⟩ := h
  exact ⟨⟨v, rfl⟩, EReal.coe_nonneg.mpr hv⟩

end Cert.Reals

end
-- ==== Proof.LibFiniteWord.lean ====
/-
  Float words that denote real numbers.  At the ideal values a float word is read as the extended real its
  IEEE pattern denotes.  Only an all-ones exponent field denotes an infinity (or a not-a-number pattern); every
  other word — a zero, a subnormal, a normal — denotes a real number, a dyadic rational, and when its sign bit is
  clear that real is not negative.  So a literal of a program is a real as soon as its exponent field is seen not
  to be all ones, which is decided on the literal word without computing the value.
-/
import Idealize.ShloMosaic.PureOps.Ideal

noncomputable section

namespace Idealize.ShloMosaic.FiniteWord

open Idealize.ShloMosaic

/-- A word with `e` exponent and `m` significand bits whose exponent field is not all ones and whose sign bit is
    clear denotes a real number that is not negative. -/
theorem ieee_nonneg_real (e m : Nat) {w : Nat} (b : BitVec w)
    (hex : (b.extractLsb' m e).toNat ≠ 2 ^ e - 1) (hs : (b.extractLsb' (e + m) 1 == 1#1) = false) :
    ∃ r : ℝ, 0 ≤ r ∧ Ideal.ieee e m b = (r : EReal) := by
  unfold Ideal.ieee
  simp only [hs, if_neg hex, Bool.false_eq_true, if_false]
  split
  · exact ⟨_, by positivity, rfl⟩
  · exact ⟨_, by positivity, rfl⟩

/-- A word whose exponent field is not all ones denotes a real number, whatever its sign. -/
theorem ieee_real (e m : Nat) {w : Nat} (b : BitVec w) (hex : (b.extractLsb' m e).toNat ≠ 2 ^ e - 1) :
    ∃ r : ℝ, Ideal.ieee e m b = (r : EReal) := by
  unfold Ideal.ieee
  simp only [if_neg hex]
  split
  · exact ⟨_, rfl⟩
  · exact ⟨_, rfl⟩

/-- The single-precision case: exponent field bits 23–30 not all ones, sign bit 31 clear. -/
theorem f32_nonneg_real (b : BitVec 32) (hex : (b.extractLsb' 23 8).toNat ≠ 2 ^ 8 - 1)
    (hs : (b.extractLsb' (8 + 23) 1 == 1#1) = false) : ∃ r : ℝ, 0 ≤ r ∧ Ideal.ofBits .f32 b = (r : EReal) :=
  ieee_nonneg_real 8 23 b hex hs

/-- The single-precision case, any sign. -/
theorem f32_real (b : BitVec 32) (hex : (b.extractLsb' 23 8).toNat ≠ 2 ^ 8 - 1) :
    ∃ r : ℝ, Ideal.ofBits .f32 b = (r : EReal) :=
  ieee_real 8 23 b hex

end Idealize.ShloMosaic.FiniteWord

end
-- ==== Proof.LibNonnegScale.lean ====
/-
  Scaling a finite sum by a factor that is a real number and not negative.

  On the extended reals a product does not distribute over a sum in general (∞ − ∞ intervenes), but it does when
  the factor is a finite number that is not negative: c · (a + b) = c · a + c · b.  Hence c · Σ f = Σ c · f over any
  finite set, and a sum of terms each carrying the same such factor on the right is the factor times the sum of the
  bare terms.  This is what lets a per-node normalisation be moved out of (or into) a segment sum.
-/
import Mathlib.Data.EReal.Operations
import Mathlib.Data.EReal.Inv
import Mathlib.Algebra.BigOperators.Group.Finset.Basic

namespace Cert.Lib.NonnegScale

open scoped BigOperators

/-- A factor that is not negative and not the upper infinity goes through a finite sum. -/
theorem mul_sum {ι : Type*} (s : Finset ι) (f : ι → EReal) {c : EReal} (h0 : 0 ≤ c) (ht : c ≠ ⊤) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

/-- The coercion of a real that is not negative is such a factor. -/
theorem coe_mul_sum {ι : Type*} (s : Finset ι) (f : ι → EReal) {r : ℝ} (hr : 0 ≤ r) :
    (r : EReal) * ∑ i ∈ s, f i = ∑ i ∈ s, (r : EReal) * f i :=
  mul_sum s f (EReal.coe_nonneg.mpr hr) (EReal.coe_ne_top r)

/-- THE FACTOR MOVED OUT OF A GUARDED SUM: when every selected term carries the factor c on the right of a product
    a e · (d e · g e) with g e = c on the selected terms, the guarded sum is c times the guarded sum of a e · d e. -/
theorem guarded_sum_factor {ι : Type*} [Fintype ι] (P : ι → Prop) [DecidablePred P] (a d g : ι → EReal) {c : EReal}
    (h0 : 0 ≤ c) (ht : c ≠ ⊤) (hg : ∀ e, P e → g e = c) :
    c * ∑ e, (if P e then a e * d e else 0) = ∑ e, (if P e then a e * (d e * g e) else 0) := by
  rw [mul_sum Finset.univ _ h0 ht]
  refine Finset.sum_congr rfl fun e _ => ?_
  by_cases he : P e
  · rw [if_pos he, if_pos he, hg e he, mul_comm c, mul_assoc]
  · rw [if_neg he, if_neg he, mul_zero]

end Cert.Lib.NonnegScale
-- ==== Proof.LibGuardedRsqrt.lean ====
/-
  The guarded inverse square root of a number that is not negative.

  At the ideal values, "where(x > 0, rsqrt(x), 0)" of a real number x that is not negative is a real number that is
  not negative: 1/sqrt(x) when x is positive, and 0 when x is 0 — the guard keeps the infinity that the inverse
  square root of zero would be out of the result.  Stated on one entry, and on an entry of a vector through the
  host's whole-vector inverse square root.
-/
import Idealize.ShloMosaic.PureOps.Ideal
import Idealize.ShloMosaic.PureOps.Ideal.Laws
import Idealize.ShloMosaic.Lib.ValueIdx
import proofs.«148871_j8967891714117_2_alg».proof.Proof.LibReals

noncomputable section

namespace Cert.Lib.GuardedRsqrt

open Idealize.ShloMosaic Idealize.ShloMosaic.ValueIdx

/-- One entry: the select of the comparison "x > 0", the inverse square root of x, and 0. -/
theorem guarded_nonneg_real (x : Ideal .f32) (g : ℝ) (hg : 0 ≤ g) (eg : (x : EReal) = (g : EReal)) :
    ∃ r : ℝ, 0 ≤ r ∧ (Scalar.select (FloatOps.cmpf (F := Ideal) (φ := .f32) .ogt x (0 : EReal))
      (FloatOps.hostUnary (F := Ideal) (φ := .f32) .rsqrt x) (0 : EReal) : EReal) = (r : EReal) := by
  rw [Ideal.hostUnary_rsqrt_def, Ideal.cmpf_def, eg]
  by_cases hpos : 0 < g
  · have hc : Ideal.cmp .ogt (g : EReal) 0 = 1#1 := by
      unfold Ideal.cmp
      rw [decide_eq_true (EReal.coe_pos.mpr hpos)]; rfl
    rw [hc, select_one, Cert.Reals.rsqrt_coe_pos hpos]
    exact ⟨_, inv_nonneg.mpr (Real.sqrt_nonneg g), rfl⟩
  · have hc : Ideal.cmp .ogt (g : EReal) 0 = 0#1 := by
      unfold Ideal.cmp
      rw [decide_eq_false (fun h => hpos (EReal.coe_pos.mp h))]; rfl
    rw [hc, select_zero]
    exact ⟨0, le_rfl, rfl⟩

/-- An entry of a vector, the inverse square root taken of the whole vector. -/
theorem guarded_nonneg_real_at {s : Shape} (D : FVec Ideal s .f32) (j : s.Idx) (g : ℝ) (hg : 0 ≤ g) (eg : (D j : EReal) = (g : EReal)) :
    ∃ r : ℝ, 0 ≤ r ∧ (Scalar.select (FloatOps.cmpf (F := Ideal) (φ := .f32) .ogt (D j) (0 : EReal))
      (Host.rsqrt D j) (0 : EReal) : EReal) = (r : EReal) :=
  guarded_nonneg_real (D j) g hg eg

end Cert.Lib.GuardedRsqrt

end
-- ==== Proof.Law.lean ====
/-
  The two layers are one function.

  At node v and lane j the kernel's layer is  d(v) · (0 + Σ_{e : target e = v} h(s e, j) · d(s e)) + b(j)  and the
  reference's is  (0 + Σ_{e : target e = v} h(s e, j) · (d(s e) · d(t e))) + b(j),  where s e is the source word of
  edge e wrapped and clamped into the table, and t e its target word wrapped and clamped likewise.  On the edges the
  sum selects, the target word read as it is names v, so it is not negative, the wrap leaves it alone, the clamp
  leaves it alone, and d(t e) = d(v).  The factor d(v) then comes out of the sum because it is a real number that is
  not negative — the inverse square root of a positive count, or zero — which is the one case where a product
  distributes over a sum on the extended reals whatever the summands are.  Nothing is assumed of h.
-/
import proofs.«148871_j8967891714117_2_alg».proof.Proof.Spec
import proofs.«148871_j8967891714117_2_alg».proof.Proof.LibGraphOps
import proofs.«148871_j8967891714117_2_alg».proof.Proof.LibReals
import proofs.«148871_j8967891714117_2_alg».proof.Proof.LibFiniteWord
import proofs.«148871_j8967891714117_2_alg».proof.Proof.LibNonnegScale
import proofs.«148871_j8967891714117_2_alg».proof.Proof.LibGuardedRsqrt

noncomputable section

namespace Cert.Gcn

open Idealize.ShloMosaic Idealize.ShloMosaic.ValueIdx Idealize.ShloMosaic.RowGather Idealize.ShloMosaic.VecGather
open Cert.ReferenceIdeal Cert.ReferenceIdeal.Facts₀ Cert.Lib.GraphOps Cert.Lib.HostColumns
open scoped BigOperators

/-! ## Index words -/

/-- A word that is not negative is left alone by the wrap. -/
theorem wrapIdx_of_nonneg (n : Nat) (w : BitVec 32) (h : 0 ≤ w.toInt) : wrapIdx n w = w := by
  unfold wrapIdx IntOp.cmpi
  have hs : w.slt 0#32 = false := by
    simp only [BitVec.slt, BitVec.toInt_zero, decide_eq_false_iff_not, not_lt]; exact h
  rw [hs]
  exact select_zero _ _

/-- A word that names node v, wrapped and clamped, is v. -/
theorem clamp_wrap_of_names (w : BitVec 32) (v : Fin 100000) (h : w.toInt = (v.val : Int)) :
    clampRow 100000 (by decide) (wrapIdx 100000 w) = v := by
  rw [wrapIdx_of_nonneg 100000 w (by rw [h]; exact Int.natCast_nonneg _)]
  refine Fin.ext ?_
  show min w.toInt.toNat (100000 - 1) = v.val
  rw [h, Int.toNat_natCast]
  have := v.isLt
  omega

/-- The wrapped words as a column, at (e, 0). -/
theorem colI_wrapW_apply (w : IVec S1300000 32) (e : Fin 1300000) :
    colI (wrapW w) (ix2 e (0 : Fin 1)) = wrapIdx 100000 (w (ix1 e)) :=
  wrapped_col_apply (M := 1300000) 100000 w bcast_S_S1300000 bcast_S1300000_S1300000x1_0 e

/-! ## The operations of a layer read at an index -/

/-- d spread over the lanes reads d at the row. -/
theorem lanes_colF_apply (dinv : FVec Ideal S100000 .f32) (r : Fin 100000) (c : Fin 64) :
    (lanes (colF dinv) (ix2 r c) : EReal) = dinv (ix1 r) := by
  unfold lanes colF
  rw [bcast_col_lanes_apply _ _ r c 0, bcast_vec_col_apply _ _ r 0]

/-- The segment sum of rows into zeros, at (v, j). -/
theorem agg_apply (dst : IVec S1300000 32) (upd : FVec Ideal S1300000x64 .f32) (v : Fin 100000) (j : Fin 64) :
    (Host.scatterAdd scatter_S100000x64_S1300000x1_S1300000x64_1_0_0_1 zerosNC (colI dst) upd (ix2 v j) : EReal)
      = Ideal.ofBits .f32 0x00000000#32
        + ∑ e : Fin 1300000, if (dst (ix1 e)).toInt = (v.val : Int) then (upd (ix2 e j) : EReal) else 0 :=
  aggregate_apply (N := 100000) (M := 1300000) (C := 64) Facts₀.scatter_S100000x64_S1300000x1_S1300000x64_1_0_0_1_wf
    bcast_S_S100000x64 bcast_S1300000_S1300000x1_0 dst upd 0x00000000#32 v j

/-- A row gather at wrapped words, at (e, j). -/
theorem rows_at_apply {α : Type} (x : S100000x64.Idx → α) (w : IVec S1300000 32) (e : Fin 1300000) (j : Fin 64) :
    Host.gather gather_S100000x64_S1300000x1_S1300000x64_1_0_n_n_0_1_164 x (colI (wrapW w)) (ix2 e j)
      = x (ix2 (clampRow 100000 (by decide) (wrapIdx 100000 (w (ix1 e)))) j) := by
  rw [← colI_wrapW_apply w e]
  exact gather_rows_apply (N := 100000) (E := 1300000) (C := 64) (by decide)
    Facts₀.gather_S100000x64_S1300000x1_S1300000x64_1_0_n_n_0_1_164_wf x (colI (wrapW w)) e j

/-- An entry gather at wrapped words, at e. -/
theorem entries_at_apply {α : Type} (x : S100000.Idx → α) (w : IVec S1300000 32) (e : Fin 1300000) :
    Host.gather gather_S100000_S1300000x1_S1300000_n_0_n_n_0_1_1 x (colI (wrapW w)) (ix1 e)
      = x (ix1 (clampRow 100000 (by decide) (wrapIdx 100000 (w (ix1 e))))) := by
  rw [← colI_wrapW_apply w e]
  exact gather_vec_apply (N := 100000) (E := 1300000) (by decide)
    Facts₀.gather_S100000_S1300000x1_S1300000_n_0_n_n_0_1_1_wf x (colI (wrapW w)) e

/-! ## The law -/

/-- THE LAYERS AGREE, for any d whose entries are real numbers that are not negative. -/
theorem layer_law (dinv : FVec Ideal S100000 .f32)
    (hd : ∀ i : Fin 100000, ∃ r : ℝ, 0 ≤ r ∧ (dinv (ix1 i) : EReal) = (r : EReal))
    (src dst : IVec S1300000 32) (hw : FVec Ideal S100000x64 .f32) (b : FVec Ideal S64 .f32) :
    layerK (colF dinv) src dst hw b = layerR dinv src dst hw b := by
  funext y
  obtain ⟨v, j, rfl⟩ : ∃ (v : Fin 100000) (j : Fin 64), y = ix2 v j := ⟨y 0, y 1, eq_ix2 y⟩
  unfold layerK layerR
  rw [addf_apply, addf_apply, mulf_apply, lanes_colF_apply, agg_apply, agg_apply]
  refine congrArg (fun t : EReal => t + (biasRows b (ix2 v j) : EReal)) ?_
  rw [Ideal.ofBits_zero_f32, zero_add, zero_add]
  obtain ⟨r, hr, hdv⟩ := hd v
  have h0 : (0 : EReal) ≤ dinv (ix1 v) := by rw [hdv]; exact EReal.coe_nonneg.mpr hr
  have ht : (dinv (ix1 v) : EReal) ≠ ⊤ := by rw [hdv]; exact EReal.coe_ne_top r
  set S : Fin 1300000 → Fin 100000 := fun e => clampRow 100000 (by decide) (wrapIdx 100000 (src (ix1 e))) with hS
  have hk : ∀ e : Fin 1300000,
      (extf .f32 (Host.gather gather_S100000x64_S1300000x1_S1300000x64_1_0_n_n_0_1_164
          (truncf .bf16 (mulf hw (lanes (colF dinv))) Cert.KernelIdeal.Facts₀.bitsLt_bf16_f32) (colI (wrapW src))) Cert.KernelIdeal.Facts₀.bitsLt_bf16_f32
          (ix2 e j) : EReal) = hw (ix2 (S e) j) * dinv (ix1 (S e)) := fun e => by
    rw [extf_apply, rows_at_apply, truncf_apply, mulf_apply, lanes_colF_apply]
  have hr' : ∀ e : Fin 1300000,
      (mulf (Host.gather gather_S100000x64_S1300000x1_S1300000x64_1_0_n_n_0_1_164 hw (colI (wrapW src)))
        (broadcastInDim S1300000x64 ![0, 1] bcast_S1300000x1_S1300000x64_0_1
          (broadcastInDim S1300000x1 ![0] bcast_S1300000_S1300000x1_0
            (mulf (Host.gather gather_S100000_S1300000x1_S1300000_n_0_n_n_0_1_1 dinv (colI (wrapW src)))
              (Host.gather gather_S100000_S1300000x1_S1300000_n_0_n_n_0_1_1 dinv (colI (wrapW dst))))))
          (ix2 e j) : EReal)
        = hw (ix2 (S e) j) * (dinv (ix1 (S e))
            * dinv (ix1 (clampRow 100000 (by decide) (wrapIdx 100000 (dst (ix1 e)))))) := fun e => by
    rw [mulf_apply, rows_at_apply, spread_apply (M := 1300000) (C := 64) _ bcast_S1300000_S1300000x1_0 bcast_S1300000x1_S1300000x64_0_1 e j,
      mulf_apply, entries_at_apply, entries_at_apply]
  simp only [hk, hr']
  exact Cert.Lib.NonnegScale.guarded_sum_factor (fun e : Fin 1300000 => (dst (ix1 e)).toInt = (v.val : Int))
    (fun e => (hw (ix2 (S e) j) : EReal)) (fun e => (dinv (ix1 (S e)) : EReal))
    (fun e => (dinv (ix1 (clampRow 100000 (by decide) (wrapIdx 100000 (dst (ix1 e))))) : EReal)) h0 ht
    (fun e he => by rw [clamp_wrap_of_names _ v he])

/-! ## d is a real number that is not negative -/

/-- The degree of a node is a real number that is not negative. -/
theorem deg_nonneg_real (dst : IVec S1300000 32) (i : Fin 100000) :
    ∃ r : ℝ, 0 ≤ r ∧ (degV dst (ix1 i) : EReal) = (r : EReal) := by
  unfold degV
  rw [show (Host.scatterAdd scatter_S100000_S1300000x1_S1300000_n_0_0_1
      (broadcastInDim S100000 ![] bcast_S_S100000 (constant (F := Ideal) S_ .f32 0x00000000#32)) (colI dst)
      (broadcastInDim S1300000 ![] bcast_S_S1300000 (constant (F := Ideal) S_ .f32 0x3F800000#32)) (ix1 i) : EReal) = _ from
    count_apply (N := 100000) (M := 1300000) Facts₀.scatter_S100000_S1300000x1_S1300000_n_0_0_1_wf bcast_S_S100000 bcast_S_S1300000
      bcast_S1300000_S1300000x1_0 dst 0x00000000#32 0x3F800000#32 i]
  obtain ⟨one, h1, e1⟩ := Idealize.ShloMosaic.FiniteWord.f32_nonneg_real 0x3F800000#32 (by decide) (by decide)
  rw [Ideal.ofBits_zero_f32, zero_add, e1]
  have hsum : ∀ s : Finset (Fin 1300000), ∃ r : ℝ, 0 ≤ r ∧
      (∑ e ∈ s, if (dst (ix1 e)).toInt = (i.val : Int) then ((one : ℝ) : EReal) else 0) = (r : EReal) := by
    classical
    intro s
    induction s using Finset.induction_on with
    | empty => exact ⟨0, le_rfl, by simp⟩
    | insert a s ha ih =>
      obtain ⟨r, hr, er⟩ := ih
      rw [Finset.sum_insert ha, er]
      by_cases hc : (dst (ix1 a)).toInt = (i.val : Int)
      · rw [if_pos hc]; exact ⟨one + r, add_nonneg h1 hr, (EReal.coe_add one r).symm⟩
      · rw [if_neg hc, zero_add]; exact ⟨r, hr, rfl⟩
  exact hsum Finset.univ

/-- d at a node is a real number that is not negative. -/
theorem dinv_nonneg_real (dst : IVec S1300000 32) (i : Fin 100000) :
    ∃ r : ℝ, 0 ≤ r ∧ (dinvV dst (ix1 i) : EReal) = (r : EReal) := by
  obtain ⟨g, hg, eg⟩ := deg_nonneg_real dst i
  have hz : (broadcastInDim S100000 ![] bcast_S_S100000 (constant (F := Ideal) S_ .f32 0x00000000#32) (ix1 i) : EReal) = 0 :=
    (Cert.Lib.RowBroadcast.broadcastInDim_scalar_apply (constant (F := Ideal) S_ .f32 0x00000000#32) bcast_S_S100000 (ix1 i) ix0).trans
      Ideal.ofBits_zero_f32
  unfold dinvV
  generalize degV dst = D at eg ⊢
  rw [select_apply, cmpf_apply, hz]
  exact Cert.Lib.GuardedRsqrt.guarded_nonneg_real_at D (ix1 i) g hg eg

/-- The kernel's network is the reference's. -/
theorem kerValue_eq_refValue (ei : IVec S2x1200000 32) : kerValue ei = refValue ei := by
  unfold kerValue refValue
  have h := layer_law (dinvV (dstW ei)) (dinv_nonneg_real (dstW ei)) (srcW ei) (dstW ei)
  have : layerK (colF (dinvV (dstW ei))) (srcW ei) (dstW ei) = layerR (dinvV (dstW ei)) (srcW ei) (dstW ei) :=
    funext fun hw => funext fun b => h hw b
  rw [this]

end Cert.Gcn

end
-- ==== Proof.KRun.lean ====
/-
  The kernel's run with its result named.

  @main is ten segments — stretches of host operations and four regions — and the contents of every buffer at each
  segment boundary are a fold from the launch memory (the generated frame's W0 … W10).  The generated frame proof
  reads the arguments off the last boundary; read there as well, the result buffer holds W10 at the result's reference.
-/
import proofs.«148871_j8967891714117_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v76) = W10 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v76 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c)⟩)

end Cert.KernelIdeal.Run

end
-- ==== Proof.KFold.lean ====
/-
  What each segment of the kernel's @main leaves alone.

  A host stretch writes the buffers its operations name and no other; a region writes its one result array and
  leaves every other array — its own inputs included — as it found it.  So a buffer's contents at a later segment
  boundary are its contents at an earlier one whenever nothing in between writes it, which is decided on the names.
-/
import proofs.«148871_j8967891714117_2_alg».proof.Proof.Gen.KernelIdeal.Frame

set_option maxRecDepth 16384

noncomputable section

namespace Cert.KernelIdeal.Fold

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg)

/-! ## The buffers each host stretch writes -/

/-- The references `hostOps0`'s operations write. -/
abbrev hostOps0_W : List (Ref sig .tc) := [main_v0, main_v1, main_v2, main_v3, main_v4, main_v5, main_v6, main_cst, main_v7, main_cst_0, main_v8, main_v9, main_v10, main_cst_1, main_v11, main_v12, main_v13, main_cst_2]
theorem hostOps0_writes : (hostOps0 : List (HloOp τ sig (Elt Ideal))).Forall fun op => op.writes ⊆ (hostOps0_W.map (Proc.devRef (τ := τ) .tc)).toFinset := by
  simp only [List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- The references `hostOps0_1`'s operations write. -/
abbrev hostOps0_1_W : List (Ref sig .tc) := [main_call0_v0, main_call0_v1, main_v14]
theorem hostOps0_1_writes : (hostOps0_1 : List (HloOp τ sig (Elt Ideal))).Forall fun op => op.writes ⊆ (hostOps0_1_W.map (Proc.devRef (τ := τ) .tc)).toFinset := by
  simp only [List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- The references `hostOps0_2`'s operations write. -/
abbrev hostOps0_2_W : List (Ref sig .tc) := [main_v15]
theorem hostOps0_2_writes : (hostOps0_2 : List (HloOp τ sig (Elt Ideal))).Forall fun op => op.writes ⊆ (hostOps0_2_W.map (Proc.devRef (τ := τ) .tc)).toFinset := by
  simp only [List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- The references `hostOps1`'s operations write. -/
abbrev hostOps1_W : List (Ref sig .tc) := [main_v17, main_v18, main_v19, main_c, main_v20, main_v21, main_c_3, main_v22, main_v23, main_v24, main_v25, main_v26, main_v27, main_cst_4, main_v28, main_v29, main_v30, main_v31, main_v32, main_v33, main_v34, main_v35]
theorem hostOps1_writes : (hostOps1 : List (HloOp τ sig (Elt Ideal))).Forall fun op => op.writes ⊆ (hostOps1_W.map (Proc.devRef (τ := τ) .tc)).toFinset := by
  simp only [List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- The references `hostOps2`'s operations write. -/
abbrev hostOps2_W : List (Ref sig .tc) := [main_v37, main_v38, main_v39, main_c_5, main_v40, main_v41, main_c_6, main_v42, main_v43, main_v44, main_v45, main_v46, main_v47, main_cst_7, main_v48, main_v49, main_v50, main_v51, main_v52, main_v53, main_v54, main_v55]
theorem hostOps2_writes : (hostOps2 : List (HloOp τ sig (Elt Ideal))).Forall fun op => op.writes ⊆ (hostOps2_W.map (Proc.devRef (τ := τ) .tc)).toFinset := by
  simp only [List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- The references `hostOps3`'s operations write. -/
abbrev hostOps3_W : List (Ref sig .tc) := [main_v57, main_v58, main_v59, main_c_8, main_v60, main_v61, main_c_9, main_v62, main_v63, main_v64, main_v65, main_v66, main_v67, main_cst_10, main_v68, main_v69, main_v70, main_v71, main_v72, main_v73, main_v74, main_v75]
theorem hostOps3_writes : (hostOps3 : List (HloOp τ sig (Elt Ideal))).Forall fun op => op.writes ⊆ (hostOps3_W.map (Proc.devRef (τ := τ) .tc)).toFinset := by
  simp only [List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-! ## One step at a time -/

theorem W1_of (c : Dev nD) (r : Ref sig .tc) (h : r ∉ hostOps0_W) :
    W1 m ρ c (Proc.devRef .tc r) = W0 m ρ c (Proc.devRef .tc r) := StableHlo.after_of_writes_sub hostOps0 _ hostOps0_writes h
theorem W2_of (c : Dev nD) (r : Ref sig .tc) (h : r ∉ hostOps0_1_W) :
    W2 m ρ c (Proc.devRef .tc r) = W1 m ρ c (Proc.devRef .tc r) := StableHlo.after_of_writes_sub hostOps0_1 _ hostOps0_1_writes h
theorem W3_of (c : Dev nD) (r : Ref sig .tc) (h : r ∉ hostOps0_2_W) :
    W3 m ρ c (Proc.devRef .tc r) = W2 m ρ c (Proc.devRef .tc r) := StableHlo.after_of_writes_sub hostOps0_2 _ hostOps0_2_writes h
theorem W5_of (c : Dev nD) (r : Ref sig .tc) (h : r ∉ hostOps1_W) :
    W5 m ρ c (Proc.devRef .tc r) = W4 m ρ c (Proc.devRef .tc r) := StableHlo.after_of_writes_sub hostOps1 _ hostOps1_writes h
theorem W7_of (c : Dev nD) (r : Ref sig .tc) (h : r ∉ hostOps2_W) :
    W7 m ρ c (Proc.devRef .tc r) = W6 m ρ c (Proc.devRef .tc r) := StableHlo.after_of_writes_sub hostOps2 _ hostOps2_writes h
theorem W9_of (c : Dev nD) (r : Ref sig .tc) (h : r ∉ hostOps3_W) :
    W9 m ρ c (Proc.devRef .tc r) = W8 m ρ c (Proc.devRef .tc r) := StableHlo.after_of_writes_sub hostOps3 _ hostOps3_writes h

/-! ## From the launch to region 0's entry -/

/-- A buffer no operation before region 0 writes holds its launch contents there. -/
theorem W3_launch (c : Dev nD) (r : Ref sig .tc) (h0 : r ∉ hostOps0_W) (h1 : r ∉ hostOps0_1_W) (h2 : r ∉ hostOps0_2_W) :
    W3 m ρ c (Proc.devRef .tc r) = m ((c : Thread nD τ).loc r) :=
  (W3_of m ρ c r h2).trans <| (W2_of m ρ c r h1).trans <| (W1_of m ρ c r h0).trans rfl

/-! ## Buffers that are no region's array and that no later host stretch writes -/

theorem W4_kept (c : Dev nD) (r : Ref sig .tc) (a0 : ∀ w, Pipeline.arrRef spec0 w ≠ r) :
    W4 m ρ c (Proc.devRef .tc r) = W3 m ρ c (Proc.devRef .tc r) := W4_of_ne m ρ c r a0
theorem W5_kept (c : Dev nD) (r : Ref sig .tc) (a0 : ∀ w, Pipeline.arrRef spec0 w ≠ r) (h1 : r ∉ hostOps1_W) :
    W5 m ρ c (Proc.devRef .tc r) = W3 m ρ c (Proc.devRef .tc r) := (W5_of m ρ c r h1).trans (W4_kept m ρ c r a0)
theorem W6_kept (c : Dev nD) (r : Ref sig .tc) (a0 : ∀ w, Pipeline.arrRef spec0 w ≠ r) (h1 : r ∉ hostOps1_W)
    (a1 : ∀ w, Pipeline.arrRef spec1 w ≠ r) :
    W6 m ρ c (Proc.devRef .tc r) = W3 m ρ c (Proc.devRef .tc r) := (W6_of_ne m ρ c r a1).trans (W5_kept m ρ c r a0 h1)
theorem W7_kept (c : Dev nD) (r : Ref sig .tc) (a0 : ∀ w, Pipeline.arrRef spec0 w ≠ r) (h1 : r ∉ hostOps1_W)
    (a1 : ∀ w, Pipeline.arrRef spec1 w ≠ r) (h2 : r ∉ hostOps2_W) :
    W7 m ρ c (Proc.devRef .tc r) = W3 m ρ c (Proc.devRef .tc r) := (W7_of m ρ c r h2).trans (W6_kept m ρ c r a0 h1 a1)
theorem W8_kept (c : Dev nD) (r : Ref sig .tc) (a0 : ∀ w, Pipeline.arrRef spec0 w ≠ r) (h1 : r ∉ hostOps1_W)
    (a1 : ∀ w, Pipeline.arrRef spec1 w ≠ r) (h2 : r ∉ hostOps2_W) (a2 : ∀ w, Pipeline.arrRef spec2 w ≠ r) :
    W8 m ρ c (Proc.devRef .tc r) = W3 m ρ c (Proc.devRef .tc r) := (W8_of_ne m ρ c r a2).trans (W7_kept m ρ c r a0 h1 a1 h2)
theorem W9_kept (c : Dev nD) (r : Ref sig .tc) (a0 : ∀ w, Pipeline.arrRef spec0 w ≠ r) (h1 : r ∉ hostOps1_W)
    (a1 : ∀ w, Pipeline.arrRef spec1 w ≠ r) (h2 : r ∉ hostOps2_W) (a2 : ∀ w, Pipeline.arrRef spec2 w ≠ r) (h3 : r ∉ hostOps3_W) :
    W9 m ρ c (Proc.devRef .tc r) = W3 m ρ c (Proc.devRef .tc r) := (W9_of m ρ c r h3).trans (W8_kept m ρ c r a0 h1 a1 h2 a2)

/-! ## A layer's result, read by a later region and by the last one -/

/-- Layer 1's result at the last region's entry is what host stretch 1 left: region 1 only reads it. -/
theorem W9_v35 (c : Dev nD) : W9 m ρ c (Proc.devRef .tc main_v35) = W5 m ρ c (Proc.devRef .tc main_v35) :=
  (W9_of m ρ c main_v35 (by decide)).trans <| (W8_of_ne m ρ c main_v35 (by decide)).trans <|
    (W7_of m ρ c main_v35 (by decide)).trans <|
      (W6_arr m ρ c 0).trans (((dat1 (V5 m ρ) c).arrAt_in 0 rfl _).trans (A_eq1 (V5 m ρ) c 0))

/-- Layer 2's result at the last region's entry is what host stretch 2 left: region 2 only reads it. -/
theorem W9_v55 (c : Dev nD) : W9 m ρ c (Proc.devRef .tc main_v55) = W7 m ρ c (Proc.devRef .tc main_v55) :=
  (W9_of m ρ c main_v55 (by decide)).trans <|
    (W8_arr m ρ c 0).trans (((dat2 (V7 m ρ) c).arrAt_in 0 rfl _).trans (A_eq2 (V7 m ρ) c 0))

end Cert.KernelIdeal.Fold

end
-- ==== Proof.KHost.lean ====
/-
  The kernel's host stretches as whole-array functions.

  Before region 0 the host cuts the edge list into source and target words, counts the degrees and forms the column
  d; after each of the regions 0, 1, 2 it applies one layer to the region's result.  Each stretch, read at the buffer
  it ends in, is the corresponding whole-array function of the buffers it starts from — stated for any contents the
  stretch may start from, and then at the contents the run has there.
-/
import proofs.«148871_j8967891714117_2_alg».proof.Proof.Spec
import proofs.«148871_j8967891714117_2_alg».proof.Proof.Gen.KernelIdeal.Frame
import Idealize.ShloMosaic.Lib.StableHlo.Run

set_option maxRecDepth 16384

noncomputable section

namespace Cert.KernelIdeal.HostVal

open Idealize.ShloMosaic Idealize.ShloMosaic.TcCoe Idealize.SL.Sem Idealize.ShloMosaic.StableHlo
open Cert.KernelIdeal Cert.KernelIdeal.Gen

/-- The result lemmas by rewriting, for what one simplifier pass leaves under a dependent pair. -/
macro "results_rest" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-! ## The first stretch, from any contents X -/

section
variable (X : Valuation τ sig (Elt Ideal))

/-- The source words. -/
theorem ops0_v5 : StableHlo.after hostOps0 X (Proc.devRef .tc main_v5) = Cert.Gcn.srcW (X (Proc.devRef .tc main_arg1)) := by
  after_results_simp
  results_rest
  rfl

/-- The target words. -/
theorem ops0_v6 : StableHlo.after hostOps0 X (Proc.devRef .tc main_v6) = Cert.Gcn.dstW (X (Proc.devRef .tc main_arg1)) := by
  after_results_simp
  results_rest
  rfl

/-- The degree count, of the target words the stretch formed. -/
theorem ops0_v10 :
    StableHlo.after hostOps0 X (Proc.devRef .tc main_v10) = Cert.Gcn.degV (StableHlo.after hostOps0 X (Proc.devRef .tc main_v6)) := by
  after_results_simp
  results_rest
  rfl

/-- Where the degree is positive. -/
theorem ops0_v12 :
    StableHlo.after hostOps0 X (Proc.devRef .tc main_v12)
      = cmpf .ogt (StableHlo.after hostOps0 X (Proc.devRef .tc main_v10) : FVec Ideal S100000 .f32)
          (broadcastInDim S100000 ![] bcast_S_S100000 (constant (F := Ideal) S_ .f32 0x00000000#32)) := by
  after_results_simp
  results_rest

/-- Its inverse square root. -/
theorem ops0_v13 :
    Host.rsqrt (F := Ideal) (s := S100000) (φ := .f32) (StableHlo.after hostOps0 X (Proc.devRef .tc main_v10))
      = StableHlo.after hostOps0 X (Proc.devRef .tc main_v13) := by
  after_results_simp
  results_rest

/-- The zero the outlined `where` is called with. -/
theorem ops0_cst_2 :
    StableHlo.after hostOps0 X (Proc.devRef .tc main_cst_2) = constant (F := Ideal) S_ .f32 0x00000000#32 := by
  after_results_simp

/-- The outlined `where`: a select of its three operands, the third broadcast. -/
theorem ops0_1_v14 :
    StableHlo.after hostOps0_1 X (Proc.devRef .tc main_v14)
      = select (X (Proc.devRef .tc main_v12) : IVec S100000 1) (X (Proc.devRef .tc main_v13) : FVec Ideal S100000 .f32)
          (broadcastInDim S100000 ![] bcast_S_S100000 (X (Proc.devRef .tc main_cst_2) : FVec Ideal S_ .f32)) := by
  after_results_simp
  rfl

/-- d made a column. -/
theorem ops0_2_v15 :
    StableHlo.after hostOps0_2 X (Proc.devRef .tc main_v15) = Cert.Gcn.colF (X (Proc.devRef .tc main_v14)) := by
  after_results_simp
  rfl

/-! ## A layer, from any contents X -/

theorem ops1_v35 :
    StableHlo.after hostOps1 X (Proc.devRef .tc main_v35)
      = Cert.Gcn.layerK (X (Proc.devRef .tc main_v15)) (X (Proc.devRef .tc main_v5)) (X (Proc.devRef .tc main_v6))
          (X (Proc.devRef .tc main_v16)) (X (Proc.devRef .tc main_arg5)) := by
  after_results_simp
  rfl

theorem ops2_v55 :
    StableHlo.after hostOps2 X (Proc.devRef .tc main_v55)
      = Cert.Gcn.layerK (X (Proc.devRef .tc main_v15)) (X (Proc.devRef .tc main_v5)) (X (Proc.devRef .tc main_v6))
          (X (Proc.devRef .tc main_v36)) (X (Proc.devRef .tc main_arg7)) := by
  after_results_simp
  rfl

theorem ops3_v75 :
    StableHlo.after hostOps3 X (Proc.devRef .tc main_v75)
      = Cert.Gcn.layerK (X (Proc.devRef .tc main_v15)) (X (Proc.devRef .tc main_v5)) (X (Proc.devRef .tc main_v6))
          (X (Proc.devRef .tc main_v56)) (X (Proc.devRef .tc main_arg9)) := by
  after_results_simp
  rfl

end

/-! ## At the run's contents -/

variable (m : (ℓ : Loc nD τ sig) → Buf (Elt Ideal) ℓ) (ρ : Dev nD → PrngReg)

/-- The source words at region 0's entry. -/
theorem W1_v5 (c : Dev nD) :
    W1 m ρ c (Proc.devRef .tc main_v5) = Cert.Gcn.srcW (m ((c : Thread nD τ).loc main_arg1)) := ops0_v5 (W0 m ρ c)

/-- The target words. -/
theorem W1_v6 (c : Dev nD) :
    W1 m ρ c (Proc.devRef .tc main_v6) = Cert.Gcn.dstW (m ((c : Thread nD τ).loc main_arg1)) := ops0_v6 (W0 m ρ c)

/-- The column d at region 0's entry. -/
theorem W3_v15 (c : Dev nD) :
    W3 m ρ c (Proc.devRef .tc main_v15)
      = Cert.Gcn.colF (Cert.Gcn.dinvV (Cert.Gcn.dstW (m ((c : Thread nD τ).loc main_arg1)))) := by
  refine (ops0_2_v15 (W2 m ρ c)).trans (congrArg Cert.Gcn.colF ?_)
  refine (ops0_1_v14 (W1 m ρ c)).trans ?_
  have h10 : (W1 m ρ c (Proc.devRef .tc main_v10) : FVec Ideal S100000 .f32)
      = Cert.Gcn.degV (Cert.Gcn.dstW (m ((c : Thread nD τ).loc main_arg1))) :=
    (ops0_v10 (W0 m ρ c)).trans (congrArg Cert.Gcn.degV (W1_v6 m ρ c))
  rw [show W1 m ρ c (Proc.devRef .tc main_v12) = _ from ops0_v12 (W0 m ρ c),
    show W1 m ρ c (Proc.devRef .tc main_v13) = _ from (ops0_v13 (W0 m ρ c)).symm,
    show W1 m ρ c (Proc.devRef .tc main_cst_2) = _ from ops0_cst_2 (W0 m ρ c)]
  show select (cmpf (F := Ideal) (s := S100000) (φ := .f32) .ogt (W1 m ρ c (Proc.devRef .tc main_v10)) _)
      (Host.rsqrt (F := Ideal) (s := S100000) (φ := .f32) (W1 m ρ c (Proc.devRef .tc main_v10))) _ = _
  rw [h10]
  rfl

theorem W5_v35 (c : Dev nD) :
    W5 m ρ c (Proc.devRef .tc main_v35)
      = Cert.Gcn.layerK (W4 m ρ c (Proc.devRef .tc main_v15)) (W4 m ρ c (Proc.devRef .tc main_v5)) (W4 m ρ c (Proc.devRef .tc main_v6))
          (W4 m ρ c (Proc.devRef .tc main_v16)) (W4 m ρ c (Proc.devRef .tc main_arg5)) := ops1_v35 (W4 m ρ c)

theorem W7_v55 (c : Dev nD) :
    W7 m ρ c (Proc.devRef .tc main_v55)
      = Cert.Gcn.layerK (W6 m ρ c (Proc.devRef .tc main_v15)) (W6 m ρ c (Proc.devRef .tc main_v5)) (W6 m ρ c (Proc.devRef .tc main_v6))
          (W6 m ρ c (Proc.devRef .tc main_v36)) (W6 m ρ c (Proc.devRef .tc main_arg7)) := ops2_v55 (W6 m ρ c)

theorem W9_v75 (c : Dev nD) :
    W9 m ρ c (Proc.devRef .tc main_v75)
      = Cert.Gcn.layerK (W8 m ρ c (Proc.devRef .tc main_v15)) (W8 m ρ c (Proc.devRef .tc main_v5)) (W8 m ρ c (Proc.devRef .tc main_v6))
          (W8 m ρ c (Proc.devRef .tc main_v56)) (W8 m ρ c (Proc.devRef .tc main_arg9)) := ops3_v75 (W8 m ρ c)

end Cert.KernelIdeal.HostVal

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibRowBlocks.lean ====
/-
  A matrix product computed by blocks of rows is the whole product.

  At the ideal values — floats extended reals, every operation exact — the host's `dot_general` with
  the plain dimension numbers "rows × contraction times contraction × columns", read at the output
  index (r, c), is the sum over k of lhs (r, k) · rhs (k, c), exactly what a `tpu.matmul` into the zero
  accumulator is.  So a row block of the left operand, multiplied on the matrix unit by the whole right
  operand, gives at its local index (p, c) the whole product's entry at (r, c), where r is the row of the
  whole array that the block's row p is.  No finiteness is used: both sides are one and the same sum.
-/
import proofs.«148871_j8967891714117_2_alg».proof.Proof.LibPlainDot

noncomputable section

namespace Cert.Lib.RowBlocks

open Idealize.ShloMosaic Idealize.ShloMosaic.ValueIdx Cert.Lib.PlainDot

variable {M K N : Nat}

/-- The host's plain `dot_general`, at the ideal values, read at (r, c): the sum over k of
    lhs (r, k) · rhs (k, c). -/
theorem dotGeneral_plain_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  rw [lhsIdx_plain, rhsIdx_plain]

/-- A block of B rows of the left operand times the whole right operand, into the zero accumulator: its
    entry at the local index (p, c) is the whole product's entry at (r, c), when row p of the block is row r
    of the whole left operand and the block's right operand is the whole one (the operands' float formats may
    differ between the block and the whole: at the ideal values every format is the extended reals). -/
theorem matmul_rows_eq_dotGeneral {B : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, N]⟩ φ₂) (p : Fin B) (r : Fin M) (c : Fin N)
    (hx : ∀ k : Fin K, (xb (ix2 p k) : EReal) = x (ix2 r k)) (hw : ∀ k : Fin K, (wb (ix2 k c) : EReal) = w (ix2 k c)) :
    matmul (DotDims.plain B K N) prec xb wb (constant (F := Ideal) ⟨2, ![B, N]⟩ .f32 0x00000000#32) (ix2 p c)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.RowBlocks

end
-- ==== Proof.LibDotBlocks.lean ====
/-
  A matrix product computed on blocks of its operands is the whole product there.

  At the ideal values — floats extended reals, every operation exact — a `tpu.matmul` into the zero
  accumulator and the host's `dot_general`, both with the plain dimension numbers "rows × contraction
  times contraction × columns", are the same sum over the contraction index.  So a block of rows of the
  left operand times a block of columns of the right operand, multiplied on the matrix unit, gives at its
  local index (p, q) the whole product's entry at (r, c), as soon as row p of the left block is row r of
  the whole left operand and column q of the right block is column c of the whole right operand.  The
  contraction is not blocked; no finiteness is used: both sides are one and the same sum.
-/
import proofs.«148871_j8967891714117_2_alg».proof.Proof.LibRowBlocks

noncomputable section

namespace Cert.Lib.DotBlocks

open Idealize.ShloMosaic Idealize.ShloMosaic.ValueIdx Cert.Lib.PlainDot Cert.Lib.RowBlocks

variable {M K N : Nat}

/-- A block of B rows of the left operand times a block of D columns of the right operand, into the zero
    accumulator: its entry at the local index (p, q) is the whole product's entry at (r, c), when row p of
    the left block is row r of the whole left operand and column q of the right block is column c of the
    whole right operand (the operands' float formats may differ between the blocks and the whole: at the
    ideal values every format is the extended reals). -/
theorem matmul_block_eq_dotGeneral {B D : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, D]⟩ φ₂) (p : Fin B) (q : Fin D) (r : Fin M) (c : Fin N)
    (hx : ∀ k : Fin K, (xb (ix2 p k) : EReal) = x (ix2 r k)) (hw : ∀ k : Fin K, (wb (ix2 k q) : EReal) = w (ix2 k c)) :
    matmul (DotDims.plain B K D) prec xb wb (constant (F := Ideal) ⟨2, ![B, D]⟩ .f32 0x00000000#32) (ix2 p q)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.DotBlocks

end
-- ==== Proof.LibDenseLayers.lean ====
/-
  Dense layers on the matrix unit, block by block, against the host's whole-array spelling.

  At the ideal values — floats extended reals, every operation exact, a change of float format the identity —
  for any extents:

  * an affine map computed on a block of B rows, `(block of x) · w + (row b spread over the rows)` with the
    operands narrowed to a smaller float format and the product taken into the zero accumulator, read at the
    block-local index (p, q), is the host's `x · w + b` read at (r, q), when row p of the block is row r of x;
  * clamping below at a constant word is the same function on both sides;
  * a product against a matrix [H1 + H2, N] of two arrays joined along their columns is the sum of the two
    products against the upper H1 rows and the lower H2 rows: a sum over H1 + H2 indices is the sum over the first
    H1 plus the sum over the last H2 (only commutativity and associativity of +, so no finiteness is needed);
  * hence the two-product layer `(block of a) · w_top + (block of e) · w_bottom + b` on the matrix unit is the
    host's `concat(a, e) · w + b`.
-/
import proofs.«148871_j8967891714117_2_alg».proof.Proof.LibDotBlocks
import proofs.«148871_j8967891714117_2_alg».proof.Proof.LibRows
import proofs.«148871_j8967891714117_2_alg».proof.Proof.LibRowBroadcast
import Idealize.ShloMosaic.Lib.ValueIdx
import Idealize.ShloMosaic.Lib.Pipeline.Value
import Idealize.ShloMosaic.PureOps.Ideal.Laws
import Mathlib.Algebra.BigOperators.Fin

noncomputable section

namespace Cert.Lib.DenseLayers

open Idealize.ShloMosaic Idealize.ShloMosaic.ValueIdx

/-- A vector [N] broadcast onto axis 1 of the row [1, N], read at (0, q), is the vector at q. -/
theorem vec_row_apply {α : Type} {N : Nat} (b : (⟨1, ![N]⟩ : Shape).Idx → α)
    (hb1 : (⟨1, ![N]⟩ : Shape).BroadcastsInDim ⟨2, ![1, N]⟩ (![1] : Fin 1 → Fin 2)) (q : Fin N) :
    broadcastInDim ⟨2, ![1, N]⟩ (![1] : Fin 1 → Fin 2) hb1 b (ix2 0 q) = b (ix1 q) :=
  broadcastInDim_apply (![1] : Fin 1 → Fin 2) hb1 b (ix2 0 q) (ix1 q) (fun a => by
    match a with
    | ⟨0, _⟩ =>
      show q.val = if N = 1 then 0 else q.val
      by_cases hC : N = 1
      · rw [if_pos hC]; have := q.isLt; omega
      · rw [if_neg hC])

/-- The bias: the block's row [1, N] spread over its B rows, read at (p, q), is the host's vector [N] made a row
    and spread over the M rows, read at (r, q), when the block's row holds the vector. -/
theorem bias_block_apply {α : Type} {M B N : Nat} (b : (⟨1, ![N]⟩ : Shape).Idx → α) (bb : (⟨2, ![1, N]⟩ : Shape).Idx → α)
    (hbt : (⟨2, ![1, N]⟩ : Shape).Broadcasts ⟨2, ![B, N]⟩)
    (hb1 : (⟨1, ![N]⟩ : Shape).BroadcastsInDim ⟨2, ![1, N]⟩ (![1] : Fin 1 → Fin 2))
    (hb01 : (⟨2, ![1, N]⟩ : Shape).BroadcastsInDim ⟨2, ![M, N]⟩ (![0, 1] : Fin 2 → Fin 2))
    (p : Fin B) (r : Fin M) (q : Fin N) (hb : bb (ix2 0 q) = b (ix1 q)) :
    broadcastTo ⟨2, ![B, N]⟩ bb hbt (ix2 p q)
      = broadcastInDim ⟨2, ![M, N]⟩ (![0, 1] : Fin 2 → Fin 2) hb01
          (broadcastInDim ⟨2, ![1, N]⟩ (![1] : Fin 1 → Fin 2) hb1 b) (ix2 r q) := by
  rw [Cert.Lib.Rows.broadcastTo_row_apply, Cert.Lib.RowBroadcast.broadcastInDim_row_apply, vec_row_apply, hb]

/-- An affine map on a block of rows is the host's affine map at the block's rows. -/
theorem affine_block_apply {M B K N : Nat} {ψ₁ ψ₂ : FTy}
    (X : FVec Ideal ⟨2, ![M, K]⟩ .f32) (W : FVec Ideal ⟨2, ![K, N]⟩ .f32) (b : FVec Ideal ⟨1, ![N]⟩ .f32)
    (xb : FVec Ideal ⟨2, ![B, K]⟩ .f32) (wb : FVec Ideal ⟨2, ![K, N]⟩ .f32) (bb : FVec Ideal ⟨2, ![1, N]⟩ .f32)
    (g₁ : ψ₁.bits < FTy.f32.bits) (g₂ : ψ₂.bits < FTy.f32.bits) (prec prec' : Option ContractPrecision)
    (hbt : (⟨2, ![1, N]⟩ : Shape).Broadcasts ⟨2, ![B, N]⟩)
    (hb1 : (⟨1, ![N]⟩ : Shape).BroadcastsInDim ⟨2, ![1, N]⟩ (![1] : Fin 1 → Fin 2))
    (hb01 : (⟨2, ![1, N]⟩ : Shape).BroadcastsInDim ⟨2, ![M, N]⟩ (![0, 1] : Fin 2 → Fin 2))
    (p : Fin B) (r : Fin M) (q : Fin N)
    (hx : ∀ k : Fin K, xb (ix2 p k) = X (ix2 r k)) (hw : ∀ k : Fin K, wb (ix2 k q) = W (ix2 k q))
    (hb : bb (ix2 0 q) = b (ix1 q)) :
    addf (matmul (DotDims.plain B K N) prec (truncf ψ₁ xb g₁) (truncf ψ₂ wb g₂) (constant (F := Ideal) ⟨2, ![B, N]⟩ .f32 0x00000000#32))
        (broadcastTo ⟨2, ![B, N]⟩ bb hbt) (ix2 p q)
      = addf (Host.dotGeneral (DotDims.plain M K N) prec' X W)
          (broadcastInDim ⟨2, ![M, N]⟩ (![0, 1] : Fin 2 → Fin 2) hb01
            (broadcastInDim ⟨2, ![1, N]⟩ (![1] : Fin 1 → Fin 2) hb1 b)) (ix2 r q) := by
  rw [addf_apply, addf_apply, bias_block_apply b bb hbt hb1 hb01 p r q hb,
    Cert.Lib.DotBlocks.matmul_block_eq_dotGeneral prec prec' X W (truncf ψ₁ xb g₁) (truncf ψ₂ wb g₂) p q r q hx hw]

/-- Clamping below at the constant word z: the vector unit's `max(A, splat z)` at an index is the host's
    `max(A', broadcast of the scalar constant z)` at an index where A and A' agree. -/
theorem relu_eq {s t : Shape} (A : FVec Ideal s .f32) (A' : FVec Ideal t .f32) (z : BitVec FTy.f32.bits) (i : s.Idx) (j : t.Idx)
    (h0 : (⟨0, ![]⟩ : Shape).BroadcastsInDim t (![] : Fin 0 → Fin t.rank)) (hA : A i = A' j) :
    maximumf A (broadcast s (Scalar.ofBits (F := Ideal) .f32 z)) i
      = maximumf A' (broadcastInDim t (![] : Fin 0 → Fin t.rank) h0 (constant (F := Ideal) ⟨0, ![]⟩ .f32 z)) j := by
  rw [maximumf_apply, maximumf_apply, hA,
    Cert.Lib.RowBroadcast.broadcastInDim_scalar_apply _ h0 j (fun a => a.elim0)]
  rfl

/-- A sum over K = K1 + K2 indices is the sum over the first K1 plus the sum over the last K2. -/
theorem sum_split {β : Type} [AddCommMonoid β] {K K1 K2 : Nat} (hK : K = K1 + K2) (f : Fin K → β) :
    ∑ k : Fin K, f k = (∑ k : Fin K1, f ⟨k.val, by omega⟩) + ∑ k : Fin K2, f ⟨K1 + k.val, by omega⟩ := by
  subst hK
  rw [Fin.sum_univ_add]
  rfl

/-- The host's product of two arrays joined along their columns against a matrix [H1 + H2, N], read at (r, q): the
    first array against the upper H1 rows plus the second against the lower H2 rows. -/
theorem concat_dot_apply {M K H1 H2 N : Nat} (hK : K = H1 + H2)
    (A : FVec Ideal ⟨2, ![M, H1]⟩ .f32) (E : FVec Ideal ⟨2, ![M, H2]⟩ .f32) (W : FVec Ideal ⟨2, ![K, N]⟩ .f32)
    (hc : Shape.Concatenates [(⟨2, ![M, H1]⟩ : Shape), ⟨2, ![M, H2]⟩] ⟨2, ![M, K]⟩ 1)
    (prec : Option ContractPrecision) (r : Fin M) (q : Fin N) :
    Host.dotGeneral (DotDims.plain M K N) prec
        (concatenate (⟨2, ![M, K]⟩ : Shape) 1 [⟨(⟨2, ![M, H1]⟩ : Shape), A⟩, ⟨(⟨2, ![M, H2]⟩ : Shape), E⟩] hc) W (ix2 r q)
      = (∑ k : Fin H1, A (ix2 r k) * W (ix2 ⟨k.val, by omega⟩ q))
        + ∑ k : Fin H2, E (ix2 r k) * W (ix2 ⟨H1 + k.val, by omega⟩ q) := by
  rw [Cert.Lib.RowBlocks.dotGeneral_plain_apply, sum_split hK]
  congr 1
  · refine Finset.sum_congr rfl fun k _ => ?_
    rw [concatenate_pair_apply_left (t := (⟨2, ![M, K]⟩ : Shape)) (1 : Fin 2) A E hc (ix2 r ⟨k.val, by omega⟩) rfl (ix2 r k)
      (fun b => by match b with | ⟨0, _⟩ => rfl | ⟨1, _⟩ => rfl)]
  · refine Finset.sum_congr rfl fun k _ => ?_
    rw [concatenate_pair_apply_right (t := (⟨2, ![M, K]⟩ : Shape)) (1 : Fin 2) A E hc (ix2 r ⟨H1 + k.val, by omega⟩) rfl rfl (ix2 r k)
      (fun b hb => by match b with | ⟨0, _⟩ => rfl | ⟨1, _⟩ => exact absurd rfl hb)
      (by show k.val + H1 = H1 + k.val; omega)]

/-- The two-product layer on a block of rows is the host's product of the joined arrays, plus the bias. -/
theorem dual_block_apply {M B K H1 H2 N : Nat} {ψ₁ ψ₂ ψ₃ ψ₄ : FTy} (hK : K = H1 + H2)
    (A : FVec Ideal ⟨2, ![M, H1]⟩ .f32) (E : FVec Ideal ⟨2, ![M, H2]⟩ .f32) (W : FVec Ideal ⟨2, ![K, N]⟩ .f32)
    (b : FVec Ideal ⟨1, ![N]⟩ .f32)
    (ab : FVec Ideal ⟨2, ![B, H1]⟩ .f32) (eb : FVec Ideal ⟨2, ![B, H2]⟩ .f32)
    (wt : FVec Ideal ⟨2, ![H1, N]⟩ .f32) (wl : FVec Ideal ⟨2, ![H2, N]⟩ .f32) (bb : FVec Ideal ⟨2, ![1, N]⟩ .f32)
    (g₁ : ψ₁.bits < FTy.f32.bits) (g₂ : ψ₂.bits < FTy.f32.bits) (g₃ : ψ₃.bits < FTy.f32.bits) (g₄ : ψ₄.bits < FTy.f32.bits)
    (prec₁ prec₂ prec' : Option ContractPrecision)
    (hc : Shape.Concatenates [(⟨2, ![M, H1]⟩ : Shape), ⟨2, ![M, H2]⟩] ⟨2, ![M, K]⟩ 1)
    (hbt : (⟨2, ![1, N]⟩ : Shape).Broadcasts ⟨2, ![B, N]⟩)
    (hb1 : (⟨1, ![N]⟩ : Shape).BroadcastsInDim ⟨2, ![1, N]⟩ (![1] : Fin 1 → Fin 2))
    (hb01 : (⟨2, ![1, N]⟩ : Shape).BroadcastsInDim ⟨2, ![M, N]⟩ (![0, 1] : Fin 2 → Fin 2))
    (p : Fin B) (r : Fin M) (q : Fin N)
    (ha : ∀ k : Fin H1, ab (ix2 p k) = A (ix2 r k)) (he : ∀ k : Fin H2, eb (ix2 p k) = E (ix2 r k))
    (hwt : ∀ k : Fin H1, wt (ix2 k q) = W (ix2 ⟨k.val, by omega⟩ q))
    (hwl : ∀ k : Fin H2, wl (ix2 k q) = W (ix2 ⟨H1 + k.val, by omega⟩ q))
    (hb : bb (ix2 0 q) = b (ix1 q)) :
    addf (addf (matmul (DotDims.plain B H1 N) prec₁ (truncf ψ₁ ab g₁) (truncf ψ₂ wt g₂) (constant (F := Ideal) ⟨2, ![B, N]⟩ .f32 0x00000000#32))
               (matmul (DotDims.plain B H2 N) prec₂ (truncf ψ₃ eb g₃) (truncf ψ₄ wl g₄) (constant (F := Ideal) ⟨2, ![B, N]⟩ .f32 0x00000000#32)))
        (broadcastTo ⟨2, ![B, N]⟩ bb hbt) (ix2 p q)
      = addf (Host.dotGeneral (DotDims.plain M K N) prec'
                (concatenate (⟨2, ![M, K]⟩ : Shape) 1 [⟨(⟨2, ![M, H1]⟩ : Shape), A⟩, ⟨(⟨2, ![M, H2]⟩ : Shape), E⟩] hc) W)
          (broadcastInDim ⟨2, ![M, N]⟩ (![0, 1] : Fin 2 → Fin 2) hb01
            (broadcastInDim ⟨2, ![1, N]⟩ (![1] : Fin 1 → Fin 2) hb1 b)) (ix2 r q) := by
  rw [addf_apply, addf_apply, addf_apply, bias_block_apply b bb hbt hb1 hb01 p r q hb, concat_dot_apply hK,
    Cert.Lib.PlainDot.matmul_plain_zero_apply, Cert.Lib.PlainDot.matmul_plain_zero_apply]
  congr 2
  · exact Finset.sum_congr rfl fun k _ => congrArg₂ (fun u v : EReal => u * v) (ha k) (hwt k)
  · exact Finset.sum_congr rfl fun k _ => congrArg₂ (fun u v : EReal => u * v) (he k) (hwl k)

end Cert.Lib.DenseLayers

end
-- ==== Proof.KReg0.lean ====
/-
  Region 0 of the kernel: the input projection and the first layer's weights, fused, per block of 2000 rows.

  The region's array after its fifty grid points is, as one array, the host's  relu(x · Wx + bx) · W1  of the arrays
  it found in its operands: block t of the result is rows 2000·t … 2000·t + 1999, row p of the block reads row
  2000·t + p of x, the weights and the bias are read whole at every point, and the blocks cover the 100000 rows.
-/
import proofs.«148871_j8967891714117_2_alg».proof.Proof.Spec
import proofs.«148871_j8967891714117_2_alg».proof.Proof.Gen.KernelIdeal.Frame
import proofs.«148871_j8967891714117_2_alg».proof.Proof.LibDenseLayers
import Idealize.ShloMosaic.Lib.Pipeline.Value
import Idealize.ShloMosaic.Lib.ValueIdx

set_option maxRecDepth 16384

noncomputable section

namespace Cert.KernelIdeal.Reg0

open Idealize.ShloMosaic Idealize.ShloMosaic.ValueIdx Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The body's value at a block-local index is the host's  relu(x · Wx + bx) · W1  at the block's row. -/
theorem pay_apply (x0 : Vec Ideal S2000x1024 .f32) (x1 : Vec Ideal S1024x64 .f32) (x2 : Vec Ideal S64 .f32) (x3 : Vec Ideal S64x64 .f32)
    (X : FVec Ideal S100000x1024 .f32) (WX : FVec Ideal S1024x64 .f32) (BX : FVec Ideal S64 .f32) (W1 : FVec Ideal S64x64 .f32)
    (p : Fin 2000) (r : Fin 100000) (q : Fin 64)
    (hx : ∀ k : Fin 1024, (x0 (ix2 p k) : EReal) = X (ix2 r k))
    (hw : ∀ (k : Fin 1024) (n : Fin 64), (x1 (ix2 k n) : EReal) = WX (ix2 k n))
    (hb : ∀ n : Fin 64, (x2 (ix1 n) : EReal) = BX (ix1 n))
    (hw1 : ∀ k : Fin 64, (x3 (ix2 k q) : EReal) = W1 (ix2 k q)) :
    (k0_pay1 x0 x1 x2 x3 (ix2 p q) : EReal) = Cert.Gcn.proj X WX BX W1 (ix2 r q) := by
  dsimp only [k0_pay1, Cert.Gcn.proj]
  refine Cert.Lib.RowBlocks.matmul_rows_eq_dotGeneral (M := 100000) (K := 64) (N := 64) (B := 2000) none none _ W1 _
    (truncf .bf16 x3 bitsLt_bf16_f32) p r q (fun k => ?_) hw1
  rw [truncf_apply]
  refine Cert.Lib.DenseLayers.relu_eq _ _ 0x00000000#32 (ix2 p k) (ix2 r k) Cert.ReferenceIdeal.Facts₀.bcast_S_S100000x64 ?_
  exact Cert.Lib.DenseLayers.affine_block_apply (M := 100000) (B := 2000) (K := 1024) (N := 64) X WX BX x0 x1
    (shapeCast S1x64 x2 shapeCasts_S64_S1x64) bitsLt_bf16_f32 bitsLt_bf16_f32 none none broadcasts_S1x64_S2000x64
    Cert.ReferenceIdeal.Facts₀.bcast_S64_S1x64_1 Cert.ReferenceIdeal.Facts₀.bcast_S1x64_S100000x64_0_1 p r k hx (fun k' => hw k' k)
    ((Cert.Lib.Rows.shapeCast_vec_row_apply x2 shapeCasts_S64_S1x64 k).trans (hb k))

/-- The printed index maps over the grid: the row blocks move with the point, everything else stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point t writes back is block t of the host's value. -/
theorem flushed_eq (c : Dev nD) (t : Fin cfg0.N) :
    (dat0 V c).flushed 4 t
      = ((cfg0.win 4).blk t).view.read (Elt Ideal)
          (Cert.Gcn.proj (V c main_arg0) (V c main_arg2) (V c main_arg3) (V c main_arg4)) := by
  show (cfg0.win 4).cut (grid0.coords t) ((dat0 V c).after 4 t) = _
  rw [after0_4]
  unfold out0_4
  rw [View.canon_unit_zero hz]
  simp only [View.ld_unit_zero (S := S2000x1024) hz, View.ld_unit_zero (S := S1024x64) hz, View.ld_unit_zero (S := S64x64) hz,
    View.ld_unit_zero (S := S64) hz1]
  obtain ⟨e0, e1, e2, e3, e4, e5, e6, e7, e8⟩ := idx_facts t
  have ht : t.val < 50 := lt_of_lt_of_eq t.isLt N_0
  funext y
  obtain ⟨p, q, rfl⟩ : ∃ (p : Fin 2000) (q : Fin 64), y = ix2 p q := ⟨y 0, y 1, eq_ix2 y⟩
  have hr : t.val * 2000 + p.val < 100000 := by have := p.isLt; omega
  show (k0_pay1 (iblk0 V c 0 t) (iblk0 V c 1 t) (iblk0 V c 2 t) (iblk0 V c 3 t) (ix2 p q) : EReal)
    = Cert.Gcn.proj (V c main_arg0) (V c main_arg2) (V c main_arg3) (V c main_arg4) (((cfg0.win 4).blk t).view.emb (ix2 p q))
  have hemb : ((cfg0.win 4).blk t).view.emb (ix2 p q) = ix2 (⟨t.val * 2000 + p.val, hr⟩ : Fin 100000) q := by
    funext a; apply Fin.ext
    match a with
    | ⟨0, _⟩ => show win0_4.index t (0 : Fin 2) * 2000 + 1 * p.val = t.val * 2000 + p.val; rw [e7]; omega
    | ⟨1, _⟩ => show win0_4.index t (1 : Fin 2) * 64 + 1 * q.val = q.val; rw [e8]; omega
  rw [hemb]
  refine pay_apply (iblk0 V c 0 t) (iblk0 V c 1 t) (iblk0 V c 2 t) (iblk0 V c 3 t) (V c main_arg0) (V c main_arg2) (V c main_arg3)
    (V c main_arg4) p ⟨t.val * 2000 + p.val, hr⟩ q (fun k => ?_) (fun k n => ?_) (fun n => ?_) (fun k => ?_)
  · show V c main_arg0 (((cfg0.win 0).blk t).view.emb (ix2 p k)) = _
    refine congrArg (V c main_arg0) ?_
    funext a; apply Fin.ext
    match a with
    | ⟨0, _⟩ => show win0_0.index t (0 : Fin 2) * 2000 + 1 * p.val = t.val * 2000 + p.val; rw [e0]; omega
    | ⟨1, _⟩ => show win0_0.index t (1 : Fin 2) * 1024 + 1 * k.val = k.val; rw [e1]; omega
  · show V c main_arg2 (((cfg0.win 1).blk t).view.emb (ix2 k n)) = _
    refine congrArg (V c main_arg2) ?_
    funext a; apply Fin.ext
    match a with
    | ⟨0, _⟩ => show win0_1.index t (0 : Fin 2) * 1024 + 1 * k.val = k.val; rw [e2]; omega
    | ⟨1, _⟩ => show win0_1.index t (1 : Fin 2) * 64 + 1 * n.val = n.val; rw [e3]; omega
  · show V c main_arg3 (((cfg0.win 2).blk t).view.emb (ix1 n)) = _
    refine congrArg (V c main_arg3) ?_
    funext a; apply Fin.ext
    match a with
    | ⟨0, _⟩ => show win0_2.index t (0 : Fin 1) * 64 + 1 * n.val = n.val; rw [e4]; omega
  · show V c main_arg4 (((cfg0.win 3).blk t).view.emb (ix2 k q)) = _
    refine congrArg (V c main_arg4) ?_
    funext a; apply Fin.ext
    match a with
    | ⟨0, _⟩ => show win0_3.index t (0 : Fin 2) * 64 + 1 * k.val = k.val; rw [e5]; omega
    | ⟨1, _⟩ => show win0_3.index t (1 : Fin 2) * 64 + 1 * q.val = q.val; rw [e6]; omega

/-- An index of the array is in point t's block iff each coordinate is in the block's range. -/
theorem mem_blk (t : Fin cfg0.N) (i : S100000x64.Idx) :
    i ∈ ((cfg0.win 4).blk t).view.set ↔ ∀ a : Fin 2, win0_4.index t a * S2000x64.size a ≤ (i a).val
      ∧ (i a).val < win0_4.index t a * S2000x64.size a + S2000x64.size a := by
  show i ∈ ((View.whole main_v16).slice (win0_4.rect t)).set ↔ _
  rw [View.set_slice_whole, Rect.mem_set_unit]
  exact Iff.rfl

/-- Every row is in some point's block: row r in block r / 2000. -/
theorem cover (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  have hN : cfg0.N = 50 := N_0
  obtain ⟨t, htv⟩ : ∃ t : Fin cfg0.N, t.val = (i 0).val / 2000 := ⟨⟨(i 0).val / 2000, by rw [hN]; omega⟩, rfl⟩
  obtain ⟨e0, e1, e2, e3, e4, e5, e6, e7, e8⟩ := idx_facts t
  refine ⟨t, flush0_4 t, ?_⟩
  rw [mem_blk]
  intro a
  match a with
  | ⟨0, _⟩ =>
    show win0_4.index t (0 : Fin 2) * 2000 ≤ (i 0).val ∧ (i 0).val < win0_4.index t (0 : Fin 2) * 2000 + 2000
    rw [e7, htv]; omega
  | ⟨1, _⟩ =>
    show win0_4.index t (1 : Fin 2) * 64 ≤ (i 1).val ∧ (i 1).val < win0_4.index t (1 : Fin 2) * 64 + 64
    rw [e8]; omega

/-- THE REGION'S ARRAY after the run is the host's value of what it found. -/
theorem final (c : Dev nD) :
    (dat0 V c).arrAt 4 cfg0.N = Cert.Gcn.proj (V c main_arg0) (V c main_arg2) (V c main_arg3) (V c main_arg4) :=
  (dat0 V c).arrAt_eq_of_cover 4 _ (fun t _ => flushed_eq V c t) (fun i => cover i)

end Cert.KernelIdeal.Reg0

end
-- ==== Proof.KReg1.lean ====
/-
  Region 1 of the kernel: one 64-by-64 matrix product per block of 10000 rows.

  The region's array after its ten grid points is, as one array, the host's product  l · W  of the array l it found
  in its first operand and the weights W it found in its second: block t of the result is rows 10000·t … 10000·t + 9999,
  row p of the block reads row 10000·t + p of l, and the blocks cover the 100000 rows.
-/
import proofs.«148871_j8967891714117_2_alg».proof.Proof.Spec
import proofs.«148871_j8967891714117_2_alg».proof.Proof.Gen.KernelIdeal.Frame
import proofs.«148871_j8967891714117_2_alg».proof.Proof.LibRowBlocks
import Idealize.ShloMosaic.Lib.Pipeline.Value
import Idealize.ShloMosaic.Lib.ValueIdx

set_option maxRecDepth 16384

noncomputable section

namespace Cert.KernelIdeal.Reg1

open Idealize.ShloMosaic Idealize.ShloMosaic.ValueIdx Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product at a block-local index is the host's product at the block's row. -/
theorem pay_apply (x0 : Vec Ideal S10000x64 .f32) (x1 : Vec Ideal S64x64 .f32)
    (L : FVec Ideal S100000x64 .f32) (W : FVec Ideal S64x64 .f32) (p : Fin 10000) (r : Fin 100000) (q : Fin 64)
    (hx : ∀ k : Fin 64, (x0 (ix2 p k) : EReal) = L (ix2 r k)) (hw : ∀ k : Fin 64, (x1 (ix2 k q) : EReal) = W (ix2 k q)) :
    (k1_pay1 x0 x1 (ix2 p q) : EReal) = Cert.Gcn.lin L W (ix2 r q) := by
  dsimp only [k1_pay1, Cert.Gcn.lin]
  rw [shapeCast_self]
  exact Cert.Lib.RowBlocks.matmul_rows_eq_dotGeneral (M := 100000) (K := 64) (N := 64) (B := 10000) none none L W
    (truncf .bf16 x0 bitsLt_bf16_f32) (truncf .bf16 x1 bitsLt_bf16_f32) p r q hx hw

/-- The printed index maps over the grid: the row blocks move with the point, the weights stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the host's product. -/
theorem flushed_eq (c : Dev nD) (t : Fin cfg1.N) :
    (dat1 V c).flushed 2 t
      = ((cfg1.win 2).blk t).view.read (Elt Ideal) (Cert.Gcn.lin (V c main_v35) (V c main_arg6)) := by
  show (cfg1.win 2).cut (grid1.coords t) ((dat1 V c).after 2 t) = _
  rw [after1_2]
  unfold out1_2
  rw [View.canon_unit_zero hz]
  simp only [View.ld_unit_zero (S := S10000x64) hz, View.ld_unit_zero (S := S64x64) hz]
  obtain ⟨e0, e1, e2, e3, e4, e5⟩ := idx_facts t
  have ht : t.val < 10 := lt_of_lt_of_eq t.isLt N_1
  funext y
  obtain ⟨p, q, rfl⟩ : ∃ (p : Fin 10000) (q : Fin 64), y = ix2 p q := ⟨y 0, y 1, eq_ix2 y⟩
  have hr : t.val * 10000 + p.val < 100000 := by have := p.isLt; omega
  show (k1_pay1 (iblk1 V c 0 t) (iblk1 V c 1 t) (ix2 p q) : EReal)
    = Cert.Gcn.lin (V c main_v35) (V c main_arg6) (((cfg1.win 2).blk t).view.emb (ix2 p q))
  have hemb : ((cfg1.win 2).blk t).view.emb (ix2 p q) = ix2 (⟨t.val * 10000 + p.val, hr⟩ : Fin 100000) q := by
    funext a; apply Fin.ext
    match a with
    | ⟨0, _⟩ => show win1_2.index t (0 : Fin 2) * 10000 + 1 * p.val = t.val * 10000 + p.val; rw [e4]; omega
    | ⟨1, _⟩ => show win1_2.index t (1 : Fin 2) * 64 + 1 * q.val = q.val; rw [e5]; omega
  rw [hemb]
  refine pay_apply (iblk1 V c 0 t) (iblk1 V c 1 t) (V c main_v35) (V c main_arg6) p ⟨t.val * 10000 + p.val, hr⟩ q (fun k => ?_) (fun k => ?_)
  · show V c main_v35 (((cfg1.win 0).blk t).view.emb (ix2 p k)) = _
    refine congrArg (V c main_v35) ?_
    funext a; apply Fin.ext
    match a with
    | ⟨0, _⟩ => show win1_0.index t (0 : Fin 2) * 10000 + 1 * p.val = t.val * 10000 + p.val; rw [e0]; omega
    | ⟨1, _⟩ => show win1_0.index t (1 : Fin 2) * 64 + 1 * k.val = k.val; rw [e1]; omega
  · show V c main_arg6 (((cfg1.win 1).blk t).view.emb (ix2 k q)) = _
    refine congrArg (V c main_arg6) ?_
    funext a; apply Fin.ext
    match a with
    | ⟨0, _⟩ => show win1_1.index t (0 : Fin 2) * 64 + 1 * k.val = k.val; rw [e2]; omega
    | ⟨1, _⟩ => show win1_1.index t (1 : Fin 2) * 64 + 1 * q.val = q.val; rw [e3]; omega

/-- An index of the array is in point t's block iff each coordinate is in the block's range. -/
theorem mem_blk (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v36).slice (win1_2.rect t)).set ↔ _
  rw [View.set_slice_whole, Rect.mem_set_unit]
  exact Iff.rfl

/-- Every row is in some point's block: row r in block r / 10000. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  obtain ⟨t, htv⟩ : ∃ t : Fin cfg1.N, t.val = (i 0).val / 10000 := ⟨⟨(i 0).val / 10000, by rw [hN]; omega⟩, rfl⟩
  obtain ⟨e0, e1, e2, e3, e4, e5⟩ := idx_facts t
  refine ⟨t, flush1_2 t, ?_⟩
  rw [mem_blk]
  intro a
  match a with
  | ⟨0, _⟩ =>
    show win1_2.index t (0 : Fin 2) * 10000 ≤ (i 0).val ∧ (i 0).val < win1_2.index t (0 : Fin 2) * 10000 + 10000
    rw [e4, htv]; omega
  | ⟨1, _⟩ =>
    show win1_2.index t (1 : Fin 2) * 64 ≤ (i 1).val ∧ (i 1).val < win1_2.index t (1 : Fin 2) * 64 + 64
    rw [e5]; omega

/-- THE REGION'S ARRAY after the run is the host's product of what it found. -/
theorem final (c : Dev nD) : (dat1 V c).arrAt 2 cfg1.N = Cert.Gcn.lin (V c main_v35) (V c main_arg6) :=
  (dat1 V c).arrAt_eq_of_cover 2 _ (fun t _ => flushed_eq V c t) (fun i => cover i)

end Cert.KernelIdeal.Reg1

end
-- ==== Proof.KReg2.lean ====
/-
  Region 2 of the kernel: one 64-by-64 matrix product per block of 10000 rows.

  The region's array after its ten grid points is, as one array, the host's product  l · W  of the array l it found
  in its first operand and the weights W it found in its second: block t of the result is rows 10000·t … 10000·t + 9999,
  row p of the block reads row 10000·t + p of l, and the blocks cover the 100000 rows.
-/
import proofs.«148871_j8967891714117_2_alg».proof.Proof.Spec
import proofs.«148871_j8967891714117_2_alg».proof.Proof.Gen.KernelIdeal.Frame
import proofs.«148871_j8967891714117_2_alg».proof.Proof.LibRowBlocks
import Idealize.ShloMosaic.Lib.Pipeline.Value
import Idealize.ShloMosaic.Lib.ValueIdx

set_option maxRecDepth 16384

noncomputable section

namespace Cert.KernelIdeal.Reg2

open Idealize.ShloMosaic Idealize.ShloMosaic.ValueIdx Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product at a block-local index is the host's product at the block's row. -/
theorem pay_apply (x0 : Vec Ideal S10000x64 .f32) (x1 : Vec Ideal S64x64 .f32)
    (L : FVec Ideal S100000x64 .f32) (W : FVec Ideal S64x64 .f32) (p : Fin 10000) (r : Fin 100000) (q : Fin 64)
    (hx : ∀ k : Fin 64, (x0 (ix2 p k) : EReal) = L (ix2 r k)) (hw : ∀ k : Fin 64, (x1 (ix2 k q) : EReal) = W (ix2 k q)) :
    (k2_pay1 x0 x1 (ix2 p q) : EReal) = Cert.Gcn.lin L W (ix2 r q) := by
  dsimp only [k2_pay1, Cert.Gcn.lin]
  rw [shapeCast_self]
  exact Cert.Lib.RowBlocks.matmul_rows_eq_dotGeneral (M := 100000) (K := 64) (N := 64) (B := 10000) none none L W
    (truncf .bf16 x0 bitsLt_bf16_f32) (truncf .bf16 x1 bitsLt_bf16_f32) p r q hx hw

/-- The printed index maps over the grid: the row blocks move with the point, the weights stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the host's product. -/
theorem flushed_eq (c : Dev nD) (t : Fin cfg2.N) :
    (dat2 V c).flushed 2 t
      = ((cfg2.win 2).blk t).view.read (Elt Ideal) (Cert.Gcn.lin (V c main_v55) (V c main_arg8)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x64) hz]
  obtain ⟨e0, e1, e2, e3, e4, e5⟩ := idx_facts t
  have ht : t.val < 10 := lt_of_lt_of_eq t.isLt N_2
  funext y
  obtain ⟨p, q, rfl⟩ : ∃ (p : Fin 10000) (q : Fin 64), y = ix2 p q := ⟨y 0, y 1, eq_ix2 y⟩
  have hr : t.val * 10000 + p.val < 100000 := by have := p.isLt; omega
  show (k2_pay1 (iblk2 V c 0 t) (iblk2 V c 1 t) (ix2 p q) : EReal)
    = Cert.Gcn.lin (V c main_v55) (V c main_arg8) (((cfg2.win 2).blk t).view.emb (ix2 p q))
  have hemb : ((cfg2.win 2).blk t).view.emb (ix2 p q) = ix2 (⟨t.val * 10000 + p.val, hr⟩ : Fin 100000) q := by
    funext a; apply Fin.ext
    match a with
    | ⟨0, _⟩ => show win2_2.index t (0 : Fin 2) * 10000 + 1 * p.val = t.val * 10000 + p.val; rw [e4]; omega
    | ⟨1, _⟩ => show win2_2.index t (1 : Fin 2) * 64 + 1 * q.val = q.val; rw [e5]; omega
  rw [hemb]
  refine pay_apply (iblk2 V c 0 t) (iblk2 V c 1 t) (V c main_v55) (V c main_arg8) p ⟨t.val * 10000 + p.val, hr⟩ q (fun k => ?_) (fun k => ?_)
  · show V c main_v55 (((cfg2.win 0).blk t).view.emb (ix2 p k)) = _
    refine congrArg (V c main_v55) ?_
    funext a; apply Fin.ext
    match a with
    | ⟨0, _⟩ => show win2_0.index t (0 : Fin 2) * 10000 + 1 * p.val = t.val * 10000 + p.val; rw [e0]; omega
    | ⟨1, _⟩ => show win2_0.index t (1 : Fin 2) * 64 + 1 * k.val = k.val; rw [e1]; omega
  · show V c main_arg8 (((cfg2.win 1).blk t).view.emb (ix2 k q)) = _
    refine congrArg (V c main_arg8) ?_
    funext a; apply Fin.ext
    match a with
    | ⟨0, _⟩ => show win2_1.index t (0 : Fin 2) * 64 + 1 * k.val = k.val; rw [e2]; omega
    | ⟨1, _⟩ => show win2_1.index t (1 : Fin 2) * 64 + 1 * q.val = q.val; rw [e3]; omega

/-- An index of the array is in point t's block iff each coordinate is in the block's range. -/
theorem mem_blk (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v56).slice (win2_2.rect t)).set ↔ _
  rw [View.set_slice_whole, Rect.mem_set_unit]
  exact Iff.rfl

/-- Every row is in some point's block: row r in block r / 10000. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  obtain ⟨t, htv⟩ : ∃ t : Fin cfg2.N, t.val = (i 0).val / 10000 := ⟨⟨(i 0).val / 10000, by rw [hN]; omega⟩, rfl⟩
  obtain ⟨e0, e1, e2, e3, e4, e5⟩ := idx_facts t
  refine ⟨t, flush2_2 t, ?_⟩
  rw [mem_blk]
  intro a
  match a with
  | ⟨0, _⟩ =>
    show win2_2.index t (0 : Fin 2) * 10000 ≤ (i 0).val ∧ (i 0).val < win2_2.index t (0 : Fin 2) * 10000 + 10000
    rw [e4, htv]; omega
  | ⟨1, _⟩ =>
    show win2_2.index t (1 : Fin 2) * 64 ≤ (i 1).val ∧ (i 1).val < win2_2.index t (1 : Fin 2) * 64 + 64
    rw [e5]; omega

/-- THE REGION'S ARRAY after the run is the host's product of what it found. -/
theorem final (c : Dev nD) : (dat2 V c).arrAt 2 cfg2.N = Cert.Gcn.lin (V c main_v55) (V c main_arg8) :=
  (dat2 V c).arrAt_eq_of_cover 2 _ (fun t _ => flushed_eq V c t) (fun i => cover i)

end Cert.KernelIdeal.Reg2

end
-- ==== Proof.KReg3.lean ====
/-
  Region 3 of the kernel: the mean of the three layers and the classifier, fused, per block of 5000 rows.

  The region's array after its twenty grid points is, as one array, the host's  relu(((l1 + l2 + l3) / 3) · Wz + bz)
  of the arrays it found in its operands.  The kernel multiplies by the constant it names 1/3 where the host divides
  by 3; on the extended reals a quotient by the real number 3 is the product with 1/3, whatever the dividend.
-/
import proofs.«148871_j8967891714117_2_alg».proof.Proof.Spec
import proofs.«148871_j8967891714117_2_alg».proof.Proof.Gen.KernelIdeal.Frame
import proofs.«148871_j8967891714117_2_alg».proof.Proof.LibDenseLayers
import Idealize.ShloMosaic.Lib.Pipeline.Value
import Idealize.ShloMosaic.Lib.ValueIdx
import Idealize.ShloMosaic.PureOps.IdealRules

set_option maxRecDepth 16384

noncomputable section

namespace Cert.KernelIdeal.Reg3

open Idealize.ShloMosaic Idealize.ShloMosaic.ValueIdx Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The kernel's named constant is the rational 1/3. -/
theorem inv_3 : Named.named (F := Ideal) κ "inv_3" (φ := .f32) 0x3EAAAAAB#32 = ((1 / 3 : ℝ) : EReal) :=
  IdealRules.named_const.ideal_named_scalar _ _ _ _ rfl

/-- The host's divisor 3.0 is the real number 3. -/
theorem ofBits_three : Ideal.ofBits .f32 0x40400000#32 = ((3 : ℝ) : EReal) := by
  simp [Ideal.ofBits, Ideal.ieee, -EReal.coe_mul]; norm_num

/-- The mean of three entries: the product with the named 1/3 is the host's quotient by 3.0. -/
theorem mean_eq (a b d : EReal) :
    (a + b + d) * Named.named (F := Ideal) κ "inv_3" (φ := .f32) 0x3EAAAAAB#32
      = Ideal.div (a + b + d) (Ideal.ofBits .f32 0x40400000#32) := by
  rw [inv_3, ofBits_three, Ideal.div_coe (by norm_num : (3 : ℝ) ≠ 0)]

/-- The body's value at a block-local index is the host's head at the block's row. -/
theorem pay_apply (x0 x1 x2 : Vec Ideal S5000x64 .f32) (x3 : Vec Ideal S64x40 .f32) (x4 : Vec Ideal S40 .f32)
    (L1 L2 L3 : FVec Ideal S100000x64 .f32) (WZ : FVec Ideal S64x40 .f32) (BZ : FVec Ideal S40 .f32)
    (p : Fin 5000) (r : Fin 100000) (q : Fin 40)
    (h0 : ∀ k : Fin 64, (x0 (ix2 p k) : EReal) = L1 (ix2 r k)) (h1 : ∀ k : Fin 64, (x1 (ix2 p k) : EReal) = L2 (ix2 r k))
    (h2 : ∀ k : Fin 64, (x2 (ix2 p k) : EReal) = L3 (ix2 r k))
    (hw : ∀ k : Fin 64, (x3 (ix2 k q) : EReal) = WZ (ix2 k q)) (hb : (x4 (ix1 q) : EReal) = BZ (ix1 q)) :
    (k3_pay1 x0 x1 x2 x3 x4 (ix2 p q) : EReal) = Cert.Gcn.head L1 L2 L3 WZ BZ (ix2 r q) := by
  dsimp only [k3_pay1, Cert.Gcn.head]
  refine Cert.Lib.DenseLayers.relu_eq _ _ 0x00000000#32 (ix2 p q) (ix2 r q) Cert.ReferenceIdeal.Facts₀.bcast_S_S100000x40 ?_
  refine Cert.Lib.DenseLayers.affine_block_apply (M := 100000) (B := 5000) (K := 64) (N := 40)
    (Host.divf (addf (addf L1 L2) L3) (broadcastInDim Cert.ReferenceIdeal.S100000x64 ![] Cert.ReferenceIdeal.Facts₀.bcast_S_S100000x64
      (constant (F := Ideal) Cert.ReferenceIdeal.S_ .f32 0x40400000#32))) WZ BZ _ x3
    (shapeCast S1x40 x4 shapeCasts_S40_S1x40) bitsLt_bf16_f32 bitsLt_bf16_f32 none none broadcasts_S1x40_S5000x40
    Cert.ReferenceIdeal.Facts₀.bcast_S40_S1x40_1 Cert.ReferenceIdeal.Facts₀.bcast_S1x40_S100000x40_0_1 p r q (fun k => ?_) hw
    ((Cert.Lib.Rows.shapeCast_vec_row_apply x4 shapeCasts_S40_S1x40 q).trans hb)
  rw [mulf_apply, addf_apply, addf_apply, shapeCast_self, shapeCast_self, shapeCast_self, broadcast_apply, h0 k, h1 k, h2 k, mean_eq]
  show _ = Ideal.div ((L1 (ix2 r k) + L2 (ix2 r k) + L3 (ix2 r k) : EReal))
    (broadcastInDim Cert.ReferenceIdeal.S100000x64 ![] Cert.ReferenceIdeal.Facts₀.bcast_S_S100000x64
      (constant (F := Ideal) Cert.ReferenceIdeal.S_ .f32 0x40400000#32) (ix2 r k))
  rw [Cert.Lib.RowBroadcast.broadcastInDim_scalar_apply _ Cert.ReferenceIdeal.Facts₀.bcast_S_S100000x64 (ix2 r k) ix0]
  rfl

/-- The printed index maps over the grid: the row blocks move with the point, the weights and the bias stay. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = t.val ∧ win3_5.index t (1 : Fin 2) = 0 :=
  (by decide +kernel : ∀ t : Fin grid3.N, _)

/-- What point t writes back is block t of the host's value. -/
theorem flushed_eq (c : Dev nD) (t : Fin cfg3.N) :
    (dat3 V c).flushed 5 t
      = ((cfg3.win 5).blk t).view.read (Elt Ideal)
          (Cert.Gcn.head (V c main_v35) (V c main_v55) (V c main_v75) (V c main_arg10) (V c main_arg11)) := by
  show (cfg3.win 5).cut (grid3.coords t) ((dat3 V c).after 5 t) = _
  rw [after3_5]
  unfold out3_5
  rw [View.canon_unit_zero hz]
  simp only [View.ld_unit_zero (S := S5000x64) hz, View.ld_unit_zero (S := S64x40) hz, View.ld_unit_zero (S := S40) hz1]
  obtain ⟨e0, e1, e2, e3, e4, e5, e6, e7, e8, e9, e10⟩ := idx_facts t
  have ht : t.val < 20 := lt_of_lt_of_eq t.isLt N_3
  funext y
  obtain ⟨p, q, rfl⟩ : ∃ (p : Fin 5000) (q : Fin 40), y = ix2 p q := ⟨y 0, y 1, eq_ix2 y⟩
  have hr : t.val * 5000 + p.val < 100000 := by have := p.isLt; omega
  show (k3_pay1 (iblk3 V c 0 t) (iblk3 V c 1 t) (iblk3 V c 2 t) (iblk3 V c 3 t) (iblk3 V c 4 t) (ix2 p q) : EReal)
    = Cert.Gcn.head (V c main_v35) (V c main_v55) (V c main_v75) (V c main_arg10) (V c main_arg11)
        (((cfg3.win 5).blk t).view.emb (ix2 p q))
  have hemb : ((cfg3.win 5).blk t).view.emb (ix2 p q) = ix2 (⟨t.val * 5000 + p.val, hr⟩ : Fin 100000) q := by
    funext a; apply Fin.ext
    match a with
    | ⟨0, _⟩ => show win3_5.index t (0 : Fin 2) * 5000 + 1 * p.val = t.val * 5000 + p.val; rw [e9]; omega
    | ⟨1, _⟩ => show win3_5.index t (1 : Fin 2) * 40 + 1 * q.val = q.val; rw [e10]; omega
  rw [hemb]
  refine pay_apply (iblk3 V c 0 t) (iblk3 V c 1 t) (iblk3 V c 2 t) (iblk3 V c 3 t) (iblk3 V c 4 t) (V c main_v35) (V c main_v55)
    (V c main_v75) (V c main_arg10) (V c main_arg11) p ⟨t.val * 5000 + p.val, hr⟩ q (fun k => ?_) (fun k => ?_) (fun k => ?_)
    (fun k => ?_) ?_
  · show V c main_v35 (((cfg3.win 0).blk t).view.emb (ix2 p k)) = _
    refine congrArg (V c main_v35) ?_
    funext a; apply Fin.ext
    match a with
    | ⟨0, _⟩ => show win3_0.index t (0 : Fin 2) * 5000 + 1 * p.val = t.val * 5000 + p.val; rw [e0]; omega
    | ⟨1, _⟩ => show win3_0.index t (1 : Fin 2) * 64 + 1 * k.val = k.val; rw [e1]; omega
  · show V c main_v55 (((cfg3.win 1).blk t).view.emb (ix2 p k)) = _
    refine congrArg (V c main_v55) ?_
    funext a; apply Fin.ext
    match a with
    | ⟨0, _⟩ => show win3_1.index t (0 : Fin 2) * 5000 + 1 * p.val = t.val * 5000 + p.val; rw [e2]; omega
    | ⟨1, _⟩ => show win3_1.index t (1 : Fin 2) * 64 + 1 * k.val = k.val; rw [e3]; omega
  · show V c main_v75 (((cfg3.win 2).blk t).view.emb (ix2 p k)) = _
    refine congrArg (V c main_v75) ?_
    funext a; apply Fin.ext
    match a with
    | ⟨0, _⟩ => show win3_2.index t (0 : Fin 2) * 5000 + 1 * p.val = t.val * 5000 + p.val; rw [e4]; omega
    | ⟨1, _⟩ => show win3_2.index t (1 : Fin 2) * 64 + 1 * k.val = k.val; rw [e5]; omega
  · show V c main_arg10 (((cfg3.win 3).blk t).view.emb (ix2 k q)) = _
    refine congrArg (V c main_arg10) ?_
    funext a; apply Fin.ext
    match a with
    | ⟨0, _⟩ => show win3_3.index t (0 : Fin 2) * 64 + 1 * k.val = k.val; rw [e6]; omega
    | ⟨1, _⟩ => show win3_3.index t (1 : Fin 2) * 40 + 1 * q.val = q.val; rw [e7]; omega
  · show V c main_arg11 (((cfg3.win 4).blk t).view.emb (ix1 q)) = _
    refine congrArg (V c main_arg11) ?_
    funext a; apply Fin.ext
    match a with
    | ⟨0, _⟩ => show win3_4.index t (0 : Fin 1) * 40 + 1 * q.val = q.val; rw [e8]; omega

/-- An index of the array is in point t's block iff each coordinate is in the block's range. -/
theorem mem_blk (t : Fin cfg3.N) (i : S100000x40.Idx) :
    i ∈ ((cfg3.win 5).blk t).view.set ↔ ∀ a : Fin 2, win3_5.index t a * S5000x40.size a ≤ (i a).val
      ∧ (i a).val < win3_5.index t a * S5000x40.size a + S5000x40.size a := by
  show i ∈ ((View.whole main_v76).slice (win3_5.rect t)).set ↔ _
  rw [View.set_slice_whole, Rect.mem_set_unit]
  exact Iff.rfl

/-- Every row is in some point's block: row r in block r / 5000. -/
theorem cover (i : S100000x40.Idx) :
    ∃ t : Fin cfg3.N, (cfg3.win 5).flush t = true ∧ i ∈ ((cfg3.win 5).blk t).view.set := by
  have hi0 : (i 0).val < 100000 := (i 0).isLt
  have hi1 : (i 1).val < 40 := (i 1).isLt
  have hN : cfg3.N = 20 := N_3
  obtain ⟨t, htv⟩ : ∃ t : Fin cfg3.N, t.val = (i 0).val / 5000 := ⟨⟨(i 0).val / 5000, by rw [hN]; omega⟩, rfl⟩
  obtain ⟨e0, e1, e2, e3, e4, e5, e6, e7, e8, e9, e10⟩ := idx_facts t
  refine ⟨t, flush3_5 t, ?_⟩
  rw [mem_blk]
  intro a
  match a with
  | ⟨0, _⟩ =>
    show win3_5.index t (0 : Fin 2) * 5000 ≤ (i 0).val ∧ (i 0).val < win3_5.index t (0 : Fin 2) * 5000 + 5000
    rw [e9, htv]; omega
  | ⟨1, _⟩ =>
    show win3_5.index t (1 : Fin 2) * 40 ≤ (i 1).val ∧ (i 1).val < win3_5.index t (1 : Fin 2) * 40 + 40
    rw [e10]; omega

/-- THE REGION'S ARRAY after the run is the host's value of what it found. -/
theorem final (c : Dev nD) :
    (dat3 V c).arrAt 5 cfg3.N
      = Cert.Gcn.head (V c main_v35) (V c main_v55) (V c main_v75) (V c main_arg10) (V c main_arg11) :=
  (dat3 V c).arrAt_eq_of_cover 5 _ (fun t _ => flushed_eq V c t) (fun i => cover i)

end Cert.KernelIdeal.Reg3

end
-- ==== Proof.KValue.lean ====
/-
  The kernel's result as one function of its arguments.

  Read segment by segment: the host forms the source and target words and the column d; region 0 leaves
  relu(x · Wx + bx) · W1; the host applies the first layer; region 1 multiplies by W2; the host applies the second
  layer; region 2 multiplies by W3; the host applies the third layer; region 3 leaves the head of the three layers.
  Every buffer a later segment reads is one an earlier segment left and nothing in between wrote.
-/
import proofs.«148871_j8967891714117_2_alg».proof.Proof.Spec
import proofs.«148871_j8967891714117_2_alg».proof.Proof.KFold
import proofs.«148871_j8967891714117_2_alg».proof.Proof.KHost
import proofs.«148871_j8967891714117_2_alg».proof.Proof.KReg0
import proofs.«148871_j8967891714117_2_alg».proof.Proof.KReg1
import proofs.«148871_j8967891714117_2_alg».proof.Proof.KReg2
import proofs.«148871_j8967891714117_2_alg».proof.Proof.KReg3

set_option maxRecDepth 16384

noncomputable section

namespace Cert.KernelIdeal.KValue

open Idealize.ShloMosaic Idealize.ShloMosaic.TcCoe Idealize.SL.Sem
open Cert.KernelIdeal Cert.KernelIdeal.Gen Cert.Gcn

variable (m : (ℓ : Loc nD τ sig) → Buf (Elt Ideal) ℓ) (ρ : Dev nD → PrngReg)

/-- The kernel's layer at the run's edge list. -/
def LK (c : Dev nD) := layerK (colF (dinvV (dstW (m ((c : Thread nD τ).loc main_arg1))))) (srcW (m ((c : Thread nD τ).loc main_arg1))) (dstW (m ((c : Thread nD τ).loc main_arg1)))

/-- The first layer's result. -/
def L1 (c : Dev nD) := LK m c (proj (m ((c : Thread nD τ).loc main_arg0)) (m ((c : Thread nD τ).loc main_arg2)) (m ((c : Thread nD τ).loc main_arg3)) (m ((c : Thread nD τ).loc main_arg4))) (m ((c : Thread nD τ).loc main_arg5))
/-- The second layer's result. -/
def L2 (c : Dev nD) := LK m c (lin (L1 m c) (m ((c : Thread nD τ).loc main_arg6))) (m ((c : Thread nD τ).loc main_arg7))
/-- The third layer's result. -/
def L3 (c : Dev nD) := LK m c (lin (L2 m c) (m ((c : Thread nD τ).loc main_arg8))) (m ((c : Thread nD τ).loc main_arg9))

/-! ## The words and the column d at the entry of each host stretch that applies a layer -/

namespace HostVal

/-- The source words at region 0's entry: the stretches after the first leave them alone. -/
theorem W3_v5 (c : Dev nD) : W3 m ρ c (Proc.devRef .tc main_v5) = srcW (m ((c : Thread nD τ).loc main_arg1)) :=
  (Fold.W3_of m ρ c main_v5 (by decide)).trans <| (Fold.W2_of m ρ c main_v5 (by decide)).trans (Cert.KernelIdeal.HostVal.W1_v5 m ρ c)

/-- The target words likewise. -/
theorem W3_v6 (c : Dev nD) : W3 m ρ c (Proc.devRef .tc main_v6) = dstW (m ((c : Thread nD τ).loc main_arg1)) :=
  (Fold.W3_of m ρ c main_v6 (by decide)).trans <| (Fold.W2_of m ρ c main_v6 (by decide)).trans (Cert.KernelIdeal.HostVal.W1_v6 m ρ c)

/-- The column d. -/
theorem W3_v15 (c : Dev nD) :
    W3 m ρ c (Proc.devRef .tc main_v15) = colF (dinvV (dstW (m ((c : Thread nD τ).loc main_arg1)))) :=
  Cert.KernelIdeal.HostVal.W3_v15 m ρ c

end HostVal

theorem W4_v15 (c : Dev nD) : W4 m ρ c (Proc.devRef .tc main_v15) = colF (dinvV (dstW (m ((c : Thread nD τ).loc main_arg1)))) :=
  (Fold.W4_kept m ρ c main_v15 (by decide)).trans (HostVal.W3_v15 m ρ c)
theorem W4_v5 (c : Dev nD) : W4 m ρ c (Proc.devRef .tc main_v5) = srcW (m ((c : Thread nD τ).loc main_arg1)) :=
  (Fold.W4_kept m ρ c main_v5 (by decide)).trans (HostVal.W3_v5 m ρ c)
theorem W4_v6 (c : Dev nD) : W4 m ρ c (Proc.devRef .tc main_v6) = dstW (m ((c : Thread nD τ).loc main_arg1)) :=
  (Fold.W4_kept m ρ c main_v6 (by decide)).trans (HostVal.W3_v6 m ρ c)

theorem W6_v15 (c : Dev nD) : W6 m ρ c (Proc.devRef .tc main_v15) = colF (dinvV (dstW (m ((c : Thread nD τ).loc main_arg1)))) :=
  (Fold.W6_kept m ρ c main_v15 (by decide) (by decide) (by decide)).trans (HostVal.W3_v15 m ρ c)
theorem W6_v5 (c : Dev nD) : W6 m ρ c (Proc.devRef .tc main_v5) = srcW (m ((c : Thread nD τ).loc main_arg1)) :=
  (Fold.W6_kept m ρ c main_v5 (by decide) (by decide) (by decide)).trans (HostVal.W3_v5 m ρ c)
theorem W6_v6 (c : Dev nD) : W6 m ρ c (Proc.devRef .tc main_v6) = dstW (m ((c : Thread nD τ).loc main_arg1)) :=
  (Fold.W6_kept m ρ c main_v6 (by decide) (by decide) (by decide)).trans (HostVal.W3_v6 m ρ c)

theorem W8_v15 (c : Dev nD) : W8 m ρ c (Proc.devRef .tc main_v15) = colF (dinvV (dstW (m ((c : Thread nD τ).loc main_arg1)))) :=
  (Fold.W8_kept m ρ c main_v15 (by decide) (by decide) (by decide) (by decide) (by decide)).trans (HostVal.W3_v15 m ρ c)
theorem W8_v5 (c : Dev nD) : W8 m ρ c (Proc.devRef .tc main_v5) = srcW (m ((c : Thread nD τ).loc main_arg1)) :=
  (Fold.W8_kept m ρ c main_v5 (by decide) (by decide) (by decide) (by decide) (by decide)).trans (HostVal.W3_v5 m ρ c)
theorem W8_v6 (c : Dev nD) : W8 m ρ c (Proc.devRef .tc main_v6) = dstW (m ((c : Thread nD τ).loc main_arg1)) :=
  (Fold.W8_kept m ρ c main_v6 (by decide) (by decide) (by decide) (by decide) (by decide)).trans (HostVal.W3_v6 m ρ c)

/-! ## The arguments where they are read -/

theorem W4_arg5 (c : Dev nD) : W4 m ρ c (Proc.devRef .tc main_arg5) = (m ((c : Thread nD τ).loc main_arg5)) :=
  (Fold.W4_kept m ρ c main_arg5 (by decide)).trans (Fold.W3_launch m ρ c main_arg5 (by decide) (by decide) (by decide))

theorem W5_arg6 (c : Dev nD) : W5 m ρ c (Proc.devRef .tc main_arg6) = (m ((c : Thread nD τ).loc main_arg6)) :=
  (Fold.W5_kept m ρ c main_arg6 (by decide) (by decide)).trans (Fold.W3_launch m ρ c main_arg6 (by decide) (by decide) (by decide))

theorem W6_arg7 (c : Dev nD) : W6 m ρ c (Proc.devRef .tc main_arg7) = (m ((c : Thread nD τ).loc main_arg7)) :=
  (Fold.W6_kept m ρ c main_arg7 (by decide) (by decide) (by decide)).trans (Fold.W3_launch m ρ c main_arg7 (by decide) (by decide) (by decide))

theorem W7_arg8 (c : Dev nD) : W7 m ρ c (Proc.devRef .tc main_arg8) = (m ((c : Thread nD τ).loc main_arg8)) :=
  (Fold.W7_kept m ρ c main_arg8 (by decide) (by decide) (by decide) (by decide)).trans (Fold.W3_launch m ρ c main_arg8 (by decide) (by decide) (by decide))

theorem W8_arg9 (c : Dev nD) : W8 m ρ c (Proc.devRef .tc main_arg9) = (m ((c : Thread nD τ).loc main_arg9)) :=
  (Fold.W8_kept m ρ c main_arg9 (by decide) (by decide) (by decide) (by decide) (by decide)).trans (Fold.W3_launch m ρ c main_arg9 (by decide) (by decide) (by decide))

theorem W9_arg10 (c : Dev nD) : W9 m ρ c (Proc.devRef .tc main_arg10) = (m ((c : Thread nD τ).loc main_arg10)) :=
  (Fold.W9_kept m ρ c main_arg10 (by decide) (by decide) (by decide) (by decide) (by decide) (by decide)).trans (Fold.W3_launch m ρ c main_arg10 (by decide) (by decide) (by decide))

theorem W9_arg11 (c : Dev nD) : W9 m ρ c (Proc.devRef .tc main_arg11) = (m ((c : Thread nD τ).loc main_arg11)) :=
  (Fold.W9_kept m ρ c main_arg11 (by decide) (by decide) (by decide) (by decide) (by decide) (by decide)).trans (Fold.W3_launch m ρ c main_arg11 (by decide) (by decide) (by decide))

/-! ## Segment by segment -/

/-- Region 0 leaves  relu(x · Wx + bx) · W1. -/
theorem W4_v16 (c : Dev nD) :
    W4 m ρ c (Proc.devRef .tc main_v16) = proj (m ((c : Thread nD τ).loc main_arg0)) (m ((c : Thread nD τ).loc main_arg2)) (m ((c : Thread nD τ).loc main_arg3)) (m ((c : Thread nD τ).loc main_arg4)) := by
  refine ((W4_arr m ρ c 4).trans (Reg0.final (V3 m ρ) c)).trans ?_
  show proj (W3 m ρ c (Proc.devRef .tc main_arg0)) (W3 m ρ c (Proc.devRef .tc main_arg2)) (W3 m ρ c (Proc.devRef .tc main_arg3)) (W3 m ρ c (Proc.devRef .tc main_arg4)) = _
  rw [Fold.W3_launch m ρ c main_arg0 (by decide) (by decide) (by decide), Fold.W3_launch m ρ c main_arg2 (by decide) (by decide) (by decide),
    Fold.W3_launch m ρ c main_arg3 (by decide) (by decide) (by decide), Fold.W3_launch m ρ c main_arg4 (by decide) (by decide) (by decide)]

/-- The host then leaves the first layer. -/
theorem W5_v35 (c : Dev nD) : W5 m ρ c (Proc.devRef .tc main_v35) = L1 m c := by
  rw [Cert.KernelIdeal.HostVal.W5_v35, W4_v15, W4_v5, W4_v6, W4_v16, W4_arg5]
  rfl

/-- Region 1 leaves its product with W2. -/
theorem W6_v36 (c : Dev nD) : W6 m ρ c (Proc.devRef .tc main_v36) = lin (L1 m c) (m ((c : Thread nD τ).loc main_arg6)) := by
  refine ((W6_arr m ρ c 2).trans (Reg1.final (V5 m ρ) c)).trans ?_
  show lin (W5 m ρ c (Proc.devRef .tc main_v35)) (W5 m ρ c (Proc.devRef .tc main_arg6)) = _
  rw [W5_v35, W5_arg6]

/-- The host then leaves the second layer. -/
theorem W7_v55 (c : Dev nD) : W7 m ρ c (Proc.devRef .tc main_v55) = L2 m c := by
  rw [Cert.KernelIdeal.HostVal.W7_v55, W6_v15, W6_v5, W6_v6, W6_v36, W6_arg7]
  rfl

/-- Region 2 leaves its product with W3. -/
theorem W8_v56 (c : Dev nD) : W8 m ρ c (Proc.devRef .tc main_v56) = lin (L2 m c) (m ((c : Thread nD τ).loc main_arg8)) := by
  refine ((W8_arr m ρ c 2).trans (Reg2.final (V7 m ρ) c)).trans ?_
  show lin (W7 m ρ c (Proc.devRef .tc main_v55)) (W7 m ρ c (Proc.devRef .tc main_arg8)) = _
  rw [W7_v55, W7_arg8]

/-- The host then leaves the third layer. -/
theorem W9_v75 (c : Dev nD) : W9 m ρ c (Proc.devRef .tc main_v75) = L3 m c := by
  rw [Cert.KernelIdeal.HostVal.W9_v75, W8_v15, W8_v5, W8_v6, W8_v56, W8_arg9]
  rfl

/-- THE RESULT: region 3 leaves the head of the three layers, which is the kernel's network of the arguments. -/
theorem value (c : Dev nD) :
    W10 m ρ c (Proc.devRef .tc main_v76)
      = kerValue (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) (m ((c : Thread nD τ).loc main_arg10)) (m ((c : Thread nD τ).loc main_arg11)) := by
  refine ((W10_arr m ρ c 5).trans (Reg3.final (V9 m ρ) c)).trans ?_
  show head (W9 m ρ c (Proc.devRef .tc main_v35)) (W9 m ρ c (Proc.devRef .tc main_v55)) (W9 m ρ c (Proc.devRef .tc main_v75)) (W9 m ρ c (Proc.devRef .tc main_arg10))
    (W9 m ρ c (Proc.devRef .tc main_arg11)) = _
  rw [Fold.W9_v35, W5_v35, Fold.W9_v55, W7_v55, W9_v75, W9_arg10, W9_arg11]
  rfl

end Cert.KernelIdeal.KValue

end
-- ==== Proof.lean ====
/-
  A graph-convolution network, kernel against reference, over the extended reals.

  Both programs compute  relu(((l1 + l2 + l3) / 3) · Wz + bz)  with  l1 = layer(relu(x · Wx + bx) · W1, b1),
  l2 = layer(l1 · W2, b2), l3 = layer(l2 · W3, b3)  on 100000 nodes.  The kernel runs the four dense stages on the
  matrix unit, block of rows by block of rows, and the graph part on the host with the symmetric normalisation
  factored: rows prescaled by d = 1/sqrt(degree), gathered along the edges, summed at the targets, rescaled by d.
  The reference scales each gathered row by d(source) · d(target) before the sum.  The two layers are one function
  because d(target) is the same real number, not negative, on every edge a node's sum selects, and such a factor
  goes through a sum on the extended reals whatever the summands are (Law.lean); the dense stages agree because a
  product taken block by block with operands narrowed to a smaller float format is, at the ideal values, the whole
  product (KReg0 … KReg3); the kernel's constant 1/3 is named, and a quotient by 3 is the product with 1/3.
  No finiteness of the inputs is used.
-/
import proofs.«148871_j8967891714117_2_alg».proof.Defs
import proofs.«148871_j8967891714117_2_alg».proof.Proof.Gen.Kernel
import proofs.«148871_j8967891714117_2_alg».proof.Proof.Gen.Kernel.Skeleton
import proofs.«148871_j8967891714117_2_alg».proof.Proof.Gen.Kernel.Launch
import proofs.«148871_j8967891714117_2_alg».proof.Proof.Gen.Kernel.Points
import proofs.«148871_j8967891714117_2_alg».proof.Proof.Gen.Kernel.Frame
import proofs.«148871_j8967891714117_2_alg».proof.Proof.Gen.KernelIdeal
import proofs.«148871_j8967891714117_2_alg».proof.Proof.Gen.KernelIdeal.Skeleton
import proofs.«148871_j8967891714117_2_alg».proof.Proof.Gen.KernelIdeal.Launch
import proofs.«148871_j8967891714117_2_alg».proof.Proof.Gen.KernelIdeal.Points
import proofs.«148871_j8967891714117_2_alg».proof.Proof.Gen.KernelIdeal.Frame
import proofs.«148871_j8967891714117_2_alg».proof.Proof.Gen.ReferenceIdeal
import proofs.«148871_j8967891714117_2_alg».proof.Proof.Gen.Pre_finite_inputs
import proofs.«148871_j8967891714117_2_alg».proof.Proof.RefRunP
import proofs.«148871_j8967891714117_2_alg».proof.Proof.RefValue
import proofs.«148871_j8967891714117_2_alg».proof.Proof.Law
import proofs.«148871_j8967891714117_2_alg».proof.Proof.KRun
import proofs.«148871_j8967891714117_2_alg».proof.Proof.KValue
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The one rewrite of the idealization: the constant 0.333333343 is named 1/3. -/
theorem preserves : Cert.preserves_Kernel_KernelIdeal :=
  IdealRules.named_const.statement Cert.KernelIdeal.κ "inv_3" .f32 0x3EAAAAAB#32 ((1 / 3 : ℝ) : EReal) rfl

/-- From memories agreeing on the arguments both programs end with the network of the arguments in the result:
    the kernel's, layer by layer, is the reference's. -/
theorem algebraic : Cert.algebraic_KernelIdeal_ReferenceIdeal := by
  intro m ρ m' ρ' _ hagree
  refine ⟨fun c => Cert.KernelIdeal.Gen.W10 m ρ c (Proc.devRef .tc Cert.KernelIdeal.main_v76), Cert.KernelIdeal.Run.run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9, a10, a11⟩ := hagree c
  rw [Cert.ReferenceIdeal.RefValue.res_eq, a0, a1, a2, a3, a4, a5, a6, a7, a8, a9, a10, a11]
  show _ = Cert.KernelIdeal.Gen.W10 m ρ c (Proc.devRef .tc Cert.KernelIdeal.main_v76)
  rw [Cert.KernelIdeal.KValue.value, Cert.Gcn.kerValue_eq_refValue]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
